-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x2 : Shape := ⟨2, ![8192, 2]⟩
abbrev S2x262144 : Shape := ⟨2, ![2, 262144]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg5 : FVec F S32x32 .f32) (main_arg6 : FVec F S32 .f32) (main_arg7 : FVec F S32x16 .f32) (main_arg8 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg8 main_v33

def fn {F : FTy → Type} [FloatOps F] (main_arg0 : FVec F S8192x64 .f32) (main_arg1 : FVec F S8192x2 .f32) (main_arg2 : IVec S2x262144 32) (main_arg3 : FVec F S64x32 .f32) (main_arg4 : FVec F S32 .f32) (main_arg5 : FVec F S32x32 .f32) (main_arg6 : FVec F S32 .f32) (main_arg7 : FVec F S32x16 .f32) (main_arg8 : FVec F S16 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S8192x64 : Shape := ⟨2, ![8192, 64]⟩
abbrev S8192x2 : Shape := ⟨2, ![8192, 2]⟩
abbrev S2x262144 : Shape := ⟨2, ![2, 262144]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S2x8192 : Shape := ⟨2, ![2, 8192]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S64 : Shape := ⟨1, ![64]⟩
abbrev S1x64 : Shape := ⟨2, ![1, 64]⟩
abbrev S1024x2 : Shape := ⟨2, ![1024, 2]⟩
abbrev S1024x64 : Shape := ⟨2, ![1024, 64]⟩
abbrev S1024x1 : Shape := ⟨2, ![1024, 1]⟩
abbrev S1x512 : Shape := ⟨2, ![1, 512]⟩
abbrev S1024x512 : Shape := ⟨2, ![1024, 512]⟩
abbrev S512x64 : Shape := ⟨2, ![512, 64]⟩
abbrev S8192x32 : Shape := ⟨2, ![8192, 32]⟩
abbrev S270336x32 : Shape := ⟨2, ![270336, 32]⟩
abbrev S1x32 : Shape := ⟨2, ![1, 32]⟩
abbrev S1024x32 : Shape := ⟨2, ![1024, 32]⟩
abbrev S512x32 : Shape := ⟨2, ![512, 32]⟩
abbrev S8192x16 : Shape := ⟨2, ![8192, 16]⟩
abbrev S270336x16 : Shape := ⟨2, ![270336, 16]⟩
abbrev S1x16 : Shape := ⟨2, ![1, 16]⟩
abbrev S8192x1 : Shape := ⟨2, ![8192, 1]⟩

abbrev nBuf : Space → Nat
  | .hbm => 146
  | .vmem => 21
  | .smem => 0
  | _ => 0

abbrev hbmTy0_0 (i : Nat) : BufTy := match i % 128 with
  | 0 => ⟨S8192x64, .f32⟩
  | 1 => ⟨S8192x2, .f32⟩
  | 2 => ⟨S2x262144, .i32⟩
  | 3 => ⟨S64x32, .f32⟩
  | 4 => ⟨S32, .f32⟩
  | 5 => ⟨S32x32, .f32⟩
  | 6 => ⟨S32, .f32⟩
  | 7 => ⟨S32x16, .f32⟩
  | 8 => ⟨S16, .f32⟩
  | 9 => ⟨S2x8192, .f32⟩
  | 10 => ⟨S8192, .i32⟩
  | 11 => ⟨S1x262144, .i32⟩
  | 12 => ⟨S262144, .i32⟩
  | 13 => ⟨S270336, .i32⟩
  | 14 => ⟨S1x262144, .i32⟩
  | 15 => ⟨S262144, .i32⟩
  | 16 => ⟨S270336, .i32⟩
  | 17 => ⟨S_, .f32⟩
  | 18 => ⟨S270336, .f32⟩
  | 19 => ⟨S_, .f32⟩
  | 20 => ⟨S8192, .f32⟩
  | 21 => ⟨S270336x1, .i32⟩
  | 22 => ⟨S8192, .f32⟩
  | 23 => ⟨S_, .f32⟩
  | 24 => ⟨S8192, .f32⟩
  | 25 => ⟨S8192, .i1⟩
  | 26 => ⟨S_, .f32⟩
  | 27 => ⟨S8192, .f32⟩
  | 28 => ⟨S8192, .f32⟩
  | 29 => ⟨S8192, .f32⟩
  | 30 => ⟨S_, .f32⟩
  | 31 => ⟨S_, .f32⟩
  | 32 => ⟨S8192, .f32⟩
  | 33 => ⟨S8192, .f32⟩
  | 34 => ⟨S_, .i32⟩
  | 35 => ⟨S270336, .i32⟩
  | 36 => ⟨S270336, .i1⟩
  | 37 => ⟨S_, .i32⟩
  | 38 => ⟨S270336, .i32⟩
  | 39 => ⟨S270336, .i32⟩
  | 40 => ⟨S270336, .i32⟩
  | 41 => ⟨S270336x1, .i32⟩
  | 42 => ⟨S270336, .f32⟩
  | 43 => ⟨S_, .i32⟩
  | 44 => ⟨S270336, .i32⟩
  | 45 => ⟨S270336, .i1⟩
  | 46 => ⟨S_, .i32⟩
  | 47 => ⟨S270336, .i32⟩
  | 48 => ⟨S270336, .i32⟩
  | 49 => ⟨S270336, .i32⟩
  | 50 => ⟨S270336x1, .i32⟩
  | 51 => ⟨S270336, .f32⟩
  | 52 => ⟨S270336, .f32⟩
  | 53 => ⟨S_, .f32⟩
  | 54 => ⟨S64, .f32⟩
  | 55 => ⟨S1x64, .f32⟩
  | 56 => ⟨S8192x64, .f32⟩
  | 57 => ⟨S8192x32, .f32⟩
  | 58 => ⟨S_, .i32⟩
  | 59 => ⟨S270336, .i32⟩
  | 60 => ⟨S270336, .i1⟩
  | 61 => ⟨S_, .i32⟩
  | 62 => ⟨S270336, .i32⟩
  | 63 => ⟨S270336, .i32⟩
  | 64 => ⟨S270336, .i32⟩
  | 65 => ⟨S270336x1, .i32⟩
  | 66 => ⟨S270336x32, .f32⟩
  | 67 => ⟨S270336x1, .f32⟩
  | 68 => ⟨S270336x32, .f32⟩
  | 69 => ⟨S270336x32, .f32⟩
  | 70 => ⟨S_, .f32⟩
  | 71 => ⟨S8192x32, .f32⟩
  | 72 => ⟨S270336x1, .i32⟩
  | 73 => ⟨S8192x32, .f32⟩
  | 74 => ⟨S1x32, .f32⟩
  | 75 => ⟨S8192x32, .f32⟩
  | 76 => ⟨S8192x32, .f32⟩
  | 77 => ⟨S_, .f32⟩
  | 78 => ⟨S8192x32, .f32⟩
  | 79 => ⟨S8192x32, .f32⟩
  | 80 => ⟨S_, .f32⟩
  | 81 => ⟨S32, .f32⟩
  | 82 => ⟨S1x32, .f32⟩
  | 83 => ⟨S8192x32, .f32⟩
  | 84 => ⟨S8192x32, .f32⟩
  | 85 => ⟨S_, .i32⟩
  | 86 => ⟨S270336, .i32⟩
  | 87 => ⟨S270336, .i1⟩
  | 88 => ⟨S_, .i32⟩
  | 89 => ⟨S270336, .i32⟩
  | 90 => ⟨S270336, .i32⟩
  | 91 => ⟨S270336, .i32⟩
  | 92 => ⟨S270336x1, .i32⟩
  | 93 => ⟨S270336x32, .f32⟩
  | 94 => ⟨S270336x1, .f32⟩
  | 95 => ⟨S270336x32, .f32⟩
  | 96 => ⟨S270336x32, .f32⟩
  | 97 => ⟨S_, .f32⟩
  | 98 => ⟨S8192x32, .f32⟩
  | 99 => ⟨S270336x1, .i32⟩
  | 100 => ⟨S8192x32, .f32⟩
  | 101 => ⟨S1x32, .f32⟩
  | 102 => ⟨S8192x32, .f32⟩
  | 103 => ⟨S8192x32, .f32⟩
  | 104 => ⟨S_, .f32⟩
  | 105 => ⟨S8192x32, .f32⟩
  | 106 => ⟨S8192x32, .f32⟩
  | 107 => ⟨S_, .f32⟩
  | 108 => ⟨S32, .f32⟩
  | 109 => ⟨S1x32, .f32⟩
  | 110 => ⟨S8192x32, .f32⟩
  | 111 => ⟨S8192x16, .f32⟩
  | 112 => ⟨S_, .i32⟩
  | 113 => ⟨S270336, .i32⟩
  | 114 => ⟨S270336, .i1⟩
  | 115 => ⟨S_, .i32⟩
  | 116 => ⟨S270336, .i32⟩
  | 117 => ⟨S270336, .i32⟩
  | 118 => ⟨S270336, .i32⟩
  | 119 => ⟨S270336x1, .i32⟩
  | 120 => ⟨S270336x16, .f32⟩
  | 121 => ⟨S270336x1, .f32⟩
  | 122 => ⟨S270336x16, .f32⟩
  | 123 => ⟨S270336x16, .f32⟩
  | 124 => ⟨S_, .f32⟩
  | 125 => ⟨S8192x16, .f32⟩
  | 126 => ⟨S270336x1, .i32⟩
  | 127 => ⟨S8192x16, .f32⟩
  | _ => ⟨S8192x64, .f32⟩

abbrev hbmTy0_1 (i : Nat) : BufTy := match i % 128 with
  | 0 => ⟨S1x16, .f32⟩
  | 1 => ⟨S8192x16, .f32⟩
  | 2 => ⟨S8192x16, .f32⟩
  | 3 => ⟨S_, .f32⟩
  | 4 => ⟨S8192, .f32⟩
  | 5 => ⟨S_, .f32⟩
  | 6 => ⟨S8192, .f32⟩
  | 7 => ⟨S8192, .f32⟩
  | 8 => ⟨S8192x1, .f32⟩
  | 9 => ⟨S8192x16, .f32⟩
  | 10 => ⟨S8192x16, .f32⟩
  | 11 => ⟨S8192x16, .f32⟩
  | 12 => ⟨S_, .f32⟩
  | 13 => ⟨S8192, .f32⟩
  | 14 => ⟨S8192x1, .f32⟩
  | 15 => ⟨S8192x1, .f32⟩
  | 16 => ⟨S8192x16, .f32⟩
  | 17 => ⟨S8192x16, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | .local _ .vmem, ⟨0, _⟩ => ⟨S1024x2, .f32⟩
  | .local _ .vmem, ⟨1, _⟩ => ⟨S1024x2, .f32⟩
  | .local _ .vmem, ⟨2, _⟩ => ⟨S2x8192, .f32⟩
  | .local _ .vmem, ⟨3, _⟩ => ⟨S8192x64, .f32⟩
  | .local _ .vmem, ⟨4, _⟩ => ⟨S1x64, .f32⟩
  | .local _ .vmem, ⟨5, _⟩ => ⟨S1024x64, .f32⟩
  | .local _ .vmem, ⟨6, _⟩ => ⟨S1024x64, .f32⟩
  | .local _ .vmem, ⟨7, _⟩ => ⟨S1024x2, .f32⟩
  | .local _ .vmem, ⟨8, _⟩ => ⟨S1024x2, .f32⟩
  | .local _ .vmem, ⟨9, _⟩ => ⟨S2x8192, .f32⟩
  | .local _ .vmem, ⟨10, _⟩ => ⟨S8192x32, .f32⟩
  | .local _ .vmem, ⟨11, _⟩ => ⟨S1x32, .f32⟩
  | .local _ .vmem, ⟨12, _⟩ => ⟨S1024x32, .f32⟩
  | .local _ .vmem, ⟨13, _⟩ => ⟨S1024x32, .f32⟩
  | .local _ .vmem, ⟨14, _⟩ => ⟨S1024x2, .f32⟩
  | .local _ .vmem, ⟨15, _⟩ => ⟨S1024x2, .f32⟩
  | .local _ .vmem, ⟨16, _⟩ => ⟨S2x8192, .f32⟩
  | .local _ .vmem, ⟨17, _⟩ => ⟨S8192x32, .f32⟩
  | .local _ .vmem, ⟨18, _⟩ => ⟨S1x32, .f32⟩
  | .local _ .vmem, ⟨19, _⟩ => ⟨S1024x32, .f32⟩
  | .local _ .vmem, ⟨20, _⟩ => ⟨S1024x32, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_call2_cst : Ref sig .tc := ⟨.hbm, 104, rfl⟩
abbrev main_call2_v0 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_16 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_call3_cst_0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_cst_1 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_v95 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x8192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8192x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S8192x2_S2x8192_1_0 : S8192x2.Transposes [1, 0] S2x8192
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  reducesTo_S8192x64_S64_d0 : S8192x64.ReducesTo [0] S64
  h_S_ : 0 < S_.numel
  bcast_S64_S1x64_1 : S64.BroadcastsInDim S1x64 (![1] : Fin 1 → Fin S1x64.rank)
  inb_S1024x2_S1024x2_0_0 : ∀ a, (![0, 0] : Fin 2 → Nat) a + S1024x2.size a ≤ S1024x2.size a
  h_S1024x2 : 0 < S1024x2.numel
  slices_S1024x2_o0_0_S1024x1 : S1024x2.Slices ![0, 0] S1024x1
  slices_S1024x2_o0_1_S1024x1 : S1024x2.Slices ![0, 1] S1024x1
  inb_S2x8192_S1x512_0_0 : ∀ a, (![0, 0] : Fin 2 → Nat) a + S1x512.size a ≤ S2x8192.size a
  h_S1x512 : 0 < S1x512.numel
  shapeCasts_S1x512_S1x512 : S1x512.ShapeCasts S1x512
  inb_S2x8192_S1x512_1_0 : ∀ a, (![1, 0] : Fin 2 → Nat) a + S1x512.size a ≤ S2x8192.size a
  broadcasts_S1024x1_S1024x512 : S1024x1.Broadcasts S1024x512
  broadcasts_S1x512_S1024x512 : S1x512.Broadcasts S1024x512
  inb_S8192x64_S512x64_0_0 : ∀ a, (![0, 0] : Fin 2 → Nat) a + S512x64.size a ≤ S8192x64.size a
  h_S512x64 : 0 < S512x64.numel
  bitsLt_bf16_f32 : FTy.bits .bf16 < FTy.bits .f32
  inb_S2x8192_S1x512_0_512 : ∀ a, (![0, 512] : Fin 2 → Nat) a + S1x512.size a ≤ S2x8192.size a
  inb_S2x8192_S1x512_1_512 : ∀ a, (![1, 512] : Fin 2 → Nat) a + S1x512.size a ≤ S2x8192.size a
  inb_S8192x64_S512x64_512_0 : ∀ a, (![512, 0] : Fin 2 → Nat) a + S512x64.size a ≤ S8192x64.size a
  inb_S2x8192_S1x512_0_1024 : ∀ a, (![0, 1024] : Fin 2 → Nat) a + S1x512.size a ≤ S2x8192.size a
  inb_S2x8192_S1x512_1_1024 : ∀ a, (![1, 1024] : Fin 2 → Nat) a + S1x512.size a ≤ S2x8192.size a
  inb_S8192x64_S512x64_1024_0 : ∀ a, (![1024, 0] : Fin 2 → Nat) a + S512x64.size a ≤ S8192x64.size a
  inb_S2x8192_S1x512_0_1536 : ∀ a, (![0, 1536] : Fin 2 → Nat) a + S1x512.size a ≤ S2x8192.size a
  inb_S2x8192_S1x512_1_1536 : ∀ a, (![1, 1536] : Fin 2 → Nat) a + S1x512.size a ≤ S2x8192.size a
  inb_S8192x64_S512x64_1536_0 : ∀ a, (![1536, 0] : Fin 2 → Nat) a + S512x64.size a ≤ S8192x64.size a
  inb_S2x8192_S1x512_0_2048 : ∀ a, (![0, 2048] : Fin 2 → Nat) a + S1x512.size a ≤ S2x8192.size a
  inb_S2x8192_S1x512_1_2048 : ∀ a, (![1, 2048] : Fin 2 → Nat) a + S1x512.size a ≤ S2x8192.size a
  inb_S8192x64_S512x64_2048_0 : ∀ a, (![2048, 0] : Fin 2 → Nat) a + S512x64.size a ≤ S8192x64.size a
  inb_S2x8192_S1x512_0_2560 : ∀ a, (![0, 2560] : Fin 2 → Nat) a + S1x512.size a ≤ S2x8192.size a
  inb_S2x8192_S1x512_1_2560 : ∀ a, (![1, 2560] : Fin 2 → Nat) a + S1x512.size a ≤ S2x8192.size a
  inb_S8192x64_S512x64_2560_0 : ∀ a, (![2560, 0] : Fin 2 → Nat) a + S512x64.size a ≤ S8192x64.size a
  inb_S2x8192_S1x512_0_3072 : ∀ a, (![0, 3072] : Fin 2 → Nat) a + S1x512.size a ≤ S2x8192.size a
  inb_S2x8192_S1x512_1_3072 : ∀ a, (![1, 3072] : Fin 2 → Nat) a + S1x512.size a ≤ S2x8192.size a
  inb_S8192x64_S512x64_3072_0 : ∀ a, (![3072, 0] : Fin 2 → Nat) a + S512x64.size a ≤ S8192x64.size a
  inb_S2x8192_S1x512_0_3584 : ∀ a, (![0, 3584] : Fin 2 → Nat) a + S1x512.size a ≤ S2x8192.size a
  inb_S2x8192_S1x512_1_3584 : ∀ a, (![1, 3584] : Fin 2 → Nat) a + S1x512.size a ≤ S2x8192.size a
  inb_S8192x64_S512x64_3584_0 : ∀ a, (![3584, 0] : Fin 2 → Nat) a + S512x64.size a ≤ S8192x64.size a
  inb_S2x8192_S1x512_0_4096 : ∀ a, (![0, 4096] : Fin 2 → Nat) a + S1x512.size a ≤ S2x8192.size a
  inb_S2x8192_S1x512_1_4096 : ∀ a, (![1, 4096] : Fin 2 → Nat) a + S1x512.size a ≤ S2x8192.size a
  inb_S8192x64_S512x64_4096_0 : ∀ a, (![4096, 0] : Fin 2 → Nat) a + S512x64.size a ≤ S8192x64.size a
  inb_S2x8192_S1x512_0_4608 : ∀ a, (![0, 4608] : Fin 2 → Nat) a + S1x512.size a ≤ S2x8192.size a
  inb_S2x8192_S1x512_1_4608 : ∀ a, (![1, 4608] : Fin 2 → Nat) a + S1x512.size a ≤ S2x8192.size a
  inb_S8192x64_S512x64_4608_0 : ∀ a, (![4608, 0] : Fin 2 → Nat) a + S512x64.size a ≤ S8192x64.size a
  inb_S2x8192_S1x512_0_5120 : ∀ a, (![0, 5120] : Fin 2 → Nat) a + S1x512.size a ≤ S2x8192.size a
  inb_S2x8192_S1x512_1_5120 : ∀ a, (![1, 5120] : Fin 2 → Nat) a + S1x512.size a ≤ S2x8192.size a
  inb_S8192x64_S512x64_5120_0 : ∀ a, (![5120, 0] : Fin 2 → Nat) a + S512x64.size a ≤ S8192x64.size a
  inb_S2x8192_S1x512_0_5632 : ∀ a, (![0, 5632] : Fin 2 → Nat) a + S1x512.size a ≤ S2x8192.size a
  inb_S2x8192_S1x512_1_5632 : ∀ a, (![1, 5632] : Fin 2 → Nat) a + S1x512.size a ≤ S2x8192.size a
  inb_S8192x64_S512x64_5632_0 : ∀ a, (![5632, 0] : Fin 2 → Nat) a + S512x64.size a ≤ S8192x64.size a
  inb_S2x8192_S1x512_0_6144 : ∀ a, (![0, 6144] : Fin 2 → Nat) a + S1x512.size a ≤ S2x8192.size a
  inb_S2x8192_S1x512_1_6144 : ∀ a, (![1, 6144] : Fin 2 → Nat) a + S1x512.size a ≤ S2x8192.size a
  inb_S8192x64_S512x64_6144_0 : ∀ a, (![6144, 0] : Fin 2 → Nat) a + S512x64.size a ≤ S8192x64.size a
  inb_S2x8192_S1x512_0_6656 : ∀ a, (![0, 6656] : Fin 2 → Nat) a + S1x512.size a ≤ S2x8192.size a
  inb_S2x8192_S1x512_1_6656 : ∀ a, (![1, 6656] : Fin 2 → Nat) a + S1x512.size a ≤ S2x8192.size a
  inb_S8192x64_S512x64_6656_0 : ∀ a, (![6656, 0] : Fin 2 → Nat) a + S512x64.size a ≤ S8192x64.size a
  inb_S2x8192_S1x512_0_7168 : ∀ a, (![0, 7168] : Fin 2 → Nat) a + S1x512.size a ≤ S2x8192.size a
  inb_S2x8192_S1x512_1_7168 : ∀ a, (![1, 7168] : Fin 2 → Nat) a + S1x512.size a ≤ S2x8192.size a
  inb_S8192x64_S512x64_7168_0 : ∀ a, (![7168, 0] : Fin 2 → Nat) a + S512x64.size a ≤ S8192x64.size a
  inb_S2x8192_S1x512_0_7680 : ∀ a, (![0, 7680] : Fin 2 → Nat) a + S1x512.size a ≤ S2x8192.size a
  inb_S2x8192_S1x512_1_7680 : ∀ a, (![1, 7680] : Fin 2 → Nat) a + S1x512.size a ≤ S2x8192.size a
  inb_S8192x64_S512x64_7680_0 : ∀ a, (![7680, 0] : Fin 2 → Nat) a + S512x64.size a ≤ S8192x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  bcast_S270336x1_S270336x32_0_1 : S270336x1.BroadcastsInDim S270336x32 (![0, 1] : Fin 2 → Fin S270336x32.rank)
  bcast_S_S8192x32 : S_.BroadcastsInDim S8192x32 (![] : Fin 0 → Fin S8192x32.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  reducesTo_S8192x32_S32_d0 : S8192x32.ReducesTo [0] S32
  inb_S8192x32_S512x32_0_0 : ∀ a, (![0, 0] : Fin 2 → Nat) a + S512x32.size a ≤ S8192x32.size a
  h_S512x32 : 0 < S512x32.numel
  shapeCasts_S512x32_S512x32 : S512x32.ShapeCasts S512x32
  inb_S8192x32_S512x32_512_0 : ∀ a, (![512, 0] : Fin 2 → Nat) a + S512x32.size a ≤ S8192x32.size a
  inb_S8192x32_S512x32_1024_0 : ∀ a, (![1024, 0] : Fin 2 → Nat) a + S512x32.size a ≤ S8192x32.size a
  inb_S8192x32_S512x32_1536_0 : ∀ a, (![1536, 0] : Fin 2 → Nat) a + S512x32.size a ≤ S8192x32.size a
  inb_S8192x32_S512x32_2048_0 : ∀ a, (![2048, 0] : Fin 2 → Nat) a + S512x32.size a ≤ S8192x32.size a
  inb_S8192x32_S512x32_2560_0 : ∀ a, (![2560, 0] : Fin 2 → Nat) a + S512x32.size a ≤ S8192x32.size a
  inb_S8192x32_S512x32_3072_0 : ∀ a, (![3072, 0] : Fin 2 → Nat) a + S512x32.size a ≤ S8192x32.size a
  inb_S8192x32_S512x32_3584_0 : ∀ a, (![3584, 0] : Fin 2 → Nat) a + S512x32.size a ≤ S8192x32.size a
  inb_S8192x32_S512x32_4096_0 : ∀ a, (![4096, 0] : Fin 2 → Nat) a + S512x32.size a ≤ S8192x32.size a
  inb_S8192x32_S512x32_4608_0 : ∀ a, (![4608, 0] : Fin 2 → Nat) a + S512x32.size a ≤ S8192x32.size a
  inb_S8192x32_S512x32_5120_0 : ∀ a, (![5120, 0] : Fin 2 → Nat) a + S512x32.size a ≤ S8192x32.size a
  inb_S8192x32_S512x32_5632_0 : ∀ a, (![5632, 0] : Fin 2 → Nat) a + S512x32.size a ≤ S8192x32.size a
  inb_S8192x32_S512x32_6144_0 : ∀ a, (![6144, 0] : Fin 2 → Nat) a + S512x32.size a ≤ S8192x32.size a
  inb_S8192x32_S512x32_6656_0 : ∀ a, (![6656, 0] : Fin 2 → Nat) a + S512x32.size a ≤ S8192x32.size a
  inb_S8192x32_S512x32_7168_0 : ∀ a, (![7168, 0] : Fin 2 → Nat) a + S512x32.size a ≤ S8192x32.size a
  inb_S8192x32_S512x32_7680_0 : ∀ a, (![7680, 0] : Fin 2 → Nat) a + S512x32.size a ≤ S8192x32.size a
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S1024x32_S1024x32_0_0 : ∀ a, (![0, 0] : Fin 2 → Nat) a + S1024x32.size a ≤ S1024x32.size a
  h_S1024x32 : 0 < S1024x32.numel
  bcast_S270336x1_S270336x16_0_1 : S270336x1.BroadcastsInDim S270336x16 (![0, 1] : Fin 2 → Fin S270336x16.rank)
  bcast_S_S8192x16 : S_.BroadcastsInDim S8192x16 (![] : Fin 0 → Fin S8192x16.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S1024x512_S512x64_S1024x64_1_0_0_1_n_n_wf : DotDims.WF S1024x512 S512x64 S1024x64 [1] [0] [0] [1] [] []
  dot_S8192x64_S64x32_S8192x32_1_0_0_1_n_n_wf : DotDims.WF S8192x64 S64x32 S8192x32 [1] [0] [0] [1] [] []
  gather_S8192x32_S270336x1_S270336x32_1_0_n_n_0_1_132_wf : GatherDims.WF S8192x32 S270336x1 S270336x32 [1] [0] [] [0] [] 1 ![1, 32]
  scatter_S8192x32_S270336x1_S270336x32_1_0_0_1_wf : ScatterDims.WF S8192x32 S270336x1 S270336x32 [1] [0] [0] 1
  dot_S1024x512_S512x32_S1024x32_1_0_0_1_n_n_wf : DotDims.WF S1024x512 S512x32 S1024x32 [1] [0] [0] [1] [] []
  dot_S8192x32_S32x32_S8192x32_1_0_0_1_n_n_wf : DotDims.WF S8192x32 S32x32 S8192x32 [1] [0] [0] [1] [] []
  dot_S8192x32_S32x16_S8192x16_1_0_0_1_n_n_wf : DotDims.WF S8192x32 S32x16 S8192x16 [1] [0] [0] [1] [] []
  gather_S8192x16_S270336x1_S270336x16_1_0_n_n_0_1_116_wf : GatherDims.WF S8192x16 S270336x1 S270336x16 [1] [0] [] [0] [] 1 ![1, 16]
  scatter_S8192x16_S270336x1_S270336x16_1_0_0_1_wf : ScatterDims.WF S8192x16 S270336x1 S270336x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S8192x2.size a
  hwx0_0 : ∀ i : grid0.Coords, EltTy.bits .f32 = 32 ∨ (Rect.block (s := S8192x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x8192.size a ≤ S2x8192.size a
  hwx0_1 : ∀ i : grid0.Coords, EltTy.bits .f32 = 32 ∨ (Rect.block (s := S2x8192) S2x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .f32 = 32 ∨ (Rect.block (s := S8192x64) S8192x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2.size a ≤ S8192x2.size a
  hwx1_0 : ∀ i : grid1.Coords, EltTy.bits .f32 = 32 ∨ (Rect.block (s := S8192x2) S1024x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x8192.size a ≤ S2x8192.size a
  hwx1_1 : ∀ i : grid1.Coords, EltTy.bits .f32 = 32 ∨ (Rect.block (s := S2x8192) S2x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x32.size a ≤ S8192x32.size a
  hwx1_2 : ∀ i : grid1.Coords, EltTy.bits .f32 = 32 ∨ (Rect.block (s := S8192x32) S8192x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x32.size a ≤ S8192x32.size a
  hwx1_4 : ∀ i : grid1.Coords, EltTy.bits .f32 = 32 ∨ (Rect.block (s := S8192x32) S1024x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2.size a ≤ S8192x2.size a
  hwx2_0 : ∀ i : grid2.Coords, EltTy.bits .f32 = 32 ∨ (Rect.block (s := S8192x2) S1024x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x8192.size a ≤ S2x8192.size a
  hwx2_1 : ∀ i : grid2.Coords, EltTy.bits .f32 = 32 ∨ (Rect.block (s := S2x8192) S2x8192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x32.size a ≤ S8192x32.size a
  hwx2_2 : ∀ i : grid2.Coords, EltTy.bits .f32 = 32 ∨ (Rect.block (s := S8192x32) S8192x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x32.size a ≤ S8192x32.size a
  hwx2_4 : ∀ i : grid2.Coords, EltTy.bits .f32 = 32 ∨ (Rect.block (s := S8192x32) S1024x32.size (cc2_transform_4 i) (hinb2_4 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def gather_S8192x32_S270336x1_S270336x32_1_0_n_n_0_1_132 : GatherDims S8192x32 S270336x1 S270336x32 where
  offsetDims := [1]
  collapsedSliceDims := [0]
  operandBatchingDims := []
  startIndicesBatchingDims := []
  startIndexMap := [0]
  indexVectorDim := 1
  sliceSizes := ![1, 32]
  wf := gather_S8192x32_S270336x1_S270336x32_1_0_n_n_0_1_132_wf
def scatter_S8192x32_S270336x1_S270336x32_1_0_0_1 : ScatterDims S8192x32 S270336x1 S270336x32 where
  updateWindowDims := [1]
  insertedWindowDims := [0]
  scatterDimsToOperandDims := [0]
  indexVectorDim := 1
  wf := scatter_S8192x32_S270336x1_S270336x32_1_0_0_1_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def gather_S8192x16_S270336x1_S270336x16_1_0_n_n_0_1_116 : GatherDims S8192x16 S270336x1 S270336x16 where
  offsetDims := [1]
  collapsedSliceDims := [0]
  operandBatchingDims := []
  startIndicesBatchingDims := []
  startIndexMap := [0]
  indexVectorDim := 1
  sliceSizes := ![1, 16]
  wf := gather_S8192x16_S270336x1_S270336x16_1_0_n_n_0_1_116_wf
def scatter_S8192x16_S270336x1_S270336x16_1_0_0_1 : ScatterDims S8192x16 S270336x1 S270336x16 where
  updateWindowDims := [1]
  insertedWindowDims := [0]
  scatterDimsToOperandDims := [0]
  indexVectorDim := 1
  wf := scatter_S8192x16_S270336x1_S270336x16_1_0_0_1_wf

abbrev win0_0 : Pipeline.Window sig grid0 :=
  Pipeline.Window.ofSpec (Memref.whole main_arg1) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1024x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S8192x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1024x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S1024x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2x8192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S8192x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S1024x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x64 : Shape := ⟨2, ![8192, 64]⟩
abbrev S8192x2 : Shape := ⟨2, ![8192, 2]⟩
abbrev S2x262144 : Shape := ⟨2, ![2, 262144]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8192 : Shape := ⟨2, ![2, 8192]⟩
abbrev S1x262144 : Shape := ⟨2, ![1, 262144]⟩
abbrev S262144 : Shape := ⟨1, ![262144]⟩
abbrev S270336 : Shape := ⟨1, ![270336]⟩
abbrev S270336x1 : Shape := ⟨2, ![270336, 1]⟩
abbrev S8192x32 : Shape := ⟨2, ![8192, 32]⟩
abbrev S270336x32 : Shape := ⟨2, ![270336, 32]⟩
abbrev S1x32 : Shape := ⟨2, ![1, 32]⟩
abbrev S8192x16 : Shape := ⟨2, ![8192, 16]⟩
abbrev S270336x16 : Shape := ⟨2, ![270336, 16]⟩
abbrev S1x16 : Shape := ⟨2, ![1, 16]⟩

abbrev nBuf : Space → Nat
  | .hbm => 158
  | .vmem => 0
  | .smem => 0
  | _ => 0

abbrev hbmTy0_0 (i : Nat) : BufTy := match i % 128 with
  | 0 => ⟨S8192x64, .f32⟩
  | 1 => ⟨S8192x2, .f32⟩
  | 2 => ⟨S2x262144, .i32⟩
  | 3 => ⟨S64x32, .f32⟩
  | 4 => ⟨S32, .f32⟩
  | 5 => ⟨S32x32, .f32⟩
  | 6 => ⟨S32, .f32⟩
  | 7 => ⟨S32x16, .f32⟩
  | 8 => ⟨S16, .f32⟩
  | 9 => ⟨S8192x2, .f32⟩
  | 10 => ⟨S_, .f32⟩
  | 11 => ⟨S8192, .f32⟩
  | 12 => ⟨S8192x1, .f32⟩
  | 13 => ⟨S1x8192, .f32⟩
  | 14 => ⟨S8192x8192, .f32⟩
  | 15 => ⟨S8192x8192, .f32⟩
  | 16 => ⟨S8192x8192, .f32⟩
  | 17 => ⟨S2x8192, .f32⟩
  | 18 => ⟨S8192x8192, .f32⟩
  | 19 => ⟨S_, .f32⟩
  | 20 => ⟨S8192x8192, .f32⟩
  | 21 => ⟨S8192x8192, .f32⟩
  | 22 => ⟨S8192x8192, .f32⟩
  | 23 => ⟨S_, .f32⟩
  | 24 => ⟨S8192x8192, .f32⟩
  | 25 => ⟨S8192x8192, .f32⟩
  | 26 => ⟨S8192x8192, .f32⟩
  | 27 => ⟨S_, .f32⟩
  | 28 => ⟨S8192x8192, .f32⟩
  | 29 => ⟨S8192x8192, .f32⟩
  | 30 => ⟨S8192x8192, .f32⟩
  | 31 => ⟨S8192, .i32⟩
  | 32 => ⟨S1x262144, .i32⟩
  | 33 => ⟨S262144, .i32⟩
  | 34 => ⟨S270336, .i32⟩
  | 35 => ⟨S1x262144, .i32⟩
  | 36 => ⟨S262144, .i32⟩
  | 37 => ⟨S270336, .i32⟩
  | 38 => ⟨S_, .f32⟩
  | 39 => ⟨S270336, .f32⟩
  | 40 => ⟨S_, .f32⟩
  | 41 => ⟨S8192, .f32⟩
  | 42 => ⟨S270336x1, .i32⟩
  | 43 => ⟨S8192, .f32⟩
  | 44 => ⟨S_, .f32⟩
  | 45 => ⟨S8192, .f32⟩
  | 46 => ⟨S8192, .i1⟩
  | 47 => ⟨S_, .f32⟩
  | 48 => ⟨S8192, .f32⟩
  | 49 => ⟨S8192, .f32⟩
  | 50 => ⟨S8192, .f32⟩
  | 51 => ⟨S_, .f32⟩
  | 52 => ⟨S_, .f32⟩
  | 53 => ⟨S8192, .f32⟩
  | 54 => ⟨S8192, .f32⟩
  | 55 => ⟨S_, .i32⟩
  | 56 => ⟨S270336, .i32⟩
  | 57 => ⟨S270336, .i1⟩
  | 58 => ⟨S_, .i32⟩
  | 59 => ⟨S270336, .i32⟩
  | 60 => ⟨S270336, .i32⟩
  | 61 => ⟨S270336, .i32⟩
  | 62 => ⟨S270336x1, .i32⟩
  | 63 => ⟨S270336, .f32⟩
  | 64 => ⟨S_, .i32⟩
  | 65 => ⟨S270336, .i32⟩
  | 66 => ⟨S270336, .i1⟩
  | 67 => ⟨S_, .i32⟩
  | 68 => ⟨S270336, .i32⟩
  | 69 => ⟨S270336, .i32⟩
  | 70 => ⟨S270336, .i32⟩
  | 71 => ⟨S270336x1, .i32⟩
  | 72 => ⟨S270336, .f32⟩
  | 73 => ⟨S270336, .f32⟩
  | 74 => ⟨S8192x64, .f32⟩
  | 75 => ⟨S8192x32, .f32⟩
  | 76 => ⟨S_, .i32⟩
  | 77 => ⟨S270336, .i32⟩
  | 78 => ⟨S270336, .i1⟩
  | 79 => ⟨S_, .i32⟩
  | 80 => ⟨S270336, .i32⟩
  | 81 => ⟨S270336, .i32⟩
  | 82 => ⟨S270336, .i32⟩
  | 83 => ⟨S270336x1, .i32⟩
  | 84 => ⟨S270336x32, .f32⟩
  | 85 => ⟨S270336x1, .f32⟩
  | 86 => ⟨S270336x32, .f32⟩
  | 87 => ⟨S270336x32, .f32⟩
  | 88 => ⟨S_, .f32⟩
  | 89 => ⟨S8192x32, .f32⟩
  | 90 => ⟨S270336x1, .i32⟩
  | 91 => ⟨S8192x32, .f32⟩
  | 92 => ⟨S1x32, .f32⟩
  | 93 => ⟨S8192x32, .f32⟩
  | 94 => ⟨S8192x32, .f32⟩
  | 95 => ⟨S_, .f32⟩
  | 96 => ⟨S8192x32, .f32⟩
  | 97 => ⟨S8192x32, .f32⟩
  | 98 => ⟨S8192x32, .f32⟩
  | 99 => ⟨S8192x32, .f32⟩
  | 100 => ⟨S_, .i32⟩
  | 101 => ⟨S270336, .i32⟩
  | 102 => ⟨S270336, .i1⟩
  | 103 => ⟨S_, .i32⟩
  | 104 => ⟨S270336, .i32⟩
  | 105 => ⟨S270336, .i32⟩
  | 106 => ⟨S270336, .i32⟩
  | 107 => ⟨S270336x1, .i32⟩
  | 108 => ⟨S270336x32, .f32⟩
  | 109 => ⟨S270336x1, .f32⟩
  | 110 => ⟨S270336x32, .f32⟩
  | 111 => ⟨S270336x32, .f32⟩
  | 112 => ⟨S_, .f32⟩
  | 113 => ⟨S8192x32, .f32⟩
  | 114 => ⟨S270336x1, .i32⟩
  | 115 => ⟨S8192x32, .f32⟩
  | 116 => ⟨S1x32, .f32⟩
  | 117 => ⟨S8192x32, .f32⟩
  | 118 => ⟨S8192x32, .f32⟩
  | 119 => ⟨S_, .f32⟩
  | 120 => ⟨S8192x32, .f32⟩
  | 121 => ⟨S8192x32, .f32⟩
  | 122 => ⟨S8192x32, .f32⟩
  | 123 => ⟨S8192x16, .f32⟩
  | 124 => ⟨S_, .i32⟩
  | 125 => ⟨S270336, .i32⟩
  | 126 => ⟨S270336, .i1⟩
  | 127 => ⟨S_, .i32⟩
  | _ => ⟨S8192x64, .f32⟩

abbrev hbmTy0_1 (i : Nat) : BufTy := match i % 128 with
  | 0 => ⟨S270336, .i32⟩
  | 1 => ⟨S270336, .i32⟩
  | 2 => ⟨S270336, .i32⟩
  | 3 => ⟨S270336x1, .i32⟩
  | 4 => ⟨S270336x16, .f32⟩
  | 5 => ⟨S270336x1, .f32⟩
  | 6 => ⟨S270336x16, .f32⟩
  | 7 => ⟨S270336x16, .f32⟩
  | 8 => ⟨S_, .f32⟩
  | 9 => ⟨S8192x16, .f32⟩
  | 10 => ⟨S270336x1, .i32⟩
  | 11 => ⟨S8192x16, .f32⟩
  | 12 => ⟨S1x16, .f32⟩
  | 13 => ⟨S8192x16, .f32⟩
  | 14 => ⟨S8192x16, .f32⟩
  | 15 => ⟨S_, .f32⟩
  | 16 => ⟨S8192, .f32⟩
  | 17 => ⟨S_, .f32⟩
  | 18 => ⟨S8192, .f32⟩
  | 19 => ⟨S8192, .f32⟩
  | 20 => ⟨S8192x1, .f32⟩
  | 21 => ⟨S8192x16, .f32⟩
  | 22 => ⟨S8192x16, .f32⟩
  | 23 => ⟨S8192x16, .f32⟩
  | 24 => ⟨S_, .f32⟩
  | 25 => ⟨S8192, .f32⟩
  | 26 => ⟨S8192x1, .f32⟩
  | 27 => ⟨S8192x1, .f32⟩
  | 28 => ⟨S8192x16, .f32⟩
  | 29 => ⟨S8192x16, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_v34 : Ref sig .tc := ⟨.hbm, 54, rfl⟩
abbrev main_c : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call1_cst : Ref sig .tc := ⟨.hbm, 95, rfl⟩
abbrev main_call1_v0 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call2_cst : Ref sig .tc := ⟨.hbm, 119, rfl⟩
abbrev main_call2_v0 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_17 : Ref sig .tc := ⟨.hbm, 124, rfl⟩
abbrev main_v90 : Ref sig .tc := ⟨.hbm, 125, rfl⟩
abbrev main_v91 : Ref sig .tc := ⟨.hbm, 126, rfl⟩
abbrev main_c_18 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_19 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_call3_cst : Ref sig .tc := ⟨.hbm, 143, rfl⟩
abbrev main_call3_v0 : Ref sig .tc := ⟨.hbm, 144, rfl⟩
abbrev main_call3_cst_0 : Ref sig .tc := ⟨.hbm, 145, rfl⟩
abbrev main_call3_v1 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_v6 : Ref sig .tc := ⟨.hbm, 151, rfl⟩
abbrev main_call3_cst_1 : Ref sig .tc := ⟨.hbm, 152, rfl⟩
abbrev main_call3_v7 : Ref sig .tc := ⟨.hbm, 153, rfl⟩
abbrev main_call3_v8 : Ref sig .tc := ⟨.hbm, 154, rfl⟩
abbrev main_call3_v9 : Ref sig .tc := ⟨.hbm, 155, rfl⟩
abbrev main_call3_v10 : Ref sig .tc := ⟨.hbm, 156, rfl⟩
abbrev main_v106 : Ref sig .tc := ⟨.hbm, 157, rfl⟩

abbrev nD : Nat := 1
abbrev τ : Topo := Topo.v7x

variable {F : FTy → Type} [FloatOps F]

class Facts₀ : Prop where
  reducesTo_S8192x2_S8192_d1 : S8192x2.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x2_S2x8192_1_0 : S8192x2.Transposes [1, 0] S2x8192
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x32_0_1 : S270336x1.BroadcastsInDim S270336x32 (![0, 1] : Fin 2 → Fin S270336x32.rank)
  bcast_S_S8192x32 : S_.BroadcastsInDim S8192x32 (![] : Fin 0 → Fin S8192x32.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S270336x1_S270336x16_0_1 : S270336x1.BroadcastsInDim S270336x16 (![0, 1] : Fin 2 → Fin S270336x16.rank)
  bcast_S_S8192x16 : S_.BroadcastsInDim S8192x16 (![] : Fin 0 → Fin S8192x16.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  bcast_S8192x1_S8192x16_0_1 : S8192x1.BroadcastsInDim S8192x16 (![0, 1] : Fin 2 → Fin S8192x16.rank)
  dot_S8192x2_S2x8192_S8192x8192_1_0_0_1_n_n_wf : DotDims.WF S8192x2 S2x8192 S8192x8192 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x8192_S8192x64_S8192x64_1_0_0_1_n_n_wf : DotDims.WF S8192x8192 S8192x64 S8192x64 [1] [0] [0] [1] [] []
  dot_S8192x64_S64x32_S8192x32_1_0_0_1_n_n_wf : DotDims.WF S8192x64 S64x32 S8192x32 [1] [0] [0] [1] [] []
  gather_S8192x32_S270336x1_S270336x32_1_0_n_n_0_1_132_wf : GatherDims.WF S8192x32 S270336x1 S270336x32 [1] [0] [] [0] [] 1 ![1, 32]
  scatter_S8192x32_S270336x1_S270336x32_1_0_0_1_wf : ScatterDims.WF S8192x32 S270336x1 S270336x32 [1] [0] [0] 1
  dot_S8192x8192_S8192x32_S8192x32_1_0_0_1_n_n_wf : DotDims.WF S8192x8192 S8192x32 S8192x32 [1] [0] [0] [1] [] []
  dot_S8192x32_S32x32_S8192x32_1_0_0_1_n_n_wf : DotDims.WF S8192x32 S32x32 S8192x32 [1] [0] [0] [1] [] []
  dot_S8192x32_S32x16_S8192x16_1_0_0_1_n_n_wf : DotDims.WF S8192x32 S32x16 S8192x16 [1] [0] [0] [1] [] []
  gather_S8192x16_S270336x1_S270336x16_1_0_n_n_0_1_116_wf : GatherDims.WF S8192x16 S270336x1 S270336x16 [1] [0] [] [0] [] 1 ![1, 16]
  scatter_S8192x16_S270336x1_S270336x16_1_0_0_1_wf : ScatterDims.WF S8192x16 S270336x1 S270336x16 [1] [0] [0] 1

variable [Facts₀]

def dot_S8192x2_S2x8192_S8192x8192_1_0_0_1_n_n : DotDims S8192x2 S2x8192 S8192x8192 where
  lhsContracting := [1]
  rhsContracting := [0]
  lhsNonContracting := [0]
  rhsNonContracting := [1]
  lhsBatch := []
  rhsBatch := []
  wf := dot_S8192x2_S2x8192_S8192x8192_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def gather_S8192x32_S270336x1_S270336x32_1_0_n_n_0_1_132 : GatherDims S8192x32 S270336x1 S270336x32 where
  offsetDims := [1]
  collapsedSliceDims := [0]
  operandBatchingDims := []
  startIndicesBatchingDims := []
  startIndexMap := [0]
  indexVectorDim := 1
  sliceSizes := ![1, 32]
  wf := gather_S8192x32_S270336x1_S270336x32_1_0_n_n_0_1_132_wf
def scatter_S8192x32_S270336x1_S270336x32_1_0_0_1 : ScatterDims S8192x32 S270336x1 S270336x32 where
  updateWindowDims := [1]
  insertedWindowDims := [0]
  scatterDimsToOperandDims := [0]
  indexVectorDim := 1
  wf := scatter_S8192x32_S270336x1_S270336x32_1_0_0_1_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def gather_S8192x16_S270336x1_S270336x16_1_0_n_n_0_1_116 : GatherDims S8192x16 S270336x1 S270336x16 where
  offsetDims := [1]
  collapsedSliceDims := [0]
  operandBatchingDims := []
  startIndicesBatchingDims := []
  startIndexMap := [0]
  indexVectorDim := 1
  sliceSizes := ![1, 16]
  wf := gather_S8192x16_S270336x1_S270336x16_1_0_n_n_0_1_116_wf
def scatter_S8192x16_S270336x1_S270336x16_1_0_0_1 : ScatterDims S8192x16 S270336x1 S270336x16 where
  updateWindowDims := [1]
  insertedWindowDims := [0]
  scatterDimsToOperandDims := [0]
  indexVectorDim := 1
  wf := scatter_S8192x16_S270336x1_S270336x16_1_0_0_1_wf

class Facts : Prop extends Facts₀ where

variable [Facts]
-- ==== Proof.KernelRun.lean ====
import proofs.«105190_j88227218195280_1_alg».proof.Proof.Gen.KernelIdeal.Frame

/-!
The run of the program's entry function, with its result. The entry function is fourteen segments:
stretches of host operations and three regions. The buffer contents at every boundary are the fold
W0 … W14 from the launch memory; the run ends with every unscoped buffer at W14, so the result buffer
holds W14 at the result's reference, and the nine arguments hold what they held at launch.
-/

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- From any memory with zero counters, every weakly fair execution of the entry function on the
    TensorCores terminates, nothing faulting, and in every final state the result buffer holds the
    last boundary's contents W14 at the result's reference and the nine arguments are as launched. -/
theorem run_main : θ_run defs (onTc (τ := τ) (main (F := F))) ⟨m, fun _ => 0, ρ⟩ (fun r => ∀ c : Dev nD,
      r.2.mem ((c.tc : Thread nD τ).loc main_v95) = W14 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v95 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.RunValue

end
-- ==== Proof.RunKeep.lean ====
import proofs.«105190_j88227218195280_1_alg».proof.Proof.Gen.KernelIdeal.Frame

/-!
What each stretch of host operations leaves alone. A stretch writes the result buffers of its operations
and nothing else, so any other buffer holds after the stretch what it held before it.
-/

set_option maxRecDepth 16384

noncomputable section

namespace Cert.KernelIdeal.RunValue

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg)

/-- The references the operations of this stretch write. -/
abbrev hostOps0_W : List (Ref sig .tc) := [main_v0, main_v1, main_v2, main_v3, main_v4, main_v5, main_v6, main_v7, main_cst, main_v8, main_cst_0, main_v9, main_v10, main_v11, main_cst_1, main_v12, main_v13, main_cst_2, main_v14, main_v15, main_v16, main_cst_3]
theorem hostOps0_writes : (hostOps0 : List (HloOp τ sig (Elt F))).Forall fun op => op.writes ⊆ (hostOps0_W.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A reference the stretch does not write holds after it what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- The references the operations of this stretch write. -/
abbrev hostOps0_1_W : List (Ref sig .tc) := [main_call0_v0, main_call0_v1, main_v17]
theorem hostOps0_1_writes : (hostOps0_1 : List (HloOp τ sig (Elt F))).Forall fun op => op.writes ⊆ (hostOps0_1_W.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A reference the stretch does not write holds after it what it held before. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- The references the operations of this stretch write. -/
abbrev hostOps0_2_W : List (Ref sig .tc) := [main_c, main_v18, main_v19, main_c_4, main_v20, main_v21, main_v22, main_v23, main_v24, main_c_5, main_v25, main_v26, main_c_6, main_v27, main_v28, main_v29, main_v30, main_v31, main_v32, main_cst_7, main_v33, main_v34]
theorem hostOps0_2_writes : (hostOps0_2 : List (HloOp τ sig (Elt F))).Forall fun op => op.writes ⊆ (hostOps0_2_W.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A reference the stretch does not write holds after it what it held before. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

/-- The references the operations of this stretch write. -/
abbrev hostOps1_W : List (Ref sig .tc) := [main_v36, main_c_8, main_v37, main_v38, main_c_9, main_v39, main_v40, main_v41, main_v42, main_v43, main_v44, main_v45, main_v46, main_cst_10, main_v47, main_v48, main_v49, main_v50, main_v51, main_v52]
theorem hostOps1_writes : (hostOps1 : List (HloOp τ sig (Elt F))).Forall fun op => op.writes ⊆ (hostOps1_W.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A reference the stretch does not write holds after it what it held before. -/
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h

/-- The references the operations of this stretch write. -/
abbrev hostOps1_1_W : List (Ref sig .tc) := [main_call1_cst, main_call1_v0, main_v53]
theorem hostOps1_1_writes : (hostOps1_1 : List (HloOp τ sig (Elt F))).Forall fun op => op.writes ⊆ (hostOps1_1_W.map (Proc.devRef (τ := τ) .tc)).toFinset := by
  simp only [hostOps1_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A reference the stretch does not write holds after it what it held before. -/
theorem W6_of (c : Dev nD) (r : Ref sig .tc) (h : r ∉ hostOps1_1_W) :
    W6 m ρ c (Proc.devRef .tc r) = W5 m ρ c (Proc.devRef .tc r) :=
  StableHlo.after_of_writes_sub hostOps1_1 _ hostOps1_1_writes h

/-- The references the operations of this stretch write. -/
abbrev hostOps1_2_W : List (Ref sig .tc) := [main_cst_11, main_v54, main_v55]
theorem hostOps1_2_writes : (hostOps1_2 : List (HloOp τ sig (Elt F))).Forall fun op => op.writes ⊆ (hostOps1_2_W.map (Proc.devRef (τ := τ) .tc)).toFinset := by
  simp only [hostOps1_2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A reference the stretch does not write holds after it what it held before. -/
theorem W7_of (c : Dev nD) (r : Ref sig .tc) (h : r ∉ hostOps1_2_W) :
    W7 m ρ c (Proc.devRef .tc r) = W6 m ρ c (Proc.devRef .tc r) :=
  StableHlo.after_of_writes_sub hostOps1_2 _ hostOps1_2_writes h

/-- The references the operations of this stretch write. -/
abbrev hostOps2_W : List (Ref sig .tc) := [main_v57, main_c_12, main_v58, main_v59, main_c_13, main_v60, main_v61, main_v62, main_v63, main_v64, main_v65, main_v66, main_v67, main_cst_14, main_v68, main_v69, main_v70, main_v71, main_v72, main_v73]
theorem hostOps2_writes : (hostOps2 : List (HloOp τ sig (Elt F))).Forall fun op => op.writes ⊆ (hostOps2_W.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A reference the stretch does not write holds after it what it held before. -/
theorem W9_of (c : Dev nD) (r : Ref sig .tc) (h : r ∉ hostOps2_W) :
    W9 m ρ c (Proc.devRef .tc r) = W8 m ρ c (Proc.devRef .tc r) :=
  StableHlo.after_of_writes_sub hostOps2 _ hostOps2_writes h

/-- The references the operations of this stretch write. -/
abbrev hostOps2_1_W : List (Ref sig .tc) := [main_call2_cst, main_call2_v0, main_v74]
theorem hostOps2_1_writes : (hostOps2_1 : List (HloOp τ sig (Elt F))).Forall fun op => op.writes ⊆ (hostOps2_1_W.map (Proc.devRef (τ := τ) .tc)).toFinset := by
  simp only [hostOps2_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A reference the stretch does not write holds after it what it held before. -/
theorem W10_of (c : Dev nD) (r : Ref sig .tc) (h : r ∉ hostOps2_1_W) :
    W10 m ρ c (Proc.devRef .tc r) = W9 m ρ c (Proc.devRef .tc r) :=
  StableHlo.after_of_writes_sub hostOps2_1 _ hostOps2_1_writes h

/-- The references the operations of this stretch write. -/
abbrev hostOps2_2_W : List (Ref sig .tc) := [main_cst_15, main_v75, main_v76]
theorem hostOps2_2_writes : (hostOps2_2 : List (HloOp τ sig (Elt F))).Forall fun op => op.writes ⊆ (hostOps2_2_W.map (Proc.devRef (τ := τ) .tc)).toFinset := by
  simp only [hostOps2_2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A reference the stretch does not write holds after it what it held before. -/
theorem W11_of (c : Dev nD) (r : Ref sig .tc) (h : r ∉ hostOps2_2_W) :
    W11 m ρ c (Proc.devRef .tc r) = W10 m ρ c (Proc.devRef .tc r) :=
  StableHlo.after_of_writes_sub hostOps2_2 _ hostOps2_2_writes h

/-- The references the operations of this stretch write. -/
abbrev hostOps3_W : List (Ref sig .tc) := [main_v78, main_c_16, main_v79, main_v80, main_c_17, main_v81, main_v82, main_v83, main_v84, main_v85, main_v86, main_v87, main_v88, main_cst_18, main_v89, main_v90, main_v91, main_v92, main_v93, main_v94]
theorem hostOps3_writes : (hostOps3 : List (HloOp τ sig (Elt F))).Forall fun op => op.writes ⊆ (hostOps3_W.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A reference the stretch does not write holds after it what it held before. -/
theorem W13_of (c : Dev nD) (r : Ref sig .tc) (h : r ∉ hostOps3_W) :
    W13 m ρ c (Proc.devRef .tc r) = W12 m ρ c (Proc.devRef .tc r) :=
  StableHlo.after_of_writes_sub hostOps3 _ hostOps3_writes h

/-- The references the operations of this stretch write. -/
abbrev hostOps3_1_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v95]
theorem hostOps3_1_writes : (hostOps3_1 : List (HloOp τ sig (Elt F))).Forall fun op => op.writes ⊆ (hostOps3_1_W.map (Proc.devRef (τ := τ) .tc)).toFinset := by
  simp only [hostOps3_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A reference the stretch does not write holds after it what it held before. -/
theorem W14_of (c : Dev nD) (r : Ref sig .tc) (h : r ∉ hostOps3_1_W) :
    W14 m ρ c (Proc.devRef .tc r) = W13 m ρ c (Proc.devRef .tc r) :=
  StableHlo.after_of_writes_sub hostOps3_1 _ hostOps3_1_writes h

end Cert.KernelIdeal.RunValue

end
-- ==== Proof.Glue.lean ====
import proofs.«105190_j88227218195280_1_alg».proof.Proof.Gen.KernelIdeal

/-!
The host-side graph convolution shared by the two programs, as pure functions of the aggregated
features and the arguments: the edge list with self loops (source and target node of each of the
262144 + 8192 edges), the symmetric normalisation d^{-1/2}[src] · d^{-1/2}[dst] from the in-degrees,
and one layer: (agg · W)[src] scaled by the normalisation, summed into the target nodes, plus the
bias; followed by max(·, 0) for the first two layers and by log-softmax over the 16 classes for the
last one.
-/

noncomputable section

namespace Cert.Glue

open Idealize.ShloMosaic Cert.KernelIdeal Cert.KernelIdeal.Facts₀ Cert.KernelIdeal.Facts

variable {F : FTy → Type} [FloatOps F]

/-- Source node of every edge: row 0 of the edge list, then the self loops 0 … 8191. -/
def srcI (x2 : (⟨S2x262144, .i32⟩ : BufTy).Contents (Elt F)) : (⟨S270336, .i32⟩ : BufTy).Contents (Elt F) :=
  concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0

/-- Target node of every edge: row 1 of the edge list, then the self loops. -/
def dstI (x2 : (⟨S2x262144, .i32⟩ : BufTy).Contents (Elt F)) : (⟨S270336, .i32⟩ : BufTy).Contents (Elt F) :=
  concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0

/-- A list of node numbers as a column of row numbers. -/
def col (v : (⟨S270336, .i32⟩ : BufTy).Contents (Elt F)) : (⟨S270336x1, .i32⟩ : BufTy).Contents (Elt F) :=
  broadcastInDim S270336x1 ![0] bcast_S270336_S270336x1_0 v

/-- The same with a negative number counted from the end (v + 8192 where v < 0), as a column. -/
def wrapCol (v : (⟨S270336, .i32⟩ : BufTy).Contents (Elt F)) : (⟨S270336x1, .i32⟩ : BufTy).Contents (Elt F) :=
  broadcastInDim S270336x1 ![0] bcast_S270336_S270336x1_0
    (select (cmpi .slt v (broadcastInDim S270336 ![] bcast_S_S270336 (constantI S_ 32 0#32)))
      (addi v (broadcastInDim S270336 ![] bcast_S_S270336 (constantI S_ 32 8192#32))) v)

/-- In-degree of every node: a one for every edge, summed into its target. -/
def deg (x2 : (⟨S2x262144, .i32⟩ : BufTy).Contents (Elt F)) : (⟨S8192, .f32⟩ : BufTy).Contents (Elt F) :=
  Host.scatterAdd scatter_S8192_S270336x1_S270336_n_0_0_1 (broadcastInDim S8192 ![] bcast_S_S8192 (constant S_ .f32 0x00000000#32))
    (col (dstI x2)) (broadcastInDim S270336 ![] bcast_S_S270336 (constant S_ .f32 0x3F800000#32))

/-- d^{-1/2} where the degree is positive, 0 elsewhere. -/
def dinv (x2 : (⟨S2x262144, .i32⟩ : BufTy).Contents (Elt F)) : (⟨S8192, .f32⟩ : BufTy).Contents (Elt F) :=
  select (cmpf (F := F) .ogt (deg x2) (broadcastInDim S8192 ![] bcast_S_S8192 (constant S_ .f32 0x00000000#32)))
    (Host.rsqrt (maximumf (deg x2) (broadcastInDim S8192 ![] bcast_S_S8192 (constant S_ .f32 0x2B8CBCCC#32))))
    (broadcastInDim S8192 ![] bcast_S_S8192 (id (constant S_ .f32 0x00000000#32)))

/-- The weight of every edge: d^{-1/2}[src] · d^{-1/2}[dst]. -/
def nrm (x2 : (⟨S2x262144, .i32⟩ : BufTy).Contents (Elt F)) : (⟨S270336, .f32⟩ : BufTy).Contents (Elt F) :=
  mulf (Host.gather gather_S8192_S270336x1_S270336_n_0_n_n_0_1_1 (dinv x2) (wrapCol (srcI x2)))
    (Host.gather gather_S8192_S270336x1_S270336_n_0_n_n_0_1_1 (dinv x2) (wrapCol (dstI x2)))

/-- Layer 1 after the aggregation: max(segment_sum((agg · W1)[src] · w, dst) + b1, 0). -/
def layer1 (agg : (⟨S8192x64, .f32⟩ : BufTy).Contents (Elt F)) (x2 : (⟨S2x262144, .i32⟩ : BufTy).Contents (Elt F))
    (x3 : (⟨S64x32, .f32⟩ : BufTy).Contents (Elt F)) (x4 : (⟨S32, .f32⟩ : BufTy).Contents (Elt F)) : (⟨S8192x32, .f32⟩ : BufTy).Contents (Elt F) :=
  maximumf
    (addf
      (Host.scatterAdd scatter_S8192x32_S270336x1_S270336x32_1_0_0_1 (broadcastInDim S8192x32 ![] bcast_S_S8192x32 (constant S_ .f32 0x00000000#32))
        (col (dstI x2))
        (mulf (Host.gather gather_S8192x32_S270336x1_S270336x32_1_0_n_n_0_1_132 (Host.dotGeneral dot_S8192x64_S64x32_S8192x32_1_0_0_1_n_n none agg x3) (wrapCol (srcI x2)))
          (broadcastInDim S270336x32 ![0, 1] bcast_S270336x1_S270336x32_0_1 (broadcastInDim S270336x1 ![0] bcast_S270336_S270336x1_0 (nrm x2)))))
      (broadcastInDim S8192x32 ![0, 1] bcast_S1x32_S8192x32_0_1 (broadcastInDim S1x32 ![1] bcast_S32_S1x32_1 x4)))
    (broadcastInDim S8192x32 ![] bcast_S_S8192x32 (constant S_ .f32 0x00000000#32))

/-- Layer 2 after the aggregation: max(segment_sum((agg · W2)[src] · w, dst) + b2, 0). -/
def layer2 (agg : (⟨S8192x32, .f32⟩ : BufTy).Contents (Elt F)) (x2 : (⟨S2x262144, .i32⟩ : BufTy).Contents (Elt F))
    (x5 : (⟨S32x32, .f32⟩ : BufTy).Contents (Elt F)) (x6 : (⟨S32, .f32⟩ : BufTy).Contents (Elt F)) : (⟨S8192x32, .f32⟩ : BufTy).Contents (Elt F) :=
  maximumf
    (addf
      (Host.scatterAdd scatter_S8192x32_S270336x1_S270336x32_1_0_0_1 (broadcastInDim S8192x32 ![] bcast_S_S8192x32 (constant S_ .f32 0x00000000#32))
        (col (dstI x2))
        (mulf (Host.gather gather_S8192x32_S270336x1_S270336x32_1_0_n_n_0_1_132 (Host.dotGeneral dot_S8192x32_S32x32_S8192x32_1_0_0_1_n_n none agg x5) (wrapCol (srcI x2)))
          (broadcastInDim S270336x32 ![0, 1] bcast_S270336x1_S270336x32_0_1 (broadcastInDim S270336x1 ![0] bcast_S270336_S270336x1_0 (nrm x2)))))
      (broadcastInDim S8192x32 ![0, 1] bcast_S1x32_S8192x32_0_1 (broadcastInDim S1x32 ![1] bcast_S32_S1x32_1 x6)))
    (broadcastInDim S8192x32 ![] bcast_S_S8192x32 (constant S_ .f32 0x00000000#32))

/-- Layer 3 after the aggregation, before the log-softmax: segment_sum((agg · W3)[src] · w, dst) + b3. -/
def layer3 (agg : (⟨S8192x32, .f32⟩ : BufTy).Contents (Elt F)) (x2 : (⟨S2x262144, .i32⟩ : BufTy).Contents (Elt F))
    (x7 : (⟨S32x16, .f32⟩ : BufTy).Contents (Elt F)) (x8 : (⟨S16, .f32⟩ : BufTy).Contents (Elt F)) : (⟨S8192x16, .f32⟩ : BufTy).Contents (Elt F) :=
  addf
    (Host.scatterAdd scatter_S8192x16_S270336x1_S270336x16_1_0_0_1 (broadcastInDim S8192x16 ![] bcast_S_S8192x16 (constant S_ .f32 0x00000000#32))
      (col (dstI x2))
      (mulf (Host.gather gather_S8192x16_S270336x1_S270336x16_1_0_n_n_0_1_116 (Host.dotGeneral dot_S8192x32_S32x16_S8192x16_1_0_0_1_n_n none agg x7) (wrapCol (srcI x2)))
        (broadcastInDim S270336x16 ![0, 1] bcast_S270336x1_S270336x16_0_1 (broadcastInDim S270336x1 ![0] bcast_S270336_S270336x1_0 (nrm x2)))))
    (broadcastInDim S8192x16 ![0, 1] bcast_S1x16_S8192x16_0_1 (broadcastInDim S1x16 ![1] bcast_S16_S1x16_1 x8))

/-- log-softmax over the 16 classes of every node: v − max − log Σ exp(v − max). -/
def logsm (v : (⟨S8192x16, .f32⟩ : BufTy).Contents (Elt F)) : (⟨S8192x16, .f32⟩ : BufTy).Contents (Elt F) :=
  subf
    (subf v (broadcastInDim S8192x16 ![0, 1] bcast_S8192x1_S8192x16_0_1 (broadcastInDim S8192x1 ![0] bcast_S8192_S8192x1_0
      (maximumf (broadcastInDim S8192 ![] bcast_S_S8192 (constant S_ .f32 0xFF800000#32))
        (Host.reduce FloatOps.maximumf v (constant S_ .f32 0xFF800000#32) reducesTo_S8192x16_S8192_d1 h_S_)))))
    (broadcastInDim S8192x16 ![0, 1] bcast_S8192x1_S8192x16_0_1 (Host.log (broadcastInDim S8192x1 ![0] bcast_S8192_S8192x1_0
      (Host.reduceAdd (Host.exp (subf v (broadcastInDim S8192x16 ![0, 1] bcast_S8192x1_S8192x16_0_1 (broadcastInDim S8192x1 ![0] bcast_S8192_S8192x1_0
        (maximumf (broadcastInDim S8192 ![] bcast_S_S8192 (constant S_ .f32 0xFF800000#32))
          (Host.reduce FloatOps.maximumf v (constant S_ .f32 0xFF800000#32) reducesTo_S8192x16_S8192_d1 h_S_))))))
        (constant S_ .f32 0x00000000#32) reducesTo_S8192x16_S8192_d1 h_S_))))

end Cert.Glue

end
-- ==== Proof.RunHost0.lean ====
import proofs.«105190_j88227218195280_1_alg».proof.Proof.RunKeep
import proofs.«105190_j88227218195280_1_alg».proof.Proof.Glue

/-!
The host operations before the first region. From the launch memory: the transposed coordinates, the
edge list with self loops (source and target node of every edge), the in-degrees and d^{-1/2}, the weight
of every edge, and the column sums of the features; then the contents of the first region's four input
arrays when it is entered.
-/

set_option maxRecDepth 16384

noncomputable section

namespace Cert.KernelIdeal.RunValue

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg)

/-! ## What each stretch computes, from any contents V before it -/

/-- The selection: the second operand where the first is set, the constant elsewhere. -/
theorem step0_1_v17 (V : Valuation τ sig (Elt F)) : StableHlo.after hostOps0_1 V (Proc.devRef .tc main_v17) = (select (V (Proc.devRef .tc main_v13) : (⟨S8192, .i1⟩ : BufTy).Contents (Elt F)) (V (Proc.devRef .tc main_v16) : (⟨S8192, .f32⟩ : BufTy).Contents (Elt F))
      (broadcastInDim S8192 ![] bcast_S_S8192 (id (V (Proc.devRef .tc main_cst_3) : (⟨S_, .f32⟩ : BufTy).Contents (Elt F)))) : (⟨S8192, .f32⟩ : BufTy).Contents (Elt F)) := by
  after_results <;> rfl

set_option maxHeartbeats 4000000 in
/-- The product of the two gathers, at the source and at the target of every edge. -/
theorem step0_2_v32 (V : Valuation τ sig (Elt F)) : StableHlo.after hostOps0_2 V (Proc.devRef .tc main_v32) = (mulf (Host.gather gather_S8192_S270336x1_S270336_n_0_n_n_0_1_1 (V (Proc.devRef .tc main_v17) : (⟨S8192, .f32⟩ : BufTy).Contents (Elt F)) (Cert.Glue.wrapCol (V (Proc.devRef .tc main_v4) : (⟨S270336, .i32⟩ : BufTy).Contents (Elt F))))
      (Host.gather gather_S8192_S270336x1_S270336_n_0_n_n_0_1_1 (V (Proc.devRef .tc main_v17) : (⟨S8192, .f32⟩ : BufTy).Contents (Elt F)) (Cert.Glue.wrapCol (V (Proc.devRef .tc main_v7) : (⟨S270336, .i32⟩ : BufTy).Contents (Elt F)))) : (⟨S270336, .f32⟩ : BufTy).Contents (Elt F)) := by
  after_results_simp <;> rfl

/-- The column sums, as a row. -/
theorem step0_2_v34 (V : Valuation τ sig (Elt F)) : StableHlo.after hostOps0_2 V (Proc.devRef .tc main_v34) = (broadcastInDim S1x64 ![1] bcast_S64_S1x64_1 (Host.reduceAdd (V (Proc.devRef .tc main_arg0) : (⟨S8192x64, .f32⟩ : BufTy).Contents (Elt F)) (constant S_ .f32 0x00000000#32) reducesTo_S8192x64_S64_d0 h_S_) : (⟨S1x64, .f32⟩ : BufTy).Contents (Elt F)) := by
  after_results <;> rfl

/-! ## After the first stretch (contents W1), from the launch memory -/

/-- The coordinates transposed. -/
theorem W1_v0 (c : Dev nD) : W1 m ρ c (Proc.devRef .tc main_v0) = (transpose S2x8192 [1, 0] (m ((c : Thread nD τ).loc main_arg1)) transposes_S8192x2_S2x8192_1_0 : (⟨S2x8192, .f32⟩ : BufTy).Contents (Elt F)) := by
  show StableHlo.after hostOps0 (W0 m ρ c) (Proc.devRef .tc main_v0) = _
  after_results <;> rfl

/-- The source node of every edge. -/
theorem W1_v4 (c : Dev nD) : W1 m ρ c (Proc.devRef .tc main_v4) = (Cert.Glue.srcI (m ((c : Thread nD τ).loc main_arg2)) : (⟨S270336, .i32⟩ : BufTy).Contents (Elt F)) := by
  show StableHlo.after hostOps0 (W0 m ρ c) (Proc.devRef .tc main_v4) = _
  after_results <;> rfl

/-- The target node of every edge. -/
theorem W1_v7 (c : Dev nD) : W1 m ρ c (Proc.devRef .tc main_v7) = (Cert.Glue.dstI (m ((c : Thread nD τ).loc main_arg2)) : (⟨S270336, .i32⟩ : BufTy).Contents (Elt F)) := by
  show StableHlo.after hostOps0 (W0 m ρ c) (Proc.devRef .tc main_v7) = _
  after_results <;> rfl

/-- Where the in-degree is positive. -/
theorem W1_v13 (c : Dev nD) : W1 m ρ c (Proc.devRef .tc main_v13) = (cmpf (F := F) .ogt (Cert.Glue.deg (m ((c : Thread nD τ).loc main_arg2))) (broadcastInDim S8192 ![] bcast_S_S8192 (constant S_ .f32 0x00000000#32)) : (⟨S8192, .i1⟩ : BufTy).Contents (Elt F)) := by
  show StableHlo.after hostOps0 (W0 m ρ c) (Proc.devRef .tc main_v13) = _
  after_results <;> rfl

/-- The in-degree, raised to the floor 10⁻¹², to the power −1/2. -/
theorem W1_v16 (c : Dev nD) : W1 m ρ c (Proc.devRef .tc main_v16) = (Host.rsqrt (maximumf (Cert.Glue.deg (m ((c : Thread nD τ).loc main_arg2))) (broadcastInDim S8192 ![] bcast_S_S8192 (constant S_ .f32 0x2B8CBCCC#32))) : (⟨S8192, .f32⟩ : BufTy).Contents (Elt F)) := by
  show StableHlo.after hostOps0 (W0 m ρ c) (Proc.devRef .tc main_v16) = _
  after_results <;> rfl

/-- The constant 0. -/
theorem W1_cst_3 (c : Dev nD) : W1 m ρ c (Proc.devRef .tc main_cst_3) = (constant S_ .f32 0x00000000#32 : (⟨S_, .f32⟩ : BufTy).Contents (Elt F)) := by
  show StableHlo.after hostOps0 (W0 m ρ c) (Proc.devRef .tc main_cst_3) = _
  after_results <;> rfl

/-! ## After the selection (contents W2) -/

/-- d^{-1/2} where the in-degree is positive, 0 elsewhere. -/
theorem W2_v17 (c : Dev nD) : W2 m ρ c (Proc.devRef .tc main_v17) = (Cert.Glue.dinv (m ((c : Thread nD τ).loc main_arg2)) : (⟨S8192, .f32⟩ : BufTy).Contents (Elt F)) := by
  rw [show W2 m ρ c (Proc.devRef .tc main_v17) = _ from step0_1_v17 (W1 m ρ c), W1_v13, W1_v16, W1_cst_3]; rfl
/-- The source node of every edge. -/
theorem W2_v4 (c : Dev nD) : W2 m ρ c (Proc.devRef .tc main_v4) = (Cert.Glue.srcI (m ((c : Thread nD τ).loc main_arg2)) : (⟨S270336, .i32⟩ : BufTy).Contents (Elt F)) :=
  (W2_of m ρ c main_v4 (by decide)).trans (W1_v4 m ρ c)
/-- The target node of every edge. -/
theorem W2_v7 (c : Dev nD) : W2 m ρ c (Proc.devRef .tc main_v7) = (Cert.Glue.dstI (m ((c : Thread nD τ).loc main_arg2)) : (⟨S270336, .i32⟩ : BufTy).Contents (Elt F)) :=
  (W2_of m ρ c main_v7 (by decide)).trans (W1_v7 m ρ c)

/-! ## At the first region's entry (contents W3) -/

/-- The weight of every edge. -/
theorem W3_v32 (c : Dev nD) : W3 m ρ c (Proc.devRef .tc main_v32) = (Cert.Glue.nrm (m ((c : Thread nD τ).loc main_arg2)) : (⟨S270336, .f32⟩ : BufTy).Contents (Elt F)) := by
  rw [show W3 m ρ c (Proc.devRef .tc main_v32) = _ from step0_2_v32 (W2 m ρ c), W2_v17, W2_v4, W2_v7]; rfl
/-- The source node of every edge. -/
theorem W3_v4 (c : Dev nD) : W3 m ρ c (Proc.devRef .tc main_v4) = (Cert.Glue.srcI (m ((c : Thread nD τ).loc main_arg2)) : (⟨S270336, .i32⟩ : BufTy).Contents (Elt F)) :=
  (W3_of m ρ c main_v4 (by decide)).trans (W2_v4 m ρ c)
/-- The target node of every edge. -/
theorem W3_v7 (c : Dev nD) : W3 m ρ c (Proc.devRef .tc main_v7) = (Cert.Glue.dstI (m ((c : Thread nD τ).loc main_arg2)) : (⟨S270336, .i32⟩ : BufTy).Contents (Elt F)) :=
  (W3_of m ρ c main_v7 (by decide)).trans (W2_v7 m ρ c)
/-- The transposed coordinates. -/
theorem W3_v0 (c : Dev nD) : W3 m ρ c (Proc.devRef .tc main_v0) = (transpose S2x8192 [1, 0] (m ((c : Thread nD τ).loc main_arg1)) transposes_S8192x2_S2x8192_1_0 : (⟨S2x8192, .f32⟩ : BufTy).Contents (Elt F)) :=
  (W3_of m ρ c main_v0 (by decide)).trans <| (W2_of m ρ c main_v0 (by decide)).trans (W1_v0 m ρ c)
/-- Argument 0 is as launched. -/
theorem W3_arg0 (c : Dev nD) : W3 m ρ c (Proc.devRef .tc main_arg0) = m ((c : Thread nD τ).loc main_arg0) :=
  (W3_of m ρ c main_arg0 (by decide)).trans <| (W2_of m ρ c main_arg0 (by decide)).trans <| (W1_of m ρ c main_arg0 (by decide)).trans <| rfl
/-- Argument 1 is as launched. -/
theorem W3_arg1 (c : Dev nD) : W3 m ρ c (Proc.devRef .tc main_arg1) = m ((c : Thread nD τ).loc main_arg1) :=
  (W3_of m ρ c main_arg1 (by decide)).trans <| (W2_of m ρ c main_arg1 (by decide)).trans <| (W1_of m ρ c main_arg1 (by decide)).trans <| rfl
/-- Argument 2 is as launched. -/
theorem W3_arg2 (c : Dev nD) : W3 m ρ c (Proc.devRef .tc main_arg2) = m ((c : Thread nD τ).loc main_arg2) :=
  (W3_of m ρ c main_arg2 (by decide)).trans <| (W2_of m ρ c main_arg2 (by decide)).trans <| (W1_of m ρ c main_arg2 (by decide)).trans <| rfl
/-- Argument 3 is as launched. -/
theorem W3_arg3 (c : Dev nD) : W3 m ρ c (Proc.devRef .tc main_arg3) = m ((c : Thread nD τ).loc main_arg3) :=
  (W3_of m ρ c main_arg3 (by decide)).trans <| (W2_of m ρ c main_arg3 (by decide)).trans <| (W1_of m ρ c main_arg3 (by decide)).trans <| rfl
/-- Argument 4 is as launched. -/
theorem W3_arg4 (c : Dev nD) : W3 m ρ c (Proc.devRef .tc main_arg4) = m ((c : Thread nD τ).loc main_arg4) :=
  (W3_of m ρ c main_arg4 (by decide)).trans <| (W2_of m ρ c main_arg4 (by decide)).trans <| (W1_of m ρ c main_arg4 (by decide)).trans <| rfl
/-- Argument 5 is as launched. -/
theorem W3_arg5 (c : Dev nD) : W3 m ρ c (Proc.devRef .tc main_arg5) = m ((c : Thread nD τ).loc main_arg5) :=
  (W3_of m ρ c main_arg5 (by decide)).trans <| (W2_of m ρ c main_arg5 (by decide)).trans <| (W1_of m ρ c main_arg5 (by decide)).trans <| rfl
/-- Argument 6 is as launched. -/
theorem W3_arg6 (c : Dev nD) : W3 m ρ c (Proc.devRef .tc main_arg6) = m ((c : Thread nD τ).loc main_arg6) :=
  (W3_of m ρ c main_arg6 (by decide)).trans <| (W2_of m ρ c main_arg6 (by decide)).trans <| (W1_of m ρ c main_arg6 (by decide)).trans <| rfl
/-- Argument 7 is as launched. -/
theorem W3_arg7 (c : Dev nD) : W3 m ρ c (Proc.devRef .tc main_arg7) = m ((c : Thread nD τ).loc main_arg7) :=
  (W3_of m ρ c main_arg7 (by decide)).trans <| (W2_of m ρ c main_arg7 (by decide)).trans <| (W1_of m ρ c main_arg7 (by decide)).trans <| rfl
/-- Argument 8 is as launched. -/
theorem W3_arg8 (c : Dev nD) : W3 m ρ c (Proc.devRef .tc main_arg8) = m ((c : Thread nD τ).loc main_arg8) :=
  (W3_of m ρ c main_arg8 (by decide)).trans <| (W2_of m ρ c main_arg8 (by decide)).trans <| (W1_of m ρ c main_arg8 (by decide)).trans <| rfl
/-- The column sums of the features, as a row. -/
theorem W3_v34 (c : Dev nD) : W3 m ρ c (Proc.devRef .tc main_v34)
    = (broadcastInDim S1x64 ![1] bcast_S64_S1x64_1 (Host.reduceAdd (m ((c : Thread nD τ).loc main_arg0)) (constant S_ .f32 0x00000000#32) reducesTo_S8192x64_S64_d0 h_S_) : (⟨S1x64, .f32⟩ : BufTy).Contents (Elt F)) := by
  rw [show W3 m ρ c (Proc.devRef .tc main_v34) = _ from step0_2_v34 (W2 m ρ c),
    show W2 m ρ c (Proc.devRef .tc main_arg0) = m ((c : Thread nD τ).loc main_arg0) from (W2_of m ρ c main_arg0 (by decide)).trans <| (W1_of m ρ c main_arg0 (by decide)).trans <| rfl]

/-! ## The first region's input arrays at its entry -/

theorem V3_arg1 (c : Dev nD) : V3 m ρ c main_arg1 = m ((c : Thread nD τ).loc main_arg1) := W3_arg1 m ρ c
theorem V3_arg0 (c : Dev nD) : V3 m ρ c main_arg0 = m ((c : Thread nD τ).loc main_arg0) := W3_arg0 m ρ c
theorem V3_v0 (c : Dev nD) : V3 m ρ c main_v0 = transpose S2x8192 [1, 0] (m ((c : Thread nD τ).loc main_arg1)) transposes_S8192x2_S2x8192_1_0 := W3_v0 m ρ c
theorem V3_v34 (c : Dev nD) : V3 m ρ c main_v34
    = broadcastInDim S1x64 ![1] bcast_S64_S1x64_1 (Host.reduceAdd (m ((c : Thread nD τ).loc main_arg0)) (constant S_ .f32 0x00000000#32) reducesTo_S8192x64_S64_d0 h_S_) := W3_v34 m ρ c

end Cert.KernelIdeal.RunValue

end
-- ==== Proof.RunLayer1.lean ====
import proofs.«105190_j88227218195280_1_alg».proof.Proof.RunHost0

/-!
Graph-convolution layer 1 on the host, between region 0 and region 1: the product of the aggregated
features with the layer's weight matrix, gathered at the source of every edge, scaled by the edge's weight,
summed into the target nodes, plus the bias, then max(·, 0); and the column sums of the outcome. With it,
the contents of region 1's input arrays when it is entered.
-/

set_option maxRecDepth 16384

noncomputable section

namespace Cert.KernelIdeal.RunValue

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg)

/-! ## What each stretch computes, from any contents V before it -/

set_option maxHeartbeats 4000000 in
/-- The layer before max(·, 0). -/
theorem step1_pre (V : Valuation τ sig (Elt F)) : StableHlo.after hostOps1 V (Proc.devRef .tc main_v52) = (addf
      (Host.scatterAdd scatter_S8192x32_S270336x1_S270336x32_1_0_0_1 (broadcastInDim S8192x32 ![] bcast_S_S8192x32 (constant S_ .f32 0x00000000#32))
        (Cert.Glue.col (V (Proc.devRef .tc main_v7) : (⟨S270336, .i32⟩ : BufTy).Contents (Elt F)))
        (mulf (Host.gather gather_S8192x32_S270336x1_S270336x32_1_0_n_n_0_1_132 (Host.dotGeneral dot_S8192x64_S64x32_S8192x32_1_0_0_1_n_n none (V (Proc.devRef .tc main_v35) : (⟨S8192x64, .f32⟩ : BufTy).Contents (Elt F)) (V (Proc.devRef .tc main_arg3) : (⟨S64x32, .f32⟩ : BufTy).Contents (Elt F))) (Cert.Glue.wrapCol (V (Proc.devRef .tc main_v4) : (⟨S270336, .i32⟩ : BufTy).Contents (Elt F))))
          (broadcastInDim S270336x32 ![0, 1] bcast_S270336x1_S270336x32_0_1 (broadcastInDim S270336x1 ![0] bcast_S270336_S270336x1_0 (V (Proc.devRef .tc main_v32) : (⟨S270336, .f32⟩ : BufTy).Contents (Elt F))))))
      (broadcastInDim S8192x32 ![0, 1] bcast_S1x32_S8192x32_0_1 (broadcastInDim S1x32 ![1] bcast_S32_S1x32_1 (V (Proc.devRef .tc main_arg4) : (⟨S32, .f32⟩ : BufTy).Contents (Elt F)))) : (⟨S8192x32, .f32⟩ : BufTy).Contents (Elt F)) := by
  after_results_simp <;> rfl

set_option maxHeartbeats 4000000 in
/-- max(·, 0). -/
theorem step1_1_out (V : Valuation τ sig (Elt F)) : StableHlo.after hostOps1_1 V (Proc.devRef .tc main_v53) = (maximumf (V (Proc.devRef .tc main_v52) : (⟨S8192x32, .f32⟩ : BufTy).Contents (Elt F)) (broadcastInDim S8192x32 ![] bcast_S_S8192x32 (constant S_ .f32 0x00000000#32)) : (⟨S8192x32, .f32⟩ : BufTy).Contents (Elt F)) := by
  after_results <;> rfl

set_option maxHeartbeats 4000000 in
/-- The column sums, as a row. -/
theorem step1_2_sums (V : Valuation τ sig (Elt F)) : StableHlo.after hostOps1_2 V (Proc.devRef .tc main_v55) = (broadcastInDim S1x32 ![1] bcast_S32_S1x32_1 (Host.reduceAdd (V (Proc.devRef .tc main_v53) : (⟨S8192x32, .f32⟩ : BufTy).Contents (Elt F)) (constant S_ .f32 0x00000000#32) reducesTo_S8192x32_S32_d0 h_S_) : (⟨S1x32, .f32⟩ : BufTy).Contents (Elt F)) := by
  after_results <;> rfl

/-! ## What the layer reads, at region 0's exit (contents W4) -/
theorem W4_v4 (c : Dev nD) : W4 m ρ c (Proc.devRef .tc main_v4) = (Cert.Glue.srcI (m ((c : Thread nD τ).loc main_arg2)) : (⟨S270336, .i32⟩ : BufTy).Contents (Elt F)) :=
  (W4_of_ne m ρ c main_v4 (by decide)).trans (W3_v4 m ρ c)
theorem W4_v7 (c : Dev nD) : W4 m ρ c (Proc.devRef .tc main_v7) = (Cert.Glue.dstI (m ((c : Thread nD τ).loc main_arg2)) : (⟨S270336, .i32⟩ : BufTy).Contents (Elt F)) :=
  (W4_of_ne m ρ c main_v7 (by decide)).trans (W3_v7 m ρ c)
theorem W4_v32 (c : Dev nD) : W4 m ρ c (Proc.devRef .tc main_v32) = (Cert.Glue.nrm (m ((c : Thread nD τ).loc main_arg2)) : (⟨S270336, .f32⟩ : BufTy).Contents (Elt F)) :=
  (W4_of_ne m ρ c main_v32 (by decide)).trans (W3_v32 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
/-- The coordinates, an input array of region 0, are as launched. -/
theorem W4_arg1 (c : Dev nD) : W4 m ρ c (Proc.devRef .tc main_arg1) = m ((c : Thread nD τ).loc main_arg1) :=
  (show W4 m ρ c (Proc.devRef .tc main_arg1) = W3 m ρ c (Proc.devRef .tc main_arg1) from (W4_arr m ρ c 0).trans (((dat0 (V3 m ρ) c).arrAt_in 0 rfl _).trans (A_eq0 (V3 m ρ) c 0))).trans (W3_arg1 m ρ c)
/-- The transposed coordinates, an input array of region 0. -/
theorem W4_v0 (c : Dev nD) : W4 m ρ c (Proc.devRef .tc main_v0) = (transpose S2x8192 [1, 0] (m ((c : Thread nD τ).loc main_arg1)) transposes_S8192x2_S2x8192_1_0 : (⟨S2x8192, .f32⟩ : BufTy).Contents (Elt F)) :=
  (show W4 m ρ c (Proc.devRef .tc main_v0) = W3 m ρ c (Proc.devRef .tc main_v0) from (W4_arr m ρ c 1).trans (((dat0 (V3 m ρ) c).arrAt_in 1 rfl _).trans (A_eq0 (V3 m ρ) c 1))).trans (W3_v0 m ρ c)

/-! ## The layer -/

/-- Region 0's output array at its exit is what the pipeline leaves. -/
theorem V4_agg (c : Dev nD) : V4 m ρ c main_v35 = (dat0 (V3 m ρ) c).arrAt 4 cfg0.N := W4_arr m ρ c 4

/-- Layer 1's outcome, from region 0's output array. -/
theorem W6_out (c : Dev nD) : W6 m ρ c (Proc.devRef .tc main_v53) = (Cert.Glue.layer1 (V4 m ρ c main_v35) (m ((c : Thread nD τ).loc main_arg2)) (m ((c : Thread nD τ).loc main_arg3)) (m ((c : Thread nD τ).loc main_arg4)) : (⟨S8192x32, .f32⟩ : BufTy).Contents (Elt F)) := by
  rw [show W6 m ρ c (Proc.devRef .tc main_v53) = _ from step1_1_out (W5 m ρ c),
    show W5 m ρ c (Proc.devRef .tc main_v52) = _ from step1_pre (W4 m ρ c),
    W4_v7, W4_v4, W4_v32, W4_arg3, W4_arg4]; rfl

/-! ## At region 1's entry (contents W7) -/

/-- Layer 1's outcome is region 1's third input array. -/
theorem V7_out (c : Dev nD) : V7 m ρ c main_v53 = Cert.Glue.layer1 (V4 m ρ c main_v35) (m ((c : Thread nD τ).loc main_arg2)) (m ((c : Thread nD τ).loc main_arg3)) (m ((c : Thread nD τ).loc main_arg4)) :=
  (W7_of m ρ c main_v53 (by decide)).trans (W6_out m ρ c)
/-- Its column sums, as a row, are the fourth. -/
theorem V7_sums (c : Dev nD) : V7 m ρ c main_v55
    = broadcastInDim S1x32 ![1] bcast_S32_S1x32_1 (Host.reduceAdd (V7 m ρ c main_v53) (constant S_ .f32 0x00000000#32) reducesTo_S8192x32_S32_d0 h_S_) := by
  show W7 m ρ c (Proc.devRef .tc main_v55) = broadcastInDim S1x32 ![1] bcast_S32_S1x32_1 (Host.reduceAdd (W7 m ρ c (Proc.devRef .tc main_v53) : (⟨S8192x32, .f32⟩ : BufTy).Contents (Elt F)) (constant S_ .f32 0x00000000#32) reducesTo_S8192x32_S32_d0 h_S_)
  rw [W7_of m ρ c main_v53 (by decide)]
  exact step1_2_sums (W6 m ρ c)
theorem W7_v4 (c : Dev nD) : W7 m ρ c (Proc.devRef .tc main_v4) = (Cert.Glue.srcI (m ((c : Thread nD τ).loc main_arg2)) : (⟨S270336, .i32⟩ : BufTy).Contents (Elt F)) :=
  (W7_of m ρ c main_v4 (by decide)).trans <| (W6_of m ρ c main_v4 (by decide)).trans <| (W5_of m ρ c main_v4 (by decide)).trans <| W4_v4 m ρ c
theorem W7_v7 (c : Dev nD) : W7 m ρ c (Proc.devRef .tc main_v7) = (Cert.Glue.dstI (m ((c : Thread nD τ).loc main_arg2)) : (⟨S270336, .i32⟩ : BufTy).Contents (Elt F)) :=
  (W7_of m ρ c main_v7 (by decide)).trans <| (W6_of m ρ c main_v7 (by decide)).trans <| (W5_of m ρ c main_v7 (by decide)).trans <| W4_v7 m ρ c
theorem W7_v32 (c : Dev nD) : W7 m ρ c (Proc.devRef .tc main_v32) = (Cert.Glue.nrm (m ((c : Thread nD τ).loc main_arg2)) : (⟨S270336, .f32⟩ : BufTy).Contents (Elt F)) :=
  (W7_of m ρ c main_v32 (by decide)).trans <| (W6_of m ρ c main_v32 (by decide)).trans <| (W5_of m ρ c main_v32 (by decide)).trans <| W4_v32 m ρ c
theorem W7_arg1 (c : Dev nD) : W7 m ρ c (Proc.devRef .tc main_arg1) = m ((c : Thread nD τ).loc main_arg1) :=
  (W7_of m ρ c main_arg1 (by decide)).trans <| (W6_of m ρ c main_arg1 (by decide)).trans <| (W5_of m ρ c main_arg1 (by decide)).trans <| W4_arg1 m ρ c
theorem W7_arg2 (c : Dev nD) : W7 m ρ c (Proc.devRef .tc main_arg2) = m ((c : Thread nD τ).loc main_arg2) :=
  (W7_of m ρ c main_arg2 (by decide)).trans <| (W6_of m ρ c main_arg2 (by decide)).trans <| (W5_of m ρ c main_arg2 (by decide)).trans <| W4_arg2 m ρ c
theorem W7_arg3 (c : Dev nD) : W7 m ρ c (Proc.devRef .tc main_arg3) = m ((c : Thread nD τ).loc main_arg3) :=
  (W7_of m ρ c main_arg3 (by decide)).trans <| (W6_of m ρ c main_arg3 (by decide)).trans <| (W5_of m ρ c main_arg3 (by decide)).trans <| W4_arg3 m ρ c
theorem W7_arg4 (c : Dev nD) : W7 m ρ c (Proc.devRef .tc main_arg4) = m ((c : Thread nD τ).loc main_arg4) :=
  (W7_of m ρ c main_arg4 (by decide)).trans <| (W6_of m ρ c main_arg4 (by decide)).trans <| (W5_of m ρ c main_arg4 (by decide)).trans <| W4_arg4 m ρ c
theorem W7_arg5 (c : Dev nD) : W7 m ρ c (Proc.devRef .tc main_arg5) = m ((c : Thread nD τ).loc main_arg5) :=
  (W7_of m ρ c main_arg5 (by decide)).trans <| (W6_of m ρ c main_arg5 (by decide)).trans <| (W5_of m ρ c main_arg5 (by decide)).trans <| W4_arg5 m ρ c
theorem W7_arg6 (c : Dev nD) : W7 m ρ c (Proc.devRef .tc main_arg6) = m ((c : Thread nD τ).loc main_arg6) :=
  (W7_of m ρ c main_arg6 (by decide)).trans <| (W6_of m ρ c main_arg6 (by decide)).trans <| (W5_of m ρ c main_arg6 (by decide)).trans <| W4_arg6 m ρ c
theorem W7_arg7 (c : Dev nD) : W7 m ρ c (Proc.devRef .tc main_arg7) = m ((c : Thread nD τ).loc main_arg7) :=
  (W7_of m ρ c main_arg7 (by decide)).trans <| (W6_of m ρ c main_arg7 (by decide)).trans <| (W5_of m ρ c main_arg7 (by decide)).trans <| W4_arg7 m ρ c
theorem W7_arg8 (c : Dev nD) : W7 m ρ c (Proc.devRef .tc main_arg8) = m ((c : Thread nD τ).loc main_arg8) :=
  (W7_of m ρ c main_arg8 (by decide)).trans <| (W6_of m ρ c main_arg8 (by decide)).trans <| (W5_of m ρ c main_arg8 (by decide)).trans <| W4_arg8 m ρ c
theorem W7_v0 (c : Dev nD) : W7 m ρ c (Proc.devRef .tc main_v0) = (transpose S2x8192 [1, 0] (m ((c : Thread nD τ).loc main_arg1)) transposes_S8192x2_S2x8192_1_0 : (⟨S2x8192, .f32⟩ : BufTy).Contents (Elt F)) :=
  (W7_of m ρ c main_v0 (by decide)).trans <| (W6_of m ρ c main_v0 (by decide)).trans <| (W5_of m ρ c main_v0 (by decide)).trans <| W4_v0 m ρ c

theorem V7_arg1 (c : Dev nD) : V7 m ρ c main_arg1 = m ((c : Thread nD τ).loc main_arg1) := W7_arg1 m ρ c
theorem V7_v0 (c : Dev nD) : V7 m ρ c main_v0 = transpose S2x8192 [1, 0] (m ((c : Thread nD τ).loc main_arg1)) transposes_S8192x2_S2x8192_1_0 := W7_v0 m ρ c

end Cert.KernelIdeal.RunValue

end
-- ==== Proof.RunLayer2.lean ====
import proofs.«105190_j88227218195280_1_alg».proof.Proof.RunLayer1

/-!
Graph-convolution layer 2 on the host, between region 1 and region 2: the product of the aggregated
features with the layer's weight matrix, gathered at the source of every edge, scaled by the edge's weight,
summed into the target nodes, plus the bias, then max(·, 0); and the column sums of the outcome. With it,
the contents of region 2's input arrays when it is entered.
-/

set_option maxRecDepth 16384

noncomputable section

namespace Cert.KernelIdeal.RunValue

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg)

/-! ## What each stretch computes, from any contents V before it -/

set_option maxHeartbeats 4000000 in
/-- The layer before max(·, 0). -/
theorem step2_pre (V : Valuation τ sig (Elt F)) : StableHlo.after hostOps2 V (Proc.devRef .tc main_v73) = (addf
      (Host.scatterAdd scatter_S8192x32_S270336x1_S270336x32_1_0_0_1 (broadcastInDim S8192x32 ![] bcast_S_S8192x32 (constant S_ .f32 0x00000000#32))
        (Cert.Glue.col (V (Proc.devRef .tc main_v7) : (⟨S270336, .i32⟩ : BufTy).Contents (Elt F)))
        (mulf (Host.gather gather_S8192x32_S270336x1_S270336x32_1_0_n_n_0_1_132 (Host.dotGeneral dot_S8192x32_S32x32_S8192x32_1_0_0_1_n_n none (V (Proc.devRef .tc main_v56) : (⟨S8192x32, .f32⟩ : BufTy).Contents (Elt F)) (V (Proc.devRef .tc main_arg5) : (⟨S32x32, .f32⟩ : BufTy).Contents (Elt F))) (Cert.Glue.wrapCol (V (Proc.devRef .tc main_v4) : (⟨S270336, .i32⟩ : BufTy).Contents (Elt F))))
          (broadcastInDim S270336x32 ![0, 1] bcast_S270336x1_S270336x32_0_1 (broadcastInDim S270336x1 ![0] bcast_S270336_S270336x1_0 (V (Proc.devRef .tc main_v32) : (⟨S270336, .f32⟩ : BufTy).Contents (Elt F))))))
      (broadcastInDim S8192x32 ![0, 1] bcast_S1x32_S8192x32_0_1 (broadcastInDim S1x32 ![1] bcast_S32_S1x32_1 (V (Proc.devRef .tc main_arg6) : (⟨S32, .f32⟩ : BufTy).Contents (Elt F)))) : (⟨S8192x32, .f32⟩ : BufTy).Contents (Elt F)) := by
  after_results_simp <;> rfl

set_option maxHeartbeats 4000000 in
/-- max(·, 0). -/
theorem step2_1_out (V : Valuation τ sig (Elt F)) : StableHlo.after hostOps2_1 V (Proc.devRef .tc main_v74) = (maximumf (V (Proc.devRef .tc main_v73) : (⟨S8192x32, .f32⟩ : BufTy).Contents (Elt F)) (broadcastInDim S8192x32 ![] bcast_S_S8192x32 (constant S_ .f32 0x00000000#32)) : (⟨S8192x32, .f32⟩ : BufTy).Contents (Elt F)) := by
  after_results <;> rfl

set_option maxHeartbeats 4000000 in
/-- The column sums, as a row. -/
theorem step2_2_sums (V : Valuation τ sig (Elt F)) : StableHlo.after hostOps2_2 V (Proc.devRef .tc main_v76) = (broadcastInDim S1x32 ![1] bcast_S32_S1x32_1 (Host.reduceAdd (V (Proc.devRef .tc main_v74) : (⟨S8192x32, .f32⟩ : BufTy).Contents (Elt F)) (constant S_ .f32 0x00000000#32) reducesTo_S8192x32_S32_d0 h_S_) : (⟨S1x32, .f32⟩ : BufTy).Contents (Elt F)) := by
  after_results <;> rfl

/-! ## What the layer reads, at region 1's exit (contents W8) -/
theorem W8_v4 (c : Dev nD) : W8 m ρ c (Proc.devRef .tc main_v4) = (Cert.Glue.srcI (m ((c : Thread nD τ).loc main_arg2)) : (⟨S270336, .i32⟩ : BufTy).Contents (Elt F)) :=
  (W8_of_ne m ρ c main_v4 (by decide)).trans (W7_v4 m ρ c)
theorem W8_v7 (c : Dev nD) : W8 m ρ c (Proc.devRef .tc main_v7) = (Cert.Glue.dstI (m ((c : Thread nD τ).loc main_arg2)) : (⟨S270336, .i32⟩ : BufTy).Contents (Elt F)) :=
  (W8_of_ne m ρ c main_v7 (by decide)).trans (W7_v7 m ρ c)
theorem W8_v32 (c : Dev nD) : W8 m ρ c (Proc.devRef .tc main_v32) = (Cert.Glue.nrm (m ((c : Thread nD τ).loc main_arg2)) : (⟨S270336, .f32⟩ : BufTy).Contents (Elt F)) :=
  (W8_of_ne m ρ c main_v32 (by decide)).trans (W7_v32 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W8_arg3 (c : Dev nD) : W8 m ρ c (Proc.devRef .tc main_arg3) = m ((c : Thread nD τ).loc main_arg3) :=
  (W8_of_ne m ρ c main_arg3 (by decide)).trans (W7_arg3 m ρ c)
theorem W8_arg4 (c : Dev nD) : W8 m ρ c (Proc.devRef .tc main_arg4) = m ((c : Thread nD τ).loc main_arg4) :=
  (W8_of_ne m ρ c main_arg4 (by decide)).trans (W7_arg4 m ρ c)
theorem W8_arg5 (c : Dev nD) : W8 m ρ c (Proc.devRef .tc main_arg5) = m ((c : Thread nD τ).loc main_arg5) :=
  (W8_of_ne m ρ c main_arg5 (by decide)).trans (W7_arg5 m ρ c)
theorem W8_arg6 (c : Dev nD) : W8 m ρ c (Proc.devRef .tc main_arg6) = m ((c : Thread nD τ).loc main_arg6) :=
  (W8_of_ne m ρ c main_arg6 (by decide)).trans (W7_arg6 m ρ c)
theorem W8_arg7 (c : Dev nD) : W8 m ρ c (Proc.devRef .tc main_arg7) = m ((c : Thread nD τ).loc main_arg7) :=
  (W8_of_ne m ρ c main_arg7 (by decide)).trans (W7_arg7 m ρ c)
theorem W8_arg8 (c : Dev nD) : W8 m ρ c (Proc.devRef .tc main_arg8) = m ((c : Thread nD τ).loc main_arg8) :=
  (W8_of_ne m ρ c main_arg8 (by decide)).trans (W7_arg8 m ρ c)
/-- The coordinates, an input array of region 1, are as launched. -/
theorem W8_arg1 (c : Dev nD) : W8 m ρ c (Proc.devRef .tc main_arg1) = m ((c : Thread nD τ).loc main_arg1) :=
  (show W8 m ρ c (Proc.devRef .tc main_arg1) = W7 m ρ c (Proc.devRef .tc main_arg1) from (W8_arr m ρ c 0).trans (((dat1 (V7 m ρ) c).arrAt_in 0 rfl _).trans (A_eq1 (V7 m ρ) c 0))).trans (W7_arg1 m ρ c)
/-- The transposed coordinates, an input array of region 1. -/
theorem W8_v0 (c : Dev nD) : W8 m ρ c (Proc.devRef .tc main_v0) = (transpose S2x8192 [1, 0] (m ((c : Thread nD τ).loc main_arg1)) transposes_S8192x2_S2x8192_1_0 : (⟨S2x8192, .f32⟩ : BufTy).Contents (Elt F)) :=
  (show W8 m ρ c (Proc.devRef .tc main_v0) = W7 m ρ c (Proc.devRef .tc main_v0) from (W8_arr m ρ c 1).trans (((dat1 (V7 m ρ) c).arrAt_in 1 rfl _).trans (A_eq1 (V7 m ρ) c 1))).trans (W7_v0 m ρ c)

/-! ## The layer -/

/-- Region 1's output array at its exit is what the pipeline leaves. -/
theorem V8_agg (c : Dev nD) : V8 m ρ c main_v56 = (dat1 (V7 m ρ) c).arrAt 4 cfg1.N := W8_arr m ρ c 4

/-- Layer 2's outcome, from region 1's output array. -/
theorem W10_out (c : Dev nD) : W10 m ρ c (Proc.devRef .tc main_v74) = (Cert.Glue.layer2 (V8 m ρ c main_v56) (m ((c : Thread nD τ).loc main_arg2)) (m ((c : Thread nD τ).loc main_arg5)) (m ((c : Thread nD τ).loc main_arg6)) : (⟨S8192x32, .f32⟩ : BufTy).Contents (Elt F)) := by
  rw [show W10 m ρ c (Proc.devRef .tc main_v74) = _ from step2_1_out (W9 m ρ c),
    show W9 m ρ c (Proc.devRef .tc main_v73) = _ from step2_pre (W8 m ρ c),
    W8_v7, W8_v4, W8_v32, W8_arg5, W8_arg6]; rfl

/-! ## At region 2's entry (contents W11) -/

/-- Layer 2's outcome is region 2's third input array. -/
theorem V11_out (c : Dev nD) : V11 m ρ c main_v74 = Cert.Glue.layer2 (V8 m ρ c main_v56) (m ((c : Thread nD τ).loc main_arg2)) (m ((c : Thread nD τ).loc main_arg5)) (m ((c : Thread nD τ).loc main_arg6)) :=
  (W11_of m ρ c main_v74 (by decide)).trans (W10_out m ρ c)
/-- Its column sums, as a row, are the fourth. -/
theorem V11_sums (c : Dev nD) : V11 m ρ c main_v76
    = broadcastInDim S1x32 ![1] bcast_S32_S1x32_1 (Host.reduceAdd (V11 m ρ c main_v74) (constant S_ .f32 0x00000000#32) reducesTo_S8192x32_S32_d0 h_S_) := by
  show W11 m ρ c (Proc.devRef .tc main_v76) = broadcastInDim S1x32 ![1] bcast_S32_S1x32_1 (Host.reduceAdd (W11 m ρ c (Proc.devRef .tc main_v74) : (⟨S8192x32, .f32⟩ : BufTy).Contents (Elt F)) (constant S_ .f32 0x00000000#32) reducesTo_S8192x32_S32_d0 h_S_)
  rw [W11_of m ρ c main_v74 (by decide)]
  exact step2_2_sums (W10 m ρ c)
theorem W11_v4 (c : Dev nD) : W11 m ρ c (Proc.devRef .tc main_v4) = (Cert.Glue.srcI (m ((c : Thread nD τ).loc main_arg2)) : (⟨S270336, .i32⟩ : BufTy).Contents (Elt F)) :=
  (W11_of m ρ c main_v4 (by decide)).trans <| (W10_of m ρ c main_v4 (by decide)).trans <| (W9_of m ρ c main_v4 (by decide)).trans <| W8_v4 m ρ c
theorem W11_v7 (c : Dev nD) : W11 m ρ c (Proc.devRef .tc main_v7) = (Cert.Glue.dstI (m ((c : Thread nD τ).loc main_arg2)) : (⟨S270336, .i32⟩ : BufTy).Contents (Elt F)) :=
  (W11_of m ρ c main_v7 (by decide)).trans <| (W10_of m ρ c main_v7 (by decide)).trans <| (W9_of m ρ c main_v7 (by decide)).trans <| W8_v7 m ρ c
theorem W11_v32 (c : Dev nD) : W11 m ρ c (Proc.devRef .tc main_v32) = (Cert.Glue.nrm (m ((c : Thread nD τ).loc main_arg2)) : (⟨S270336, .f32⟩ : BufTy).Contents (Elt F)) :=
  (W11_of m ρ c main_v32 (by decide)).trans <| (W10_of m ρ c main_v32 (by decide)).trans <| (W9_of m ρ c main_v32 (by decide)).trans <| W8_v32 m ρ c
theorem W11_arg1 (c : Dev nD) : W11 m ρ c (Proc.devRef .tc main_arg1) = m ((c : Thread nD τ).loc main_arg1) :=
  (W11_of m ρ c main_arg1 (by decide)).trans <| (W10_of m ρ c main_arg1 (by decide)).trans <| (W9_of m ρ c main_arg1 (by decide)).trans <| W8_arg1 m ρ c
theorem W11_arg2 (c : Dev nD) : W11 m ρ c (Proc.devRef .tc main_arg2) = m ((c : Thread nD τ).loc main_arg2) :=
  (W11_of m ρ c main_arg2 (by decide)).trans <| (W10_of m ρ c main_arg2 (by decide)).trans <| (W9_of m ρ c main_arg2 (by decide)).trans <| W8_arg2 m ρ c
theorem W11_arg3 (c : Dev nD) : W11 m ρ c (Proc.devRef .tc main_arg3) = m ((c : Thread nD τ).loc main_arg3) :=
  (W11_of m ρ c main_arg3 (by decide)).trans <| (W10_of m ρ c main_arg3 (by decide)).trans <| (W9_of m ρ c main_arg3 (by decide)).trans <| W8_arg3 m ρ c
theorem W11_arg4 (c : Dev nD) : W11 m ρ c (Proc.devRef .tc main_arg4) = m ((c : Thread nD τ).loc main_arg4) :=
  (W11_of m ρ c main_arg4 (by decide)).trans <| (W10_of m ρ c main_arg4 (by decide)).trans <| (W9_of m ρ c main_arg4 (by decide)).trans <| W8_arg4 m ρ c
theorem W11_arg5 (c : Dev nD) : W11 m ρ c (Proc.devRef .tc main_arg5) = m ((c : Thread nD τ).loc main_arg5) :=
  (W11_of m ρ c main_arg5 (by decide)).trans <| (W10_of m ρ c main_arg5 (by decide)).trans <| (W9_of m ρ c main_arg5 (by decide)).trans <| W8_arg5 m ρ c
theorem W11_arg6 (c : Dev nD) : W11 m ρ c (Proc.devRef .tc main_arg6) = m ((c : Thread nD τ).loc main_arg6) :=
  (W11_of m ρ c main_arg6 (by decide)).trans <| (W10_of m ρ c main_arg6 (by decide)).trans <| (W9_of m ρ c main_arg6 (by decide)).trans <| W8_arg6 m ρ c
theorem W11_arg7 (c : Dev nD) : W11 m ρ c (Proc.devRef .tc main_arg7) = m ((c : Thread nD τ).loc main_arg7) :=
  (W11_of m ρ c main_arg7 (by decide)).trans <| (W10_of m ρ c main_arg7 (by decide)).trans <| (W9_of m ρ c main_arg7 (by decide)).trans <| W8_arg7 m ρ c
theorem W11_arg8 (c : Dev nD) : W11 m ρ c (Proc.devRef .tc main_arg8) = m ((c : Thread nD τ).loc main_arg8) :=
  (W11_of m ρ c main_arg8 (by decide)).trans <| (W10_of m ρ c main_arg8 (by decide)).trans <| (W9_of m ρ c main_arg8 (by decide)).trans <| W8_arg8 m ρ c
theorem W11_v0 (c : Dev nD) : W11 m ρ c (Proc.devRef .tc main_v0) = (transpose S2x8192 [1, 0] (m ((c : Thread nD τ).loc main_arg1)) transposes_S8192x2_S2x8192_1_0 : (⟨S2x8192, .f32⟩ : BufTy).Contents (Elt F)) :=
  (W11_of m ρ c main_v0 (by decide)).trans <| (W10_of m ρ c main_v0 (by decide)).trans <| (W9_of m ρ c main_v0 (by decide)).trans <| W8_v0 m ρ c

theorem V11_arg1 (c : Dev nD) : V11 m ρ c main_arg1 = m ((c : Thread nD τ).loc main_arg1) := W11_arg1 m ρ c
theorem V11_v0 (c : Dev nD) : V11 m ρ c main_v0 = transpose S2x8192 [1, 0] (m ((c : Thread nD τ).loc main_arg1)) transposes_S8192x2_S2x8192_1_0 := W11_v0 m ρ c

end Cert.KernelIdeal.RunValue

end
-- ==== Proof.RunLayer3.lean ====
import proofs.«105190_j88227218195280_1_alg».proof.Proof.RunLayer2

/-!
The last graph-convolution layer on the host, after region 2, and the log-softmax over the 16 classes:
the result of the entry function, from region 2's output array and the arguments.
-/

set_option maxRecDepth 16384

noncomputable section

namespace Cert.KernelIdeal.RunValue

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg)

/-! ## What each stretch computes, from any contents V before it -/

set_option maxHeartbeats 4000000 in
/-- The layer (no max(·, 0) after the last one). -/
theorem step3_pre (V : Valuation τ sig (Elt F)) : StableHlo.after hostOps3 V (Proc.devRef .tc main_v94) = (addf
      (Host.scatterAdd scatter_S8192x16_S270336x1_S270336x16_1_0_0_1 (broadcastInDim S8192x16 ![] bcast_S_S8192x16 (constant S_ .f32 0x00000000#32))
        (Cert.Glue.col (V (Proc.devRef .tc main_v7) : (⟨S270336, .i32⟩ : BufTy).Contents (Elt F)))
        (mulf (Host.gather gather_S8192x16_S270336x1_S270336x16_1_0_n_n_0_1_116 (Host.dotGeneral dot_S8192x32_S32x16_S8192x16_1_0_0_1_n_n none (V (Proc.devRef .tc main_v77) : (⟨S8192x32, .f32⟩ : BufTy).Contents (Elt F)) (V (Proc.devRef .tc main_arg7) : (⟨S32x16, .f32⟩ : BufTy).Contents (Elt F))) (Cert.Glue.wrapCol (V (Proc.devRef .tc main_v4) : (⟨S270336, .i32⟩ : BufTy).Contents (Elt F))))
          (broadcastInDim S270336x16 ![0, 1] bcast_S270336x1_S270336x16_0_1 (broadcastInDim S270336x1 ![0] bcast_S270336_S270336x1_0 (V (Proc.devRef .tc main_v32) : (⟨S270336, .f32⟩ : BufTy).Contents (Elt F))))))
      (broadcastInDim S8192x16 ![0, 1] bcast_S1x16_S8192x16_0_1 (broadcastInDim S1x16 ![1] bcast_S16_S1x16_1 (V (Proc.devRef .tc main_arg8) : (⟨S16, .f32⟩ : BufTy).Contents (Elt F)))) : (⟨S8192x16, .f32⟩ : BufTy).Contents (Elt F)) := by
  after_results_simp <;> rfl

set_option maxRecDepth 100000 in
set_option maxHeartbeats 4000000 in
/-- The log-softmax of every row. -/
theorem step3_1_out (V : Valuation τ sig (Elt F)) : StableHlo.after hostOps3_1 V (Proc.devRef .tc main_v95) = (Cert.Glue.logsm (V (Proc.devRef .tc main_v94) : (⟨S8192x16, .f32⟩ : BufTy).Contents (Elt F)) : (⟨S8192x16, .f32⟩ : BufTy).Contents (Elt F)) := by
  after_results_simp <;> simp only [StableHlo.TRef.ofBuf, StableHlo.TRef.toBuf, cast_eq] <;> rfl

/-! ## What the layer reads, at region 2's exit (contents W12) -/
theorem W12_v4 (c : Dev nD) : W12 m ρ c (Proc.devRef .tc main_v4) = (Cert.Glue.srcI (m ((c : Thread nD τ).loc main_arg2)) : (⟨S270336, .i32⟩ : BufTy).Contents (Elt F)) :=
  (W12_of_ne m ρ c main_v4 (by decide)).trans (W11_v4 m ρ c)
theorem W12_v7 (c : Dev nD) : W12 m ρ c (Proc.devRef .tc main_v7) = (Cert.Glue.dstI (m ((c : Thread nD τ).loc main_arg2)) : (⟨S270336, .i32⟩ : BufTy).Contents (Elt F)) :=
  (W12_of_ne m ρ c main_v7 (by decide)).trans (W11_v7 m ρ c)
theorem W12_v32 (c : Dev nD) : W12 m ρ c (Proc.devRef .tc main_v32) = (Cert.Glue.nrm (m ((c : Thread nD τ).loc main_arg2)) : (⟨S270336, .f32⟩ : BufTy).Contents (Elt F)) :=
  (W12_of_ne m ρ c main_v32 (by decide)).trans (W11_v32 m ρ c)
theorem W12_arg2 (c : Dev nD) : W12 m ρ c (Proc.devRef .tc main_arg2) = m ((c : Thread nD τ).loc main_arg2) :=
  (W12_of_ne m ρ c main_arg2 (by decide)).trans (W11_arg2 m ρ c)
theorem W12_arg3 (c : Dev nD) : W12 m ρ c (Proc.devRef .tc main_arg3) = m ((c : Thread nD τ).loc main_arg3) :=
  (W12_of_ne m ρ c main_arg3 (by decide)).trans (W11_arg3 m ρ c)
theorem W12_arg4 (c : Dev nD) : W12 m ρ c (Proc.devRef .tc main_arg4) = m ((c : Thread nD τ).loc main_arg4) :=
  (W12_of_ne m ρ c main_arg4 (by decide)).trans (W11_arg4 m ρ c)
theorem W12_arg5 (c : Dev nD) : W12 m ρ c (Proc.devRef .tc main_arg5) = m ((c : Thread nD τ).loc main_arg5) :=
  (W12_of_ne m ρ c main_arg5 (by decide)).trans (W11_arg5 m ρ c)
theorem W12_arg6 (c : Dev nD) : W12 m ρ c (Proc.devRef .tc main_arg6) = m ((c : Thread nD τ).loc main_arg6) :=
  (W12_of_ne m ρ c main_arg6 (by decide)).trans (W11_arg6 m ρ c)
theorem W12_arg7 (c : Dev nD) : W12 m ρ c (Proc.devRef .tc main_arg7) = m ((c : Thread nD τ).loc main_arg7) :=
  (W12_of_ne m ρ c main_arg7 (by decide)).trans (W11_arg7 m ρ c)
theorem W12_arg8 (c : Dev nD) : W12 m ρ c (Proc.devRef .tc main_arg8) = m ((c : Thread nD τ).loc main_arg8) :=
  (W12_of_ne m ρ c main_arg8 (by decide)).trans (W11_arg8 m ρ c)

/-! ## The result -/

/-- Region 2's output array at its exit is what the pipeline leaves. -/
theorem V12_agg (c : Dev nD) : V12 m ρ c main_v77 = (dat2 (V11 m ρ) c).arrAt 4 cfg2.N := W12_arr m ρ c 4

/-- The last layer's outcome, from region 2's output array. -/
theorem W13_pre (c : Dev nD) : W13 m ρ c (Proc.devRef .tc main_v94) = (Cert.Glue.layer3 (V12 m ρ c main_v77) (m ((c : Thread nD τ).loc main_arg2)) (m ((c : Thread nD τ).loc main_arg7)) (m ((c : Thread nD τ).loc main_arg8)) : (⟨S8192x16, .f32⟩ : BufTy).Contents (Elt F)) := by
  rw [show W13 m ρ c (Proc.devRef .tc main_v94) = _ from step3_pre (W12 m ρ c),
    W12_v7, W12_v4, W12_v32, W12_arg7, W12_arg8]; rfl

/-- The result buffer at the end of the run. -/
theorem W14_out (c : Dev nD) : W14 m ρ c (Proc.devRef .tc main_v95)
    = Cert.Glue.logsm (Cert.Glue.layer3 (V12 m ρ c main_v77) (m ((c : Thread nD τ).loc main_arg2)) (m ((c : Thread nD τ).loc main_arg7)) (m ((c : Thread nD τ).loc main_arg8))) := by
  rw [show W14 m ρ c (Proc.devRef .tc main_v95) = _ from step3_1_out (W13 m ρ c), W13_pre]

end Cert.KernelIdeal.RunValue

end
-- ==== Proof.Spec.lean ====
import Idealize.ShloMosaic.PureOps.Ideal
import Idealize.ShloMosaic.PureOps.Ideal.Laws
import Idealize.ShloMosaic.Lib.ValueIdx

/-!
The spatial aggregation, entry by entry, over the extended reals. Node i has coordinates
(xᵢ, yᵢ); the weight of node j for node i is K(i, j) = exp(−max(rᵢ + rⱼ − 2 (xᵢxⱼ + yᵢyⱼ), 0) · c) with
rᵢ = xᵢ² + yᵢ². One program sums K(i, j) · a(j) over all 8192 nodes j; the other sums (K(i, j) − 1) · a(j)
over 16 consecutive groups of 512 nodes and adds Σⱼ a(j). For real coordinates and real a the two agree:
(K − 1) · a + a = K · a, term by term.
-/

noncomputable section

namespace Cert.Spatial

open Idealize.ShloMosaic

/-- The scale c (the f32 word of 5·10⁻⁷) as an extended real. -/
abbrev cScale : EReal := Ideal.ofBits .f32 0x350637BD#32
/-- 2 as an extended real. -/
abbrev cTwo : EReal := Ideal.ofBits .f32 0x40000000#32
/-- 1 as an extended real. -/
abbrev cOne : EReal := Ideal.ofBits .f32 0x3F800000#32

/-- Squared distance of two points, clipped at 0: max((xᵢ² + yᵢ²) + (xⱼ² + yⱼ²) − 2 (xᵢxⱼ + yᵢyⱼ), 0). -/
def sqd (xi yi xj yj : EReal) : EReal :=
  max (((xi * xi + yi * yi) + (xj * xj + yj * yj)) - cTwo * (xi * xj + yi * yj)) 0

/-- The weight K = exp(−sqd · c). -/
def ker (xi yi xj yj : EReal) : EReal := Ideal.exp (-(sqd xi yi xj yj) * cScale)

/-- Node 512·j + k, the k-th node of the j-th group of 512. -/
def node (j : Fin 16) (k : Fin 512) : Fin 8192 := ⟨512 * j.val + k.val, by omega⟩

/-- One entry of the aggregation as the 16-group program computes it, from the node's coordinates
    (xi, yi), all nodes' coordinates px, py, one column a of the features, and s = the column's sum:
    Σ_j Σ_k (K(i, 512j+k) − 1) · a(512j+k) + s. -/
def aggGroups (xi yi : EReal) (px py a : Fin 8192 → EReal) (s : EReal) : EReal :=
  (∑ j : Fin 16, ∑ k : Fin 512, (ker xi yi (px (node j k)) (py (node j k)) - cOne) * a (node j k)) + s

/-- One entry of the aggregation as the dense program computes it: Σ_r K(i, r) · a(r). -/
def aggDense (xi yi : EReal) (px py a : Fin 8192 → EReal) : EReal :=
  ∑ r : Fin 8192, ker xi yi (px r) (py r) * a r

end Cert.Spatial

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.Law.lean ====
import proofs.«105190_j88227218195280_1_alg».proof.Proof.Spec
import proofs.«105190_j88227218195280_1_alg».proof.Proof.LibBlockSum

/-!
Real entries, and the law that joins the two aggregations: for real coordinates and real features,
Σⱼ (K(i,j) − 1) · a(j) + Σⱼ a(j) = Σⱼ K(i,j) · a(j), the 8192 nodes taken as 16 groups of 512 on the left.
On the extended reals the law needs every a(j) and every K(i,j) real (at an infinite a(j) the left side is −∞ + ∞).
-/

noncomputable section

namespace Cert.Spatial

open Idealize.ShloMosaic

/-- An extended real that is a real number. -/
def IsReal (x : EReal) : Prop := ∃ r : ℝ, x = (r : EReal)

/-- An array all of whose entries are real numbers. -/
def AllReal {ι : Type*} (v : ι → EReal) : Prop := ∀ i, IsReal (v i)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem isReal_zero : IsReal 0 := ⟨0, rfl⟩

theorem isReal_coe (r : ℝ) : IsReal (r : EReal) := ⟨r, rfl⟩

theorem IsReal.exp {x : EReal} (hx : IsReal x) : IsReal (Ideal.exp x) := by
  obtain ⟨a, rfl⟩ := hx; exact ⟨Real.exp a, rfl⟩

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The word of 1.0 denotes 1. -/
theorem cOne_eq : cOne = 1 := by
  simp [cOne, Ideal.ofBits, Ideal.ieee, -EReal.coe_mul]; norm_num

/-- The word of 2.0 denotes 2. -/
theorem cTwo_eq : cTwo = ((2 : ℝ) : EReal) := by
  simp [cTwo, Ideal.ofBits, Ideal.ieee, -EReal.coe_mul]; norm_num

/-- The scale's word denotes a real number. -/
theorem cScale_real : IsReal cScale := by
  unfold IsReal cScale
  simp [Ideal.ofBits, Ideal.ieee, -EReal.coe_mul]

/-- The clipped squared distance of two points with real coordinates is real. -/
theorem sqd_real {xi yi xj yj : EReal} (h1 : IsReal xi) (h2 : IsReal yi) (h3 : IsReal xj) (h4 : IsReal yj) :
    IsReal (sqd xi yi xj yj) := by
  unfold sqd
  exact ((((h1.mul h1).add (h2.mul h2)).add ((h3.mul h3).add (h4.mul h4))).sub
    ((cTwo_eq ▸ isReal_coe 2).mul ((h1.mul h3).add (h2.mul h4)))).max isReal_zero

/-- The weight of two points with real coordinates is real. -/
theorem ker_real {xi yi xj yj : EReal} (h1 : IsReal xi) (h2 : IsReal yi) (h3 : IsReal xj) (h4 : IsReal yj) :
    IsReal (ker xi yi xj yj) := by
  unfold ker
  exact ((sqd_real h1 h2 h3 h4).neg.mul cScale_real).exp

/-- A sum over the 8192 nodes, taken as 16 groups of 512 consecutive nodes. -/
theorem sum_nodes {M : Type*} [AddCommMonoid M] (g : Fin 8192 → M) :
    ∑ j : Fin 16, ∑ k : Fin 512, g (node j k) = ∑ r : Fin 8192, g r :=
  Cert.LibBlockSum.sum_blocks 16 512 g

/-- The dense aggregation of real features at real coordinates is real. -/
theorem aggDense_real {xi yi : EReal} {px py a : Fin 8192 → EReal} (hxi : IsReal xi) (hyi : IsReal yi)
    (hpx : AllReal px) (hpy : AllReal py) (ha : AllReal a) : IsReal (aggDense xi yi px py a) := by
  unfold aggDense
  exact isReal_sum _ _ fun r _ => (ker_real hxi hyi (hpx r) (hpy r)).mul (ha r)

/-- THE LAW: at real coordinates and real features, the 16 groups' sums of (K − 1) · a plus the column's sum
    is the dense sum of K · a. -/
theorem aggGroups_eq_aggDense {xi yi : EReal} {px py a : Fin 8192 → EReal} (hxi : IsReal xi) (hyi : IsReal yi)
    (hpx : AllReal px) (hpy : AllReal py) (ha : AllReal a) :
    aggGroups xi yi px py a (∑ r : Fin 8192, a r) = aggDense xi yi px py a := by
  unfold aggGroups aggDense
  rw [sum_nodes (fun r => (ker xi yi (px r) (py r) - cOne) * a r), ← Finset.sum_add_distrib]
  refine Finset.sum_congr rfl fun r _ => ?_
  obtain ⟨e, he⟩ := ker_real hxi hyi (hpx r) (hpy r)
  obtain ⟨b, hb⟩ := ha r
  rw [he, hb, cOne_eq, ← EReal.coe_one, ← EReal.coe_sub, ← EReal.coe_mul, ← EReal.coe_add, ← EReal.coe_mul]
  congr 1
  ring

end Cert.Spatial

end
-- ==== Proof.FinalArr0.lean ====
import proofs.«105190_j88227218195280_1_alg».proof.Proof.Gen.KernelIdeal.Frame
import proofs.«105190_j88227218195280_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final0

open Cert.KernelIdeal Cert.KernelIdeal.Gen

variable (V : (c : Dev nD) → (b : Ref sig .tc) → Buf (Elt Ideal) ((c : Thread nD τ).loc b))

/-- The aggregated array, entry by entry, from the coordinates, their transpose, the features and the features'
    column sums kept as a row. -/
def G (pos : S8192x2.Idx → EReal) (posT : S2x8192.Idx → EReal) (arr : S8192x64.Idx → EReal) (sumx : S1x64.Idx → EReal) :
    S8192x64.Idx → EReal := fun i =>
  Cert.Spatial.aggGroups (pos (ix2 (⟨(i 0).val, idx2_lt0 i⟩ : Fin 8192) (0 : Fin 2))) (pos (ix2 (⟨(i 0).val, idx2_lt0 i⟩ : Fin 8192) (1 : Fin 2)))
    (fun r => posT (ix2 (0 : Fin 2) r)) (fun r => posT (ix2 (1 : Fin 2) r))
    (fun r => arr (ix2 r (⟨(i 1).val, idx2_lt1 i⟩ : Fin 64))) (sumx (ix2 (0 : Fin 1) (⟨(i 1).val, idx2_lt1 i⟩ : Fin 64)))

/-- The printed index maps over the grid of 8 row tiles: the coordinates' and the output's blocks move with the
    tile, the other three windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Tile t's block of the coordinates is rows 1024 t … 1024 t + 1023. -/
theorem iblk_pos (c : Dev nD) (t : Fin cfg0.N) (x : S1024x2.Idx) (k : S8192x2.Idx)
    (hk0 : (k 0).val = 1024 * t.val + (x 0).val) (hk1 : (k 1).val = (x 1).val) :
    (iblk0 V c 0 t : Vec Ideal S1024x2 .f32) x = (V c main_arg1 : S8192x2.Idx → EReal) k := by
  obtain ⟨e0, e1, -⟩ := idx_facts t
  unfold iblk0
  rw [View.read_apply]
  show V c main_arg1 _ = V c main_arg1 _
  congr 1
  funext a
  apply Fin.ext
  match a with
  | ⟨0, _⟩ => show win0_0.index t 0 * 1024 + 1 * (x 0).val = (k 0).val; rw [e0, hk0]; omega
  | ⟨1, _⟩ => show win0_0.index t 1 * 2 + 1 * (x 1).val = (k 1).val; rw [e1, hk1]; omega

/-- The transposed coordinates' block is the whole array at every tile. -/
theorem iblk_posT (c : Dev nD) (t : Fin cfg0.N) (x : S2x8192.Idx) :
    (iblk0 V c 1 t : Vec Ideal S2x8192 .f32) x = (V c main_v0 : S2x8192.Idx → EReal) x := by
  obtain ⟨-, -, e0, e1, -⟩ := idx_facts t
  unfold iblk0
  rw [View.read_apply]
  show V c main_v0 _ = V c main_v0 _
  congr 1
  funext a
  apply Fin.ext
  match a with
  | ⟨0, _⟩ => show win0_1.index t 0 * 2 + 1 * (x 0).val = (x 0).val; rw [e0]; omega
  | ⟨1, _⟩ => show win0_1.index t 1 * 8192 + 1 * (x 1).val = (x 1).val; rw [e1]; omega

/-- The features' block is the whole array at every tile. -/
theorem iblk_arr (c : Dev nD) (t : Fin cfg0.N) (x : S8192x64.Idx) :
    (iblk0 V c 2 t : Vec Ideal S8192x64 .f32) x = (V c main_arg0 : S8192x64.Idx → EReal) x := by
  obtain ⟨-, -, -, -, e0, e1, -⟩ := idx_facts t
  unfold iblk0
  rw [View.read_apply]
  show V c main_arg0 _ = V c main_arg0 _
  congr 1
  funext a
  apply Fin.ext
  match a with
  | ⟨0, _⟩ => show win0_2.index t 0 * 8192 + 1 * (x 0).val = (x 0).val; rw [e0]; omega
  | ⟨1, _⟩ => show win0_2.index t 1 * 64 + 1 * (x 1).val = (x 1).val; rw [e1]; omega

/-- The column sums' block is the whole row at every tile. -/
theorem iblk_sumx (c : Dev nD) (t : Fin cfg0.N) (x : S1x64.Idx) :
    (iblk0 V c 3 t : Vec Ideal S1x64 .f32) x = (V c main_v34 : S1x64.Idx → EReal) x := by
  obtain ⟨-, -, -, -, -, -, e0, e1, -⟩ := idx_facts t
  unfold iblk0
  rw [View.read_apply]
  show V c main_v34 _ = V c main_v34 _
  congr 1
  funext a
  apply Fin.ext
  match a with
  | ⟨0, _⟩ => show win0_3.index t 0 * 1 + 1 * (x 0).val = (x 0).val; rw [e0]; omega
  | ⟨1, _⟩ => show win0_3.index t 1 * 64 + 1 * (x 1).val = (x 1).val; rw [e1]; omega

variable (hbody : ∀ (x0 : Vec Ideal S1024x2 .f32) (x1 : Vec Ideal S2x8192 .f32) (x2 : Vec Ideal S8192x64 .f32) (x3 : Vec Ideal S1x64 .f32) (p : Fin 1024) (q : Fin 64),
      out0_4 (F := Ideal) x0 x1 x2 x3 (ix2 p q) = Cert.Spatial.aggGroups (x0 (ix2 p 0)) (x0 (ix2 p 1)) (fun r => x1 (ix2 0 r)) (fun r => x1 (ix2 1 r)) (fun r => x2 (ix2 r q)) (x3 (ix2 0 q)))

include hbody in
/-- Tile t's output block, entry (y₀, y₁), is the aggregation's entry (1024 t + y₀, y₁). -/
theorem block_entry (c : Dev nD) (t : Fin cfg0.N) (y : S1024x64.Idx) (i : S8192x64.Idx)
    (h0 : (i 0).val = 1024 * t.val + (y 0).val) (h1 : (i 1).val = (y 1).val) :
    out0_4 (F := Ideal) (iblk0 V c 0 t) (iblk0 V c 1 t) (iblk0 V c 2 t) (iblk0 V c 3 t) y
      = G (V c main_arg1) (V c main_v0) (V c main_arg0) (V c main_v34) i := by
  refine ((congrArg _ (eq_ix2 y)).trans (hbody _ _ _ _ (y 0) (y 1))).trans ?_
  unfold G
  have hq : (⟨(i 1).val, idx2_lt1 i⟩ : Fin 64) = y 1 := Fin.ext h1
  rw [hq]
  rw [iblk_pos V c t (ix2 (y 0) (0 : Fin 2)) (ix2 (⟨(i 0).val, idx2_lt0 i⟩ : Fin 8192) (0 : Fin 2)) h0 rfl,
    iblk_pos V c t (ix2 (y 0) (1 : Fin 2)) (ix2 (⟨(i 0).val, idx2_lt0 i⟩ : Fin 8192) (1 : Fin 2)) h0 rfl]
  simp only [iblk_posT V c t, iblk_arr V c t, iblk_sumx V c t]

include hbody in
/-- What tile t writes back is block t of the aggregation. -/
theorem flushed_eq (c : Dev nD) (t : Fin cfg0.N) :
    (dat0 V c).flushed 4 t = ((cfg0.win 4).blk t).view.read (Elt Ideal) (G (V c main_arg1) (V c main_v0) (V c main_arg0) (V c main_v34)) := by
  show (cfg0.win 4).cut (grid0.coords t) ((dat0 V c).after 4 t) = _
  rw [after0_4]
  funext j
  obtain ⟨-, -, -, -, -, -, -, -, e0, e1⟩ := idx_facts t
  show out0_4 (iblk0 V c 0 t) (iblk0 V c 1 t) (iblk0 V c 2 t) (iblk0 V c 3 t) ((cfg0.win 4).xinj (grid0.coords t) j)
    = G (V c main_arg1) (V c main_v0) (V c main_arg0) (V c main_v34) (((cfg0.win 4).blk t).view.emb j)
  refine block_entry V hbody c t _ _ ?_ ?_
  · show win0_4.index t 0 * 1024 + 1 * (j 0).val = 1024 * t.val + (j 0).val; rw [e0]; omega
  · show win0_4.index t 1 * 64 + 1 * (j 1).val = (j 1).val; rw [e1]; omega

/-- An index of the array is in tile t's block iff each coordinate is in the block's range on its axis. -/
theorem mem_blk (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v35).slice (win0_4.rect t)).set ↔ _
  rw [View.set_slice_whole, Rect.mem_set_unit]
  exact Iff.rfl

/-- Every row belongs to the tile of its number divided by 1024. -/
theorem cover (i : S8192x64.Idx) : ∃ t : Fin cfg0.N, (cfg0.win 4).flush t = true ∧ i ∈ ((cfg0.win 4).blk t).view.set := by
  have hi0 : (i 0).val < 8192 := idx2_lt0 i
  have hi1 : (i 1).val < 64 := idx2_lt1 i
  have hN : cfg0.N = 8 := N_0
  let t : Fin cfg0.N := ⟨(i 0).val / 1024, by rw [hN]; omega⟩
  obtain ⟨-, -, -, -, -, -, -, -, e0, e1⟩ := idx_facts t
  refine ⟨t, flush0_4 t, ?_⟩
  rw [mem_blk]
  intro a
  match a with
  | ⟨0, _⟩ => show win0_4.index t 0 * 1024 ≤ (i 0).val ∧ (i 0).val < win0_4.index t 0 * 1024 + 1024; rw [e0]; show (i 0).val / 1024 * 1024 ≤ (i 0).val ∧ (i 0).val < (i 0).val / 1024 * 1024 + 1024; omega
  | ⟨1, _⟩ => show win0_4.index t 1 * 64 ≤ (i 1).val ∧ (i 1).val < win0_4.index t 1 * 64 + 64; rw [e1]; omega

include hbody in
/-- The array after the region: the aggregation of the arrays the region found. -/
theorem final (c : Dev nD) :
    (dat0 V c).arrAt 4 cfg0.N = G (V c main_arg1) (V c main_v0) (V c main_arg0) (V c main_v34) :=
  (dat0 V c).arrAt_eq_of_cover 4 _ (fun t _ => flushed_eq V hbody c t) cover

end Cert.KernelIdeal.Final0

end
-- ==== Proof.FinalArr1.lean ====
import proofs.«105190_j88227218195280_1_alg».proof.Proof.Gen.KernelIdeal.Frame
import proofs.«105190_j88227218195280_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final1

open Cert.KernelIdeal Cert.KernelIdeal.Gen

variable (V : (c : Dev nD) → (b : Ref sig .tc) → Buf (Elt Ideal) ((c : Thread nD τ).loc b))

/-- The aggregated array, entry by entry, from the coordinates, their transpose, the features and the features'
    column sums kept as a row. -/
def G (pos : S8192x2.Idx → EReal) (posT : S2x8192.Idx → EReal) (arr : S8192x32.Idx → EReal) (sumx : S1x32.Idx → EReal) :
    S8192x32.Idx → EReal := fun i =>
  Cert.Spatial.aggGroups (pos (ix2 (⟨(i 0).val, idx2_lt0 i⟩ : Fin 8192) (0 : Fin 2))) (pos (ix2 (⟨(i 0).val, idx2_lt0 i⟩ : Fin 8192) (1 : Fin 2)))
    (fun r => posT (ix2 (0 : Fin 2) r)) (fun r => posT (ix2 (1 : Fin 2) r))
    (fun r => arr (ix2 r (⟨(i 1).val, idx2_lt1 i⟩ : Fin 32))) (sumx (ix2 (0 : Fin 1) (⟨(i 1).val, idx2_lt1 i⟩ : Fin 32)))

/-- The printed index maps over the grid of 8 row tiles: the coordinates' and the output's blocks move with the
    tile, the other three windows stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Tile t's block of the coordinates is rows 1024 t … 1024 t + 1023. -/
theorem iblk_pos (c : Dev nD) (t : Fin cfg1.N) (x : S1024x2.Idx) (k : S8192x2.Idx)
    (hk0 : (k 0).val = 1024 * t.val + (x 0).val) (hk1 : (k 1).val = (x 1).val) :
    (iblk1 V c 0 t : Vec Ideal S1024x2 .f32) x = (V c main_arg1 : S8192x2.Idx → EReal) k := by
  obtain ⟨e0, e1, -⟩ := idx_facts t
  unfold iblk1
  rw [View.read_apply]
  show V c main_arg1 _ = V c main_arg1 _
  congr 1
  funext a
  apply Fin.ext
  match a with
  | ⟨0, _⟩ => show win1_0.index t 0 * 1024 + 1 * (x 0).val = (k 0).val; rw [e0, hk0]; omega
  | ⟨1, _⟩ => show win1_0.index t 1 * 2 + 1 * (x 1).val = (k 1).val; rw [e1, hk1]; omega

/-- The transposed coordinates' block is the whole array at every tile. -/
theorem iblk_posT (c : Dev nD) (t : Fin cfg1.N) (x : S2x8192.Idx) :
    (iblk1 V c 1 t : Vec Ideal S2x8192 .f32) x = (V c main_v0 : S2x8192.Idx → EReal) x := by
  obtain ⟨-, -, e0, e1, -⟩ := idx_facts t
  unfold iblk1
  rw [View.read_apply]
  show V c main_v0 _ = V c main_v0 _
  congr 1
  funext a
  apply Fin.ext
  match a with
  | ⟨0, _⟩ => show win1_1.index t 0 * 2 + 1 * (x 0).val = (x 0).val; rw [e0]; omega
  | ⟨1, _⟩ => show win1_1.index t 1 * 8192 + 1 * (x 1).val = (x 1).val; rw [e1]; omega

/-- The features' block is the whole array at every tile. -/
theorem iblk_arr (c : Dev nD) (t : Fin cfg1.N) (x : S8192x32.Idx) :
    (iblk1 V c 2 t : Vec Ideal S8192x32 .f32) x = (V c main_v53 : S8192x32.Idx → EReal) x := by
  obtain ⟨-, -, -, -, e0, e1, -⟩ := idx_facts t
  unfold iblk1
  rw [View.read_apply]
  show V c main_v53 _ = V c main_v53 _
  congr 1
  funext a
  apply Fin.ext
  match a with
  | ⟨0, _⟩ => show win1_2.index t 0 * 8192 + 1 * (x 0).val = (x 0).val; rw [e0]; omega
  | ⟨1, _⟩ => show win1_2.index t 1 * 32 + 1 * (x 1).val = (x 1).val; rw [e1]; omega

/-- The column sums' block is the whole row at every tile. -/
theorem iblk_sumx (c : Dev nD) (t : Fin cfg1.N) (x : S1x32.Idx) :
    (iblk1 V c 3 t : Vec Ideal S1x32 .f32) x = (V c main_v55 : S1x32.Idx → EReal) x := by
  obtain ⟨-, -, -, -, -, -, e0, e1, -⟩ := idx_facts t
  unfold iblk1
  rw [View.read_apply]
  show V c main_v55 _ = V c main_v55 _
  congr 1
  funext a
  apply Fin.ext
  match a with
  | ⟨0, _⟩ => show win1_3.index t 0 * 1 + 1 * (x 0).val = (x 0).val; rw [e0]; omega
  | ⟨1, _⟩ => show win1_3.index t 1 * 32 + 1 * (x 1).val = (x 1).val; rw [e1]; omega

variable (hbody : ∀ (x0 : Vec Ideal S1024x2 .f32) (x1 : Vec Ideal S2x8192 .f32) (x2 : Vec Ideal S8192x32 .f32) (x3 : Vec Ideal S1x32 .f32) (p : Fin 1024) (q : Fin 32),
      out1_4 (F := Ideal) x0 x1 x2 x3 (ix2 p q) = Cert.Spatial.aggGroups (x0 (ix2 p 0)) (x0 (ix2 p 1)) (fun r => x1 (ix2 0 r)) (fun r => x1 (ix2 1 r)) (fun r => x2 (ix2 r q)) (x3 (ix2 0 q)))

include hbody in
/-- Tile t's output block, entry (y₀, y₁), is the aggregation's entry (1024 t + y₀, y₁). -/
theorem block_entry (c : Dev nD) (t : Fin cfg1.N) (y : S1024x32.Idx) (i : S8192x32.Idx)
    (h0 : (i 0).val = 1024 * t.val + (y 0).val) (h1 : (i 1).val = (y 1).val) :
    out1_4 (F := Ideal) (iblk1 V c 0 t) (iblk1 V c 1 t) (iblk1 V c 2 t) (iblk1 V c 3 t) y
      = G (V c main_arg1) (V c main_v0) (V c main_v53) (V c main_v55) i := by
  refine ((congrArg _ (eq_ix2 y)).trans (hbody _ _ _ _ (y 0) (y 1))).trans ?_
  unfold G
  have hq : (⟨(i 1).val, idx2_lt1 i⟩ : Fin 32) = y 1 := Fin.ext h1
  rw [hq]
  rw [iblk_pos V c t (ix2 (y 0) (0 : Fin 2)) (ix2 (⟨(i 0).val, idx2_lt0 i⟩ : Fin 8192) (0 : Fin 2)) h0 rfl,
    iblk_pos V c t (ix2 (y 0) (1 : Fin 2)) (ix2 (⟨(i 0).val, idx2_lt0 i⟩ : Fin 8192) (1 : Fin 2)) h0 rfl]
  simp only [iblk_posT V c t, iblk_arr V c t, iblk_sumx V c t]

include hbody in
/-- What tile t writes back is block t of the aggregation. -/
theorem flushed_eq (c : Dev nD) (t : Fin cfg1.N) :
    (dat1 V c).flushed 4 t = ((cfg1.win 4).blk t).view.read (Elt Ideal) (G (V c main_arg1) (V c main_v0) (V c main_v53) (V c main_v55)) := by
  show (cfg1.win 4).cut (grid1.coords t) ((dat1 V c).after 4 t) = _
  rw [after1_4]
  funext j
  obtain ⟨-, -, -, -, -, -, -, -, e0, e1⟩ := idx_facts t
  show out1_4 (iblk1 V c 0 t) (iblk1 V c 1 t) (iblk1 V c 2 t) (iblk1 V c 3 t) ((cfg1.win 4).xinj (grid1.coords t) j)
    = G (V c main_arg1) (V c main_v0) (V c main_v53) (V c main_v55) (((cfg1.win 4).blk t).view.emb j)
  refine block_entry V hbody c t _ _ ?_ ?_
  · show win1_4.index t 0 * 1024 + 1 * (j 0).val = 1024 * t.val + (j 0).val; rw [e0]; omega
  · show win1_4.index t 1 * 32 + 1 * (j 1).val = (j 1).val; rw [e1]; omega

/-- An index of the array is in tile t's block iff each coordinate is in the block's range on its axis. -/
theorem mem_blk (t : Fin cfg1.N) (i : S8192x32.Idx) :
    i ∈ ((cfg1.win 4).blk t).view.set ↔ ∀ a : Fin 2, win1_4.index t a * S1024x32.size a ≤ (i a).val ∧ (i a).val < win1_4.index t a * S1024x32.size a + S1024x32.size a := by
  show i ∈ ((View.whole main_v56).slice (win1_4.rect t)).set ↔ _
  rw [View.set_slice_whole, Rect.mem_set_unit]
  exact Iff.rfl

/-- Every row belongs to the tile of its number divided by 1024. -/
theorem cover (i : S8192x32.Idx) : ∃ t : Fin cfg1.N, (cfg1.win 4).flush t = true ∧ i ∈ ((cfg1.win 4).blk t).view.set := by
  have hi0 : (i 0).val < 8192 := idx2_lt0 i
  have hi1 : (i 1).val < 32 := idx2_lt1 i
  have hN : cfg1.N = 8 := N_1
  let t : Fin cfg1.N := ⟨(i 0).val / 1024, by rw [hN]; omega⟩
  obtain ⟨-, -, -, -, -, -, -, -, e0, e1⟩ := idx_facts t
  refine ⟨t, flush1_4 t, ?_⟩
  rw [mem_blk]
  intro a
  match a with
  | ⟨0, _⟩ => show win1_4.index t 0 * 1024 ≤ (i 0).val ∧ (i 0).val < win1_4.index t 0 * 1024 + 1024; rw [e0]; show (i 0).val / 1024 * 1024 ≤ (i 0).val ∧ (i 0).val < (i 0).val / 1024 * 1024 + 1024; omega
  | ⟨1, _⟩ => show win1_4.index t 1 * 32 ≤ (i 1).val ∧ (i 1).val < win1_4.index t 1 * 32 + 32; rw [e1]; omega

include hbody in
/-- The array after the region: the aggregation of the arrays the region found. -/
theorem final (c : Dev nD) :
    (dat1 V c).arrAt 4 cfg1.N = G (V c main_arg1) (V c main_v0) (V c main_v53) (V c main_v55) :=
  (dat1 V c).arrAt_eq_of_cover 4 _ (fun t _ => flushed_eq V hbody c t) cover

end Cert.KernelIdeal.Final1

end
-- ==== Proof.FinalArr2.lean ====
import proofs.«105190_j88227218195280_1_alg».proof.Proof.Gen.KernelIdeal.Frame
import proofs.«105190_j88227218195280_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final2

open Cert.KernelIdeal Cert.KernelIdeal.Gen

variable (V : (c : Dev nD) → (b : Ref sig .tc) → Buf (Elt Ideal) ((c : Thread nD τ).loc b))

/-- The aggregated array, entry by entry, from the coordinates, their transpose, the features and the features'
    column sums kept as a row. -/
def G (pos : S8192x2.Idx → EReal) (posT : S2x8192.Idx → EReal) (arr : S8192x32.Idx → EReal) (sumx : S1x32.Idx → EReal) :
    S8192x32.Idx → EReal := fun i =>
  Cert.Spatial.aggGroups (pos (ix2 (⟨(i 0).val, idx2_lt0 i⟩ : Fin 8192) (0 : Fin 2))) (pos (ix2 (⟨(i 0).val, idx2_lt0 i⟩ : Fin 8192) (1 : Fin 2)))
    (fun r => posT (ix2 (0 : Fin 2) r)) (fun r => posT (ix2 (1 : Fin 2) r))
    (fun r => arr (ix2 r (⟨(i 1).val, idx2_lt1 i⟩ : Fin 32))) (sumx (ix2 (0 : Fin 1) (⟨(i 1).val, idx2_lt1 i⟩ : Fin 32)))

/-- The printed index maps over the grid of 8 row tiles: the coordinates' and the output's blocks move with the
    tile, the other three windows stay at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Tile t's block of the coordinates is rows 1024 t … 1024 t + 1023. -/
theorem iblk_pos (c : Dev nD) (t : Fin cfg2.N) (x : S1024x2.Idx) (k : S8192x2.Idx)
    (hk0 : (k 0).val = 1024 * t.val + (x 0).val) (hk1 : (k 1).val = (x 1).val) :
    (iblk2 V c 0 t : Vec Ideal S1024x2 .f32) x = (V c main_arg1 : S8192x2.Idx → EReal) k := by
  obtain ⟨e0, e1, -⟩ := idx_facts t
  unfold iblk2
  rw [View.read_apply]
  show V c main_arg1 _ = V c main_arg1 _
  congr 1
  funext a
  apply Fin.ext
  match a with
  | ⟨0, _⟩ => show win2_0.index t 0 * 1024 + 1 * (x 0).val = (k 0).val; rw [e0, hk0]; omega
  | ⟨1, _⟩ => show win2_0.index t 1 * 2 + 1 * (x 1).val = (k 1).val; rw [e1, hk1]; omega

/-- The transposed coordinates' block is the whole array at every tile. -/
theorem iblk_posT (c : Dev nD) (t : Fin cfg2.N) (x : S2x8192.Idx) :
    (iblk2 V c 1 t : Vec Ideal S2x8192 .f32) x = (V c main_v0 : S2x8192.Idx → EReal) x := by
  obtain ⟨-, -, e0, e1, -⟩ := idx_facts t
  unfold iblk2
  rw [View.read_apply]
  show V c main_v0 _ = V c main_v0 _
  congr 1
  funext a
  apply Fin.ext
  match a with
  | ⟨0, _⟩ => show win2_1.index t 0 * 2 + 1 * (x 0).val = (x 0).val; rw [e0]; omega
  | ⟨1, _⟩ => show win2_1.index t 1 * 8192 + 1 * (x 1).val = (x 1).val; rw [e1]; omega

/-- The features' block is the whole array at every tile. -/
theorem iblk_arr (c : Dev nD) (t : Fin cfg2.N) (x : S8192x32.Idx) :
    (iblk2 V c 2 t : Vec Ideal S8192x32 .f32) x = (V c main_v74 : S8192x32.Idx → EReal) x := by
  obtain ⟨-, -, -, -, e0, e1, -⟩ := idx_facts t
  unfold iblk2
  rw [View.read_apply]
  show V c main_v74 _ = V c main_v74 _
  congr 1
  funext a
  apply Fin.ext
  match a with
  | ⟨0, _⟩ => show win2_2.index t 0 * 8192 + 1 * (x 0).val = (x 0).val; rw [e0]; omega
  | ⟨1, _⟩ => show win2_2.index t 1 * 32 + 1 * (x 1).val = (x 1).val; rw [e1]; omega

/-- The column sums' block is the whole row at every tile. -/
theorem iblk_sumx (c : Dev nD) (t : Fin cfg2.N) (x : S1x32.Idx) :
    (iblk2 V c 3 t : Vec Ideal S1x32 .f32) x = (V c main_v76 : S1x32.Idx → EReal) x := by
  obtain ⟨-, -, -, -, -, -, e0, e1, -⟩ := idx_facts t
  unfold iblk2
  rw [View.read_apply]
  show V c main_v76 _ = V c main_v76 _
  congr 1
  funext a
  apply Fin.ext
  match a with
  | ⟨0, _⟩ => show win2_3.index t 0 * 1 + 1 * (x 0).val = (x 0).val; rw [e0]; omega
  | ⟨1, _⟩ => show win2_3.index t 1 * 32 + 1 * (x 1).val = (x 1).val; rw [e1]; omega

variable (hbody : ∀ (x0 : Vec Ideal S1024x2 .f32) (x1 : Vec Ideal S2x8192 .f32) (x2 : Vec Ideal S8192x32 .f32) (x3 : Vec Ideal S1x32 .f32) (p : Fin 1024) (q : Fin 32),
      out2_4 (F := Ideal) x0 x1 x2 x3 (ix2 p q) = Cert.Spatial.aggGroups (x0 (ix2 p 0)) (x0 (ix2 p 1)) (fun r => x1 (ix2 0 r)) (fun r => x1 (ix2 1 r)) (fun r => x2 (ix2 r q)) (x3 (ix2 0 q)))

include hbody in
/-- Tile t's output block, entry (y₀, y₁), is the aggregation's entry (1024 t + y₀, y₁). -/
theorem block_entry (c : Dev nD) (t : Fin cfg2.N) (y : S1024x32.Idx) (i : S8192x32.Idx)
    (h0 : (i 0).val = 1024 * t.val + (y 0).val) (h1 : (i 1).val = (y 1).val) :
    out2_4 (F := Ideal) (iblk2 V c 0 t) (iblk2 V c 1 t) (iblk2 V c 2 t) (iblk2 V c 3 t) y
      = G (V c main_arg1) (V c main_v0) (V c main_v74) (V c main_v76) i := by
  refine ((congrArg _ (eq_ix2 y)).trans (hbody _ _ _ _ (y 0) (y 1))).trans ?_
  unfold G
  have hq : (⟨(i 1).val, idx2_lt1 i⟩ : Fin 32) = y 1 := Fin.ext h1
  rw [hq]
  rw [iblk_pos V c t (ix2 (y 0) (0 : Fin 2)) (ix2 (⟨(i 0).val, idx2_lt0 i⟩ : Fin 8192) (0 : Fin 2)) h0 rfl,
    iblk_pos V c t (ix2 (y 0) (1 : Fin 2)) (ix2 (⟨(i 0).val, idx2_lt0 i⟩ : Fin 8192) (1 : Fin 2)) h0 rfl]
  simp only [iblk_posT V c t, iblk_arr V c t, iblk_sumx V c t]

include hbody in
/-- What tile t writes back is block t of the aggregation. -/
theorem flushed_eq (c : Dev nD) (t : Fin cfg2.N) :
    (dat2 V c).flushed 4 t = ((cfg2.win 4).blk t).view.read (Elt Ideal) (G (V c main_arg1) (V c main_v0) (V c main_v74) (V c main_v76)) := by
  show (cfg2.win 4).cut (grid2.coords t) ((dat2 V c).after 4 t) = _
  rw [after2_4]
  funext j
  obtain ⟨-, -, -, -, -, -, -, -, e0, e1⟩ := idx_facts t
  show out2_4 (iblk2 V c 0 t) (iblk2 V c 1 t) (iblk2 V c 2 t) (iblk2 V c 3 t) ((cfg2.win 4).xinj (grid2.coords t) j)
    = G (V c main_arg1) (V c main_v0) (V c main_v74) (V c main_v76) (((cfg2.win 4).blk t).view.emb j)
  refine block_entry V hbody c t _ _ ?_ ?_
  · show win2_4.index t 0 * 1024 + 1 * (j 0).val = 1024 * t.val + (j 0).val; rw [e0]; omega
  · show win2_4.index t 1 * 32 + 1 * (j 1).val = (j 1).val; rw [e1]; omega

/-- An index of the array is in tile t's block iff each coordinate is in the block's range on its axis. -/
theorem mem_blk (t : Fin cfg2.N) (i : S8192x32.Idx) :
    i ∈ ((cfg2.win 4).blk t).view.set ↔ ∀ a : Fin 2, win2_4.index t a * S1024x32.size a ≤ (i a).val ∧ (i a).val < win2_4.index t a * S1024x32.size a + S1024x32.size a := by
  show i ∈ ((View.whole main_v77).slice (win2_4.rect t)).set ↔ _
  rw [View.set_slice_whole, Rect.mem_set_unit]
  exact Iff.rfl

/-- Every row belongs to the tile of its number divided by 1024. -/
theorem cover (i : S8192x32.Idx) : ∃ t : Fin cfg2.N, (cfg2.win 4).flush t = true ∧ i ∈ ((cfg2.win 4).blk t).view.set := by
  have hi0 : (i 0).val < 8192 := idx2_lt0 i
  have hi1 : (i 1).val < 32 := idx2_lt1 i
  have hN : cfg2.N = 8 := N_2
  let t : Fin cfg2.N := ⟨(i 0).val / 1024, by rw [hN]; omega⟩
  obtain ⟨-, -, -, -, -, -, -, -, e0, e1⟩ := idx_facts t
  refine ⟨t, flush2_4 t, ?_⟩
  rw [mem_blk]
  intro a
  match a with
  | ⟨0, _⟩ => show win2_4.index t 0 * 1024 ≤ (i 0).val ∧ (i 0).val < win2_4.index t 0 * 1024 + 1024; rw [e0]; show (i 0).val / 1024 * 1024 ≤ (i 0).val ∧ (i 0).val < (i 0).val / 1024 * 1024 + 1024; omega
  | ⟨1, _⟩ => show win2_4.index t 1 * 32 ≤ (i 1).val ∧ (i 1).val < win2_4.index t 1 * 32 + 32; rw [e1]; omega

include hbody in
/-- The array after the region: the aggregation of the arrays the region found. -/
theorem final (c : Dev nD) :
    (dat2 V c).arrAt 4 cfg2.N = G (V c main_arg1) (V c main_v0) (V c main_v74) (V c main_v76) :=
  (dat2 V c).arrAt_eq_of_cover 4 _ (fun t _ => flushed_eq V hbody c t) cover

end Cert.KernelIdeal.Final2

end
-- ==== Proof.Bridge.lean ====
import proofs.«105190_j88227218195280_1_alg».proof.Proof.Law
import proofs.«105190_j88227218195280_1_alg».proof.Proof.FinalArr0
import proofs.«105190_j88227218195280_1_alg».proof.Proof.FinalArr1
import proofs.«105190_j88227218195280_1_alg».proof.Proof.FinalArr2
import Idealize.ShloMosaic.Lib.Pipeline.Value
import Idealize.ShloMosaic.Lib.ValueIdx
import Idealize.ShloMosaic.PureOps.Ideal.Laws

/-!
The aggregation a region leaves, fed with the coordinates, their transpose, real features and the features'
column sums kept as a row, is the dense aggregation Σⱼ K(i, j) · a(j): the transpose read at an entry, the
column sum read at a column, then the law of the two aggregations.
-/

noncomputable section

open Idealize.ShloMosaic Idealize.ShloMosaic.ValueIdx

namespace Cert.Spatial

/-- The dense aggregation as an array: entry (i, q) is Σ_r K(i, r) · arr(r, q). -/
def aggD {C : Nat} (pos : (⟨2, ![8192, 2]⟩ : Shape).Idx → EReal) (arr : (⟨2, ![8192, C]⟩ : Shape).Idx → EReal) :
    (⟨2, ![8192, C]⟩ : Shape).Idx → EReal := fun i =>
  aggDense (pos (ix2 (⟨(i 0).val, idx2_lt0 i⟩ : Fin 8192) (0 : Fin 2))) (pos (ix2 (⟨(i 0).val, idx2_lt0 i⟩ : Fin 8192) (1 : Fin 2)))
    (fun r => pos (ix2 r (0 : Fin 2))) (fun r => pos (ix2 r (1 : Fin 2)))
    (fun r => arr (ix2 r (⟨(i 1).val, idx2_lt1 i⟩ : Fin C)))

/-- The dense aggregation of real features at real coordinates is an array of reals. -/
theorem aggD_real {C : Nat} {pos : (⟨2, ![8192, 2]⟩ : Shape).Idx → EReal} {arr : (⟨2, ![8192, C]⟩ : Shape).Idx → EReal}
    (hpos : AllReal pos) (harr : AllReal arr) : AllReal (aggD pos arr) := fun i =>
  aggDense_real (hpos _) (hpos _) (fun r => hpos _) (fun r => hpos _) (fun r => harr _)

/-- The transposed coordinates read at (a, r) are the coordinates at (r, a). -/
theorem posT_apply (pos : (⟨2, ![8192, 2]⟩ : Shape).Idx → EReal) (ht : (⟨2, ![8192, 2]⟩ : Shape).Transposes [1, 0] ⟨2, ![2, 8192]⟩)
    (a : Fin 2) (r : Fin 8192) : transpose ⟨2, ![2, 8192]⟩ [1, 0] pos ht (ix2 a r) = pos (ix2 r a) :=
  transpose_apply [1, 0] pos ht (ix2 a r) (ix2 r a) fun b => match b with
    | ⟨0, _⟩ => rfl
    | ⟨1, _⟩ => rfl

/-- The column sums of an 8192 × 64 array from the zero word, kept as a row and read at column q: Σ_r arr(r, q). -/
theorem colsum_row64 (arr : FVec Ideal ⟨2, ![8192, 64]⟩ .f32) (h' : (⟨2, ![8192, 64]⟩ : Shape).ReducesTo [0] ⟨1, ![64]⟩)
    (hu : 0 < (⟨0, ![]⟩ : Shape).numel) (hb : (⟨1, ![64]⟩ : Shape).BroadcastsInDim ⟨2, ![1, 64]⟩ ![1]) (q : Fin 64) :
    broadcastInDim ⟨2, ![1, 64]⟩ ![1] hb (Host.reduceAdd (F := Ideal) arr (constant ⟨0, ![]⟩ .f32 0x00000000#32) h' hu) (ix2 (0 : Fin 1) q)
      = ∑ r : Fin 8192, arr (ix2 r q) := by
  refine (broadcastInDim_apply ![1] hb _ (ix2 (0 : Fin 1) q) (ix1 q) (fun a => match a with
    | ⟨0, _⟩ => by show q.val = if (64 : Nat) = 1 then 0 else q.val; rw [if_neg (by decide)])).trans ?_
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun k _ => congrArg arr (funext fun ax => Fin.ext ?_)
  match ax with
  | ⟨0, _⟩ => rfl
  | ⟨1, _⟩ => rfl

/-- Region 0's aggregation of real features at real coordinates is the dense aggregation. -/
theorem G0_eq_aggD (pos : (⟨2, ![8192, 2]⟩ : Shape).Idx → EReal) (arr : FVec Ideal ⟨2, ![8192, 64]⟩ .f32)
    (hpos : AllReal pos) (harr : AllReal (arr : (⟨2, ![8192, 64]⟩ : Shape).Idx → EReal))
    (ht : (⟨2, ![8192, 2]⟩ : Shape).Transposes [1, 0] ⟨2, ![2, 8192]⟩)
    (h' : (⟨2, ![8192, 64]⟩ : Shape).ReducesTo [0] ⟨1, ![64]⟩) (hu : 0 < (⟨0, ![]⟩ : Shape).numel)
    (hb : (⟨1, ![64]⟩ : Shape).BroadcastsInDim ⟨2, ![1, 64]⟩ ![1]) :
    Cert.KernelIdeal.Final0.G pos (transpose ⟨2, ![2, 8192]⟩ [1, 0] pos ht) arr
        (broadcastInDim ⟨2, ![1, 64]⟩ ![1] hb (Host.reduceAdd (F := Ideal) arr (constant ⟨0, ![]⟩ .f32 0x00000000#32) h' hu))
      = aggD pos arr := by
  funext i
  unfold Cert.KernelIdeal.Final0.G aggD
  rw [colsum_row64 arr h' hu hb]
  have e0 : (fun r : Fin 8192 => transpose ⟨2, ![2, 8192]⟩ [1, 0] pos ht (ix2 (0 : Fin 2) r)) = fun r => pos (ix2 r (0 : Fin 2)) :=
    funext fun r => posT_apply pos ht 0 r
  have e1 : (fun r : Fin 8192 => transpose ⟨2, ![2, 8192]⟩ [1, 0] pos ht (ix2 (1 : Fin 2) r)) = fun r => pos (ix2 r (1 : Fin 2)) :=
    funext fun r => posT_apply pos ht 1 r
  rw [e0, e1]
  exact aggGroups_eq_aggDense (hpos _) (hpos _) (fun r => hpos _) (fun r => hpos _) (fun r => harr _)

/-- The column sums of an 8192 × 32 array from the zero word, kept as a row and read at column q: Σ_r arr(r, q). -/
theorem colsum_row32 (arr : FVec Ideal ⟨2, ![8192, 32]⟩ .f32) (h' : (⟨2, ![8192, 32]⟩ : Shape).ReducesTo [0] ⟨1, ![32]⟩)
    (hu : 0 < (⟨0, ![]⟩ : Shape).numel) (hb : (⟨1, ![32]⟩ : Shape).BroadcastsInDim ⟨2, ![1, 32]⟩ ![1]) (q : Fin 32) :
    broadcastInDim ⟨2, ![1, 32]⟩ ![1] hb (Host.reduceAdd (F := Ideal) arr (constant ⟨0, ![]⟩ .f32 0x00000000#32) h' hu) (ix2 (0 : Fin 1) q)
      = ∑ r : Fin 8192, arr (ix2 r q) := by
  refine (broadcastInDim_apply ![1] hb _ (ix2 (0 : Fin 1) q) (ix1 q) (fun a => match a with
    | ⟨0, _⟩ => by show q.val = if (32 : Nat) = 1 then 0 else q.val; rw [if_neg (by decide)])).trans ?_
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun k _ => congrArg arr (funext fun ax => Fin.ext ?_)
  match ax with
  | ⟨0, _⟩ => rfl
  | ⟨1, _⟩ => rfl

/-- Region 1's aggregation of real features at real coordinates is the dense aggregation. -/
theorem G1_eq_aggD (pos : (⟨2, ![8192, 2]⟩ : Shape).Idx → EReal) (arr : FVec Ideal ⟨2, ![8192, 32]⟩ .f32)
    (hpos : AllReal pos) (harr : AllReal (arr : (⟨2, ![8192, 32]⟩ : Shape).Idx → EReal))
    (ht : (⟨2, ![8192, 2]⟩ : Shape).Transposes [1, 0] ⟨2, ![2, 8192]⟩)
    (h' : (⟨2, ![8192, 32]⟩ : Shape).ReducesTo [0] ⟨1, ![32]⟩) (hu : 0 < (⟨0, ![]⟩ : Shape).numel)
    (hb : (⟨1, ![32]⟩ : Shape).BroadcastsInDim ⟨2, ![1, 32]⟩ ![1]) :
    Cert.KernelIdeal.Final1.G pos (transpose ⟨2, ![2, 8192]⟩ [1, 0] pos ht) arr
        (broadcastInDim ⟨2, ![1, 32]⟩ ![1] hb (Host.reduceAdd (F := Ideal) arr (constant ⟨0, ![]⟩ .f32 0x00000000#32) h' hu))
      = aggD pos arr := by
  funext i
  unfold Cert.KernelIdeal.Final1.G aggD
  rw [colsum_row32 arr h' hu hb]
  have e0 : (fun r : Fin 8192 => transpose ⟨2, ![2, 8192]⟩ [1, 0] pos ht (ix2 (0 : Fin 2) r)) = fun r => pos (ix2 r (0 : Fin 2)) :=
    funext fun r => posT_apply pos ht 0 r
  have e1 : (fun r : Fin 8192 => transpose ⟨2, ![2, 8192]⟩ [1, 0] pos ht (ix2 (1 : Fin 2) r)) = fun r => pos (ix2 r (1 : Fin 2)) :=
    funext fun r => posT_apply pos ht 1 r
  rw [e0, e1]
  exact aggGroups_eq_aggDense (hpos _) (hpos _) (fun r => hpos _) (fun r => hpos _) (fun r => harr _)

/-- Region 2's aggregation of real features at real coordinates is the dense aggregation. -/
theorem G2_eq_aggD (pos : (⟨2, ![8192, 2]⟩ : Shape).Idx → EReal) (arr : FVec Ideal ⟨2, ![8192, 32]⟩ .f32)
    (hpos : AllReal pos) (harr : AllReal (arr : (⟨2, ![8192, 32]⟩ : Shape).Idx → EReal))
    (ht : (⟨2, ![8192, 2]⟩ : Shape).Transposes [1, 0] ⟨2, ![2, 8192]⟩)
    (h' : (⟨2, ![8192, 32]⟩ : Shape).ReducesTo [0] ⟨1, ![32]⟩) (hu : 0 < (⟨0, ![]⟩ : Shape).numel)
    (hb : (⟨1, ![32]⟩ : Shape).BroadcastsInDim ⟨2, ![1, 32]⟩ ![1]) :
    Cert.KernelIdeal.Final2.G pos (transpose ⟨2, ![2, 8192]⟩ [1, 0] pos ht) arr
        (broadcastInDim ⟨2, ![1, 32]⟩ ![1] hb (Host.reduceAdd (F := Ideal) arr (constant ⟨0, ![]⟩ .f32 0x00000000#32) h' hu))
      = aggD pos arr := by
  funext i
  unfold Cert.KernelIdeal.Final2.G aggD
  rw [colsum_row32 arr h' hu hb]
  have e0 : (fun r : Fin 8192 => transpose ⟨2, ![2, 8192]⟩ [1, 0] pos ht (ix2 (0 : Fin 2) r)) = fun r => pos (ix2 r (0 : Fin 2)) :=
    funext fun r => posT_apply pos ht 0 r
  have e1 : (fun r : Fin 8192 => transpose ⟨2, ![2, 8192]⟩ [1, 0] pos ht (ix2 (1 : Fin 2) r)) = fun r => pos (ix2 r (1 : Fin 2)) :=
    funext fun r => posT_apply pos ht 1 r
  rw [e0, e1]
  exact aggGroups_eq_aggDense (hpos _) (hpos _) (fun r => hpos _) (fun r => hpos _) (fun r => harr _)

end Cert.Spatial

end
-- ==== Proof.Finite.lean ====
import proofs.«105190_j88227218195280_1_alg».proof.Proof.Glue
import proofs.«105190_j88227218195280_1_alg».proof.Proof.Law
import Idealize.ShloMosaic.Lib.ValueIdx
import Idealize.ShloMosaic.PureOps.Ideal.Laws

/-!
Real entries through the host-side graph convolution. Every operation of a layer maps arrays of real numbers to
arrays of real numbers: a broadcast or a gather reads its operand at some entry; a product, sum or maximum of reals
is real; a contraction and a scatter-add are an entry plus a finite sum of reals; a selection is one of its two
branches. The edge weights d^{-1/2}[src] · d^{-1/2}[dst] are real for every edge list whatever, since
rsqrt(max(d, ε)) with ε a positive real is real at every extended real d.
-/

noncomputable section

namespace Cert.Glue.Finite

open Idealize.ShloMosaic Cert.Spatial

/-! ## One operation at a time -/

/-- A broadcast reads its operand at some entry. -/
theorem bcast_real {s t : Shape} (dims : Fin s.rank → Fin t.rank) (h : s.BroadcastsInDim t dims)
    (x : s.Idx → EReal) (hx : AllReal x) : AllReal (broadcastInDim t dims h x) :=
  fun _ => hx _

/-- A gather reads its operand at some entry. -/
theorem gather_real {s si t : Shape} {w : Nat} (d : GatherDims s si t) (x : s.Idx → EReal) (idx : IVec si w)
    (hx : AllReal x) : AllReal (Host.gather d x idx) :=
  fun _ => hx _

/-- An entrywise product of reals. -/
theorem mulf_real {s : Shape} {φ : FTy} (a b : FVec Ideal s φ) (ha : AllReal (a : s.Idx → EReal))
    (hb : AllReal (b : s.Idx → EReal)) : AllReal (mulf a b : s.Idx → EReal) :=
  fun i => (ha i).mul (hb i)

/-- An entrywise sum of reals. -/
theorem addf_real {s : Shape} {φ : FTy} (a b : FVec Ideal s φ) (ha : AllReal (a : s.Idx → EReal))
    (hb : AllReal (b : s.Idx → EReal)) : AllReal (addf a b : s.Idx → EReal) :=
  fun i => (ha i).add (hb i)

/-- An entrywise maximum of reals. -/
theorem maximumf_real {s : Shape} {φ : FTy} (a b : FVec Ideal s φ) (ha : AllReal (a : s.Idx → EReal))
    (hb : AllReal (b : s.Idx → EReal)) : AllReal (maximumf a b : s.Idx → EReal) :=
  fun i => (ha i).max (hb i)

/-- A selection is one of its two branches at every entry. -/
theorem select_real {s : Shape} (c : IVec s 1) (a b : s.Idx → EReal) (ha : AllReal a) (hb : AllReal b) :
    AllReal (select c a b) := by
  intro i
  show IsReal (if c i = 1 then a i else b i)
  split
  · exact ha i
  · exact hb i

/-- The zero word everywhere. -/
theorem const_zero_real {s : Shape} : AllReal (constant (F := Ideal) s .f32 0x00000000#32 : s.Idx → EReal) :=
  fun _ => by
    show IsReal (Ideal.ofBits .f32 0x00000000#32)
    rw [Ideal.ofBits_zero_f32]; exact isReal_zero

/-- A contraction of two arrays of reals: a finite sum of products. -/
theorem dot_real {sl sr so : Shape} {φ₁ φ₂ : FTy} (d : DotDims sl sr so) (prec : Option ContractPrecision)
    (lhs : FVec Ideal sl φ₁) (rhs : FVec Ideal sr φ₂) (hl : AllReal (lhs : sl.Idx → EReal))
    (hr : AllReal (rhs : sr.Idx → EReal)) : AllReal (Host.dotGeneral d prec lhs rhs : so.Idx → EReal) := by
  intro j
  show IsReal (FloatOps.dotGeneral d prec .single lhs rhs j)
  rw [Ideal.dotGeneral_apply]
  exact isReal_sum _ _ fun k _ => (hl _).mul (hr _)

/-- A scatter-add of reals into reals: the entry plus a finite sum of updates. -/
theorem scatterAdd_real {s si u : Shape} {φ : FTy} {w : Nat} (d : ScatterDims s si u) (x : FVec Ideal s φ) (idx : IVec si w)
    (upd : FVec Ideal u φ) (hx : AllReal (x : s.Idx → EReal)) (hu : AllReal (upd : u.Idx → EReal)) :
    AllReal (Host.scatterAdd d x idx upd : s.Idx → EReal) := by
  intro i
  show IsReal (Ideal.hostScatterAdd d x idx upd i)
  unfold Ideal.hostScatterAdd
  exact (hx i).add (isReal_sum _ _ fun j _ => hu j)

/-- The word of 10⁻¹² denotes a positive real. -/
theorem eps_pos : ∃ r : ℝ, 0 < r ∧ Ideal.ofBits .f32 0x2B8CBCCC#32 = (r : EReal) := by
  refine ⟨_, ?_, by simp [Ideal.ofBits, Ideal.ieee, -EReal.coe_mul]; rfl⟩
  norm_num

/-- rsqrt(max(d, ε)) is real for a positive real ε and every extended real d: the maximum is +∞ (whose rsqrt is 0)
    or a real number ≥ ε > 0 (whose rsqrt is the real (√·)⁻¹). -/
theorem rsqrt_max_real (d : EReal) {r : ℝ} (hr : 0 < r) : IsReal (Ideal.rsqrt (max d (r : EReal))) := by
  induction d using EReal.rec with
  | bot =>
    rw [max_eq_right bot_le, Ideal.rsqrt_coe, if_neg (not_lt.mpr hr.le), if_neg hr.ne']
    exact isReal_coe _
  | coe a =>
    rw [show max (a : EReal) (r : EReal) = ((max a r : ℝ) : EReal) from (EReal.coe_strictMono.monotone.map_max).symm,
      Ideal.rsqrt_coe]
    have h : 0 < max a r := lt_max_of_lt_right hr
    rw [if_neg (not_lt.mpr h.le), if_neg h.ne']
    exact isReal_coe _
  | top =>
    rw [max_eq_left le_top, Ideal.rsqrt_top]; exact isReal_zero

/-- rsqrt(max(d, ε)) entrywise, ε the word of 10⁻¹² everywhere: real at every entry, whatever d. -/
theorem rsqrt_max_eps_real {s t : Shape} (dims : Fin s.rank → Fin t.rank) (h : s.BroadcastsInDim t dims) (d : FVec Ideal t .f32) :
    AllReal (Host.rsqrt (maximumf d (broadcastInDim t dims h (constant (F := Ideal) s .f32 0x2B8CBCCC#32))) : t.Idx → EReal) := by
  intro i
  obtain ⟨r, hr, he⟩ := eps_pos
  show IsReal (Ideal.rsqrt (max (d i) (Ideal.ofBits .f32 0x2B8CBCCC#32)))
  rw [he]
  exact rsqrt_max_real _ hr

/-! ## The layers -/

open Cert.KernelIdeal

/-- d^{-1/2} (0 where the degree is not positive) is real at every node, for every edge list. -/
theorem dinv_real (x2 : (⟨S2x262144, .i32⟩ : BufTy).Contents (Elt Ideal)) :
    AllReal (Cert.Glue.dinv (F := Ideal) x2 : S8192.Idx → EReal) := by
  unfold Cert.Glue.dinv
  exact select_real _ _ _ (rsqrt_max_eps_real _ _ _) (bcast_real _ _ _ const_zero_real)

/-- The weight of every edge is real, for every edge list. -/
theorem nrm_real (x2 : (⟨S2x262144, .i32⟩ : BufTy).Contents (Elt Ideal)) :
    AllReal (Cert.Glue.nrm (F := Ideal) x2 : S270336.Idx → EReal) := by
  unfold Cert.Glue.nrm
  exact mulf_real _ _ (gather_real _ _ _ (dinv_real x2)) (gather_real _ _ _ (dinv_real x2))

/-- Layer 1 maps real aggregated features, real weights and a real bias to real features. -/
theorem layer1_real (agg : (⟨S8192x64, .f32⟩ : BufTy).Contents (Elt Ideal)) (x2 : (⟨S2x262144, .i32⟩ : BufTy).Contents (Elt Ideal))
    (x3 : (⟨S64x32, .f32⟩ : BufTy).Contents (Elt Ideal)) (x4 : (⟨S32, .f32⟩ : BufTy).Contents (Elt Ideal))
    (hagg : AllReal (agg : S8192x64.Idx → EReal)) (h3 : AllReal (x3 : S64x32.Idx → EReal)) (h4 : AllReal (x4 : S32.Idx → EReal)) :
    AllReal (Cert.Glue.layer1 (F := Ideal) agg x2 x3 x4 : S8192x32.Idx → EReal) := by
  unfold Cert.Glue.layer1
  exact maximumf_real _ _
    (addf_real _ _
      (scatterAdd_real _ _ _ _ (bcast_real _ _ _ const_zero_real)
        (mulf_real _ _ (gather_real _ _ _ (dot_real _ _ _ _ hagg h3))
          (bcast_real _ _ _ (bcast_real _ _ _ (nrm_real x2)))))
      (bcast_real _ _ _ (bcast_real _ _ _ h4)))
    (bcast_real _ _ _ const_zero_real)

/-- Layer 2 likewise. -/
theorem layer2_real (agg : (⟨S8192x32, .f32⟩ : BufTy).Contents (Elt Ideal)) (x2 : (⟨S2x262144, .i32⟩ : BufTy).Contents (Elt Ideal))
    (x5 : (⟨S32x32, .f32⟩ : BufTy).Contents (Elt Ideal)) (x6 : (⟨S32, .f32⟩ : BufTy).Contents (Elt Ideal))
    (hagg : AllReal (agg : S8192x32.Idx → EReal)) (h5 : AllReal (x5 : S32x32.Idx → EReal)) (h6 : AllReal (x6 : S32.Idx → EReal)) :
    AllReal (Cert.Glue.layer2 (F := Ideal) agg x2 x5 x6 : S8192x32.Idx → EReal) := by
  unfold Cert.Glue.layer2
  exact maximumf_real _ _
    (addf_real _ _
      (scatterAdd_real _ _ _ _ (bcast_real _ _ _ const_zero_real)
        (mulf_real _ _ (gather_real _ _ _ (dot_real _ _ _ _ hagg h5))
          (bcast_real _ _ _ (bcast_real _ _ _ (nrm_real x2)))))
      (bcast_real _ _ _ (bcast_real _ _ _ h6)))
    (bcast_real _ _ _ const_zero_real)

/-- Layer 3 before the log-softmax likewise. -/
theorem layer3_real (agg : (⟨S8192x32, .f32⟩ : BufTy).Contents (Elt Ideal)) (x2 : (⟨S2x262144, .i32⟩ : BufTy).Contents (Elt Ideal))
    (x7 : (⟨S32x16, .f32⟩ : BufTy).Contents (Elt Ideal)) (x8 : (⟨S16, .f32⟩ : BufTy).Contents (Elt Ideal))
    (hagg : AllReal (agg : S8192x32.Idx → EReal)) (h7 : AllReal (x7 : S32x16.Idx → EReal)) (h8 : AllReal (x8 : S16.Idx → EReal)) :
    AllReal (Cert.Glue.layer3 (F := Ideal) agg x2 x7 x8 : S8192x16.Idx → EReal) := by
  unfold Cert.Glue.layer3
  exact addf_real _ _
    (scatterAdd_real _ _ _ _ (bcast_real _ _ _ const_zero_real)
      (mulf_real _ _ (gather_real _ _ _ (dot_real _ _ _ _ hagg h7))
        (bcast_real _ _ _ (bcast_real _ _ _ (nrm_real x2)))))
    (bcast_real _ _ _ (bcast_real _ _ _ h8))

end Cert.Glue.Finite

end
-- ==== Proof.Net.lean ====
import proofs.«105190_j88227218195280_1_alg».proof.Proof.Glue
import proofs.«105190_j88227218195280_1_alg».proof.Proof.Bridge
import proofs.«105190_j88227218195280_1_alg».proof.Proof.Finite

/-!
The whole network as one function of the nine argument arrays, with the dense aggregation Σⱼ K(i, j) · a(j)
in front of each of the three graph-convolution layers, and the facts about real entries it needs: the
features entering the second and the third aggregation are arrays of reals when the float arguments are.
-/

noncomputable section

namespace Cert.Net

open Idealize.ShloMosaic Cert.KernelIdeal Cert.Spatial

/-- The features after layer 1. -/
def h1 (a0 : (⟨S8192x64, .f32⟩ : BufTy).Contents (Elt Ideal)) (a1 : (⟨S8192x2, .f32⟩ : BufTy).Contents (Elt Ideal))
    (a2 : (⟨S2x262144, .i32⟩ : BufTy).Contents (Elt Ideal)) (a3 : (⟨S64x32, .f32⟩ : BufTy).Contents (Elt Ideal))
    (a4 : (⟨S32, .f32⟩ : BufTy).Contents (Elt Ideal)) : (⟨S8192x32, .f32⟩ : BufTy).Contents (Elt Ideal) :=
  Cert.Glue.layer1 (F := Ideal) (aggD a1 a0) a2 a3 a4

/-- The features after layer 2. -/
def h2 (a0 : (⟨S8192x64, .f32⟩ : BufTy).Contents (Elt Ideal)) (a1 : (⟨S8192x2, .f32⟩ : BufTy).Contents (Elt Ideal))
    (a2 : (⟨S2x262144, .i32⟩ : BufTy).Contents (Elt Ideal)) (a3 : (⟨S64x32, .f32⟩ : BufTy).Contents (Elt Ideal))
    (a4 : (⟨S32, .f32⟩ : BufTy).Contents (Elt Ideal)) (a5 : (⟨S32x32, .f32⟩ : BufTy).Contents (Elt Ideal))
    (a6 : (⟨S32, .f32⟩ : BufTy).Contents (Elt Ideal)) : (⟨S8192x32, .f32⟩ : BufTy).Contents (Elt Ideal) :=
  Cert.Glue.layer2 (F := Ideal) (aggD a1 (h1 a0 a1 a2 a3 a4)) a2 a5 a6

/-- The result: log-softmax of layer 3 of the aggregated layer-2 features. -/
def out (a0 : (⟨S8192x64, .f32⟩ : BufTy).Contents (Elt Ideal)) (a1 : (⟨S8192x2, .f32⟩ : BufTy).Contents (Elt Ideal))
    (a2 : (⟨S2x262144, .i32⟩ : BufTy).Contents (Elt Ideal)) (a3 : (⟨S64x32, .f32⟩ : BufTy).Contents (Elt Ideal))
    (a4 : (⟨S32, .f32⟩ : BufTy).Contents (Elt Ideal)) (a5 : (⟨S32x32, .f32⟩ : BufTy).Contents (Elt Ideal))
    (a6 : (⟨S32, .f32⟩ : BufTy).Contents (Elt Ideal)) (a7 : (⟨S32x16, .f32⟩ : BufTy).Contents (Elt Ideal))
    (a8 : (⟨S16, .f32⟩ : BufTy).Contents (Elt Ideal)) : (⟨S8192x16, .f32⟩ : BufTy).Contents (Elt Ideal) :=
  Cert.Glue.logsm (F := Ideal) (Cert.Glue.layer3 (F := Ideal) (aggD a1 (h2 a0 a1 a2 a3 a4 a5 a6)) a2 a7 a8)

variable {a0 : (⟨S8192x64, .f32⟩ : BufTy).Contents (Elt Ideal)} {a1 : (⟨S8192x2, .f32⟩ : BufTy).Contents (Elt Ideal)}
  {a2 : (⟨S2x262144, .i32⟩ : BufTy).Contents (Elt Ideal)} {a3 : (⟨S64x32, .f32⟩ : BufTy).Contents (Elt Ideal)}
  {a4 : (⟨S32, .f32⟩ : BufTy).Contents (Elt Ideal)} {a5 : (⟨S32x32, .f32⟩ : BufTy).Contents (Elt Ideal)}
  {a6 : (⟨S32, .f32⟩ : BufTy).Contents (Elt Ideal)}

/-- Layer 1's features are real when the arguments are. -/
theorem h1_real (h0 : AllReal (a0 : S8192x64.Idx → EReal)) (hp : AllReal (a1 : S8192x2.Idx → EReal))
    (h3 : AllReal (a3 : S64x32.Idx → EReal)) (h4 : AllReal (a4 : S32.Idx → EReal)) :
    AllReal (h1 a0 a1 a2 a3 a4 : S8192x32.Idx → EReal) :=
  Cert.Glue.Finite.layer1_real _ a2 a3 a4 (aggD_real hp h0) h3 h4

/-- Layer 2's features are real when the arguments are. -/
theorem h2_real (h0 : AllReal (a0 : S8192x64.Idx → EReal)) (hp : AllReal (a1 : S8192x2.Idx → EReal))
    (h3 : AllReal (a3 : S64x32.Idx → EReal)) (h4 : AllReal (a4 : S32.Idx → EReal))
    (h5 : AllReal (a5 : S32x32.Idx → EReal)) (h6 : AllReal (a6 : S32.Idx → EReal)) :
    AllReal (h2 a0 a1 a2 a3 a4 a5 a6 : S8192x32.Idx → EReal) :=
  Cert.Glue.Finite.layer2_real _ a2 a5 a6 (aggD_real hp (h1_real h0 hp h3 h4)) h5 h6

end Cert.Net

end
-- ==== Proof.KernelValue.lean ====
import proofs.«105190_j88227218195280_1_alg».proof.Proof.RunLayer3
import proofs.«105190_j88227218195280_1_alg».proof.Proof.Net

/-!
The kernel program's result buffer at the end of its run is the network's function of the nine argument
arrays: region by region, what the pipeline leaves is the 16-group aggregation of the arrays it found, which
for real coordinates and real features is the dense aggregation; the host layers between the regions are the
network's layers, and they keep the features real.
-/

noncomputable section

namespace Cert.KernelIdeal.KernelValue

open Idealize.ShloMosaic Idealize.ShloMosaic.TcCoe Idealize.ShloMosaic.ValueIdx
open Cert.KernelIdeal Cert.KernelIdeal.Gen Cert.KernelIdeal.RunValue Cert.Spatial

variable (m : (ℓ : Loc nD τ sig) → Buf (Elt Ideal) ℓ) (ρ : Dev nD → PrngReg)

/-- The result buffer after the run, for real float arguments, given each region's body value entry by entry. -/
theorem result_eq (c : Dev nD)
    (hbody0 : ∀ (x0 : Vec Ideal S1024x2 .f32) (x1 : Vec Ideal S2x8192 .f32) (x2 : Vec Ideal S8192x64 .f32) (x3 : Vec Ideal S1x64 .f32) (p : Fin 1024) (q : Fin 64),
      out0_4 (F := Ideal) x0 x1 x2 x3 (ix2 p q) = Cert.Spatial.aggGroups (x0 (ix2 p 0)) (x0 (ix2 p 1)) (fun r => x1 (ix2 0 r)) (fun r => x1 (ix2 1 r)) (fun r => x2 (ix2 r q)) (x3 (ix2 0 q)))
    (hbody1 : ∀ (x0 : Vec Ideal S1024x2 .f32) (x1 : Vec Ideal S2x8192 .f32) (x2 : Vec Ideal S8192x32 .f32) (x3 : Vec Ideal S1x32 .f32) (p : Fin 1024) (q : Fin 32),
      out1_4 (F := Ideal) x0 x1 x2 x3 (ix2 p q) = Cert.Spatial.aggGroups (x0 (ix2 p 0)) (x0 (ix2 p 1)) (fun r => x1 (ix2 0 r)) (fun r => x1 (ix2 1 r)) (fun r => x2 (ix2 r q)) (x3 (ix2 0 q)))
    (hbody2 : ∀ (x0 : Vec Ideal S1024x2 .f32) (x1 : Vec Ideal S2x8192 .f32) (x2 : Vec Ideal S8192x32 .f32) (x3 : Vec Ideal S1x32 .f32) (p : Fin 1024) (q : Fin 32),
      out2_4 (F := Ideal) x0 x1 x2 x3 (ix2 p q) = Cert.Spatial.aggGroups (x0 (ix2 p 0)) (x0 (ix2 p 1)) (fun r => x1 (ix2 0 r)) (fun r => x1 (ix2 1 r)) (fun r => x2 (ix2 r q)) (x3 (ix2 0 q)))
    (h0 : AllReal ((m ((c : Thread nD τ).loc main_arg0)) : S8192x64.Idx → EReal)) (hp : AllReal ((m ((c : Thread nD τ).loc main_arg1)) : S8192x2.Idx → EReal))
    (h3 : AllReal ((m ((c : Thread nD τ).loc main_arg3)) : S64x32.Idx → EReal)) (h4 : AllReal ((m ((c : Thread nD τ).loc main_arg4)) : S32.Idx → EReal))
    (h5 : AllReal ((m ((c : Thread nD τ).loc main_arg5)) : S32x32.Idx → EReal)) (h6 : AllReal ((m ((c : Thread nD τ).loc main_arg6)) : S32.Idx → EReal)) :
    W14 m ρ c (Proc.devRef .tc main_v95)
      = Cert.Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have A1 : V4 m ρ c main_v35 = aggD (m ((c : Thread nD τ).loc main_arg1)) (m ((c : Thread nD τ).loc main_arg0)) := by
    rw [V4_agg, Cert.KernelIdeal.Final0.final (V3 m ρ) hbody0 c, V3_arg1, V3_v0, V3_arg0, V3_v34]
    exact G0_eq_aggD _ _ hp h0 _ _ _ _
  have H1 : V7 m ρ c main_v53 = Cert.Net.h1 (m ((c : Thread nD τ).loc main_arg0)) (m ((c : Thread nD τ).loc main_arg1)) (m ((c : Thread nD τ).loc main_arg2)) (m ((c : Thread nD τ).loc main_arg3)) (m ((c : Thread nD τ).loc main_arg4)) := by
    rw [V7_out, A1]; rfl
  have A2 : V8 m ρ c main_v56 = aggD (m ((c : Thread nD τ).loc main_arg1)) (Cert.Net.h1 (m ((c : Thread nD τ).loc main_arg0)) (m ((c : Thread nD τ).loc main_arg1)) (m ((c : Thread nD τ).loc main_arg2)) (m ((c : Thread nD τ).loc main_arg3)) (m ((c : Thread nD τ).loc main_arg4))) := by
    rw [V8_agg, Cert.KernelIdeal.Final1.final (V7 m ρ) hbody1 c, V7_arg1, V7_v0, V7_sums, H1]
    exact G1_eq_aggD _ _ hp (Cert.Net.h1_real h0 hp h3 h4) _ _ _ _
  have H2 : V11 m ρ c main_v74 = Cert.Net.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
    rw [V11_out, A2]; rfl
  have A3 : V12 m ρ c main_v77 = aggD (m ((c : Thread nD τ).loc main_arg1)) (Cert.Net.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
    rw [V12_agg, Cert.KernelIdeal.Final2.final (V11 m ρ) hbody2 c, V11_arg1, V11_v0, V11_sums, H2]
    exact G2_eq_aggD _ _ hp (Cert.Net.h2_real h0 hp h3 h4 h5 h6) _ _ _ _
  rw [W14_out, A3]; rfl

end Cert.KernelIdeal.KernelValue

end
-- ==== Proof.BodyLemmas.lean ====
import proofs.«105190_j88227218195280_1_alg».proof.Proof.Spec
import proofs.«105190_j88227218195280_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody

/-!
The spatial kernel's body, read one entry at a time over the extended reals: the pieces shared by the
three regions (the same body at feature widths 64, 32, 32).

One group of 512 nodes contributes, to entry (p, q) of the accumulator, the sum over the group's nodes k of
(K(p, k) − 1) · a(k, q): the weights minus one are computed entry by entry from the coordinates
(`deltaV_apply`), and the block product into a zero accumulator is the sum over the contracted axis
(`group64_apply`, `group32_apply`). Sixteen such contributions added one after the other to a zero accumulator
are their sum (`nest16`).
-/

noncomputable section

namespace Cert.KernelIdeal.BodyValue

open Idealize.ShloMosaic Idealize.ShloMosaic.ValueIdx Cert.KernelIdeal

/-! ## Layout operations read at an index -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential at an index is the extended reals' exponential of the element. -/
theorem exp_apply {s : Shape} {φ : FTy} (a : FVec Ideal s φ) (i : s.Idx) : exp a i = Ideal.exp (a i) := rfl

/-! ## The weights minus one of one group -/

/-- The weights minus one of one group of 512 nodes, as the body computes them: from the column `xi` of
    x-coordinates and `yi` of y-coordinates of the block's 1024 nodes and the rows `px`, `py` of the group's
    coordinates, exp((0 − max((rᵢ + rⱼ) − 2 (xᵢ pxⱼ + yᵢ pyⱼ), 0)) · c) − 1. -/
def deltaV (xi yi : FVec Ideal S1024x1 .f32) (px py : FVec Ideal S1x512 .f32)
    (hc : S1024x1.Broadcasts S1024x512) (hr : S1x512.Broadcasts S1024x512) : FVec Ideal S1024x512 .f32 :=
  subf (exp (mulf (subf (broadcast S1024x512 (Scalar.ofBits .f32 0x00000000#32))
      (maximumf (subf (addf (broadcastTo S1024x512 (addf (mulf xi xi) (mulf yi yi)) hc)
                            (broadcastTo S1024x512 (addf (mulf px px) (mulf py py)) hr))
                      (mulf (broadcast S1024x512 (Scalar.ofBits .f32 0x40000000#32))
                            (addf (mulf (broadcastTo S1024x512 xi hc) (broadcastTo S1024x512 px hr))
                                  (mulf (broadcastTo S1024x512 yi hc) (broadcastTo S1024x512 py hr)))))
                (broadcast S1024x512 (Scalar.ofBits .f32 0x00000000#32))))
      (broadcast S1024x512 (Scalar.ofBits .f32 0x350637BD#32))))
    (broadcast S1024x512 (Scalar.ofBits .f32 0x3F800000#32))

/-- Entry (p, k) of the weights minus one is K(p, k) − 1. -/
theorem deltaV_apply (xi yi : FVec Ideal S1024x1 .f32) (px py : FVec Ideal S1x512 .f32)
    (hc : S1024x1.Broadcasts S1024x512) (hr : S1x512.Broadcasts S1024x512) (p : Fin 1024) (k : Fin 512) :
    deltaV xi yi px py hc hr (ix2 p k) =
      Cert.Spatial.ker (xi (ix2 p 0)) (yi (ix2 p 0)) (px (ix2 0 k)) (py (ix2 0 k)) - Cert.Spatial.cOne := by
  unfold deltaV
  simp only [subf_apply, addf_apply, mulf_apply, maximumf_apply, exp_apply, broadcast_apply,
    broadcastTo_a1_ab_apply, broadcastTo_1b_ab_apply]
  show Ideal.exp ((Ideal.ofBits .f32 0x00000000#32 - max (((xi (ix2 p 0) * xi (ix2 p 0) + yi (ix2 p 0) * yi (ix2 p 0)) +
      (px (ix2 0 k) * px (ix2 0 k) + py (ix2 0 k) * py (ix2 0 k))) -
      Ideal.ofBits .f32 0x40000000#32 * (xi (ix2 p 0) * px (ix2 0 k) + yi (ix2 p 0) * py (ix2 0 k)))
      (Ideal.ofBits .f32 0x00000000#32)) * Ideal.ofBits .f32 0x350637BD#32) - Ideal.ofBits .f32 0x3F800000#32 = _
  rw [Ideal.ofBits_zero_f32, zero_sub]
  rfl

/-! ## One group's block product -/

theorem lhs64_0 (i : S1024x64.Idx) (c : dot_S1024x512_S512x64_S1024x64_1_0_0_1_n_n.contr.Idx) : (dot_S1024x512_S512x64_S1024x64_1_0_0_1_n_n.lhsIdx i c 0).val = (i 0).val := by
  unfold DotDims.lhsIdx
  rw [dif_neg (show ¬(0 : Fin S1024x512.rank) ∈ dot_S1024x512_S512x64_S1024x64_1_0_0_1_n_n.lhsBatch by decide),
    dif_pos (show (0 : Fin S1024x512.rank) ∈ dot_S1024x512_S512x64_S1024x64_1_0_0_1_n_n.lhsNonContracting by decide)]
  rfl
theorem lhs64_1 (i : S1024x64.Idx) (c : dot_S1024x512_S512x64_S1024x64_1_0_0_1_n_n.contr.Idx) : (dot_S1024x512_S512x64_S1024x64_1_0_0_1_n_n.lhsIdx i c 1).val = (c ⟨0, by decide⟩).val :=
  dot_S1024x512_S512x64_S1024x64_1_0_0_1_n_n.lhsIdx_val_of_single rfl i c
theorem rhs64_0 (i : S1024x64.Idx) (c : dot_S1024x512_S512x64_S1024x64_1_0_0_1_n_n.contr.Idx) : (dot_S1024x512_S512x64_S1024x64_1_0_0_1_n_n.rhsIdx i c 0).val = (c ⟨0, by decide⟩).val :=
  dot_S1024x512_S512x64_S1024x64_1_0_0_1_n_n.rhsIdx_val_of_single rfl i c
theorem rhs64_1 (i : S1024x64.Idx) (c : dot_S1024x512_S512x64_S1024x64_1_0_0_1_n_n.contr.Idx) : (dot_S1024x512_S512x64_S1024x64_1_0_0_1_n_n.rhsIdx i c 1).val = (i 1).val := by
  unfold DotDims.rhsIdx
  rw [dif_neg (show ¬(1 : Fin S512x64.rank) ∈ dot_S1024x512_S512x64_S1024x64_1_0_0_1_n_n.rhsBatch by decide),
    dif_pos (show (1 : Fin S512x64.rank) ∈ dot_S1024x512_S512x64_S1024x64_1_0_0_1_n_n.rhsNonContracting by decide)]
  rfl

/-- The group's contribution at width 64: entry (p, q) of the block product of the weights minus one
    [1024, 512] with the group's features [512, 64] into a zero accumulator is the sum over the group. -/
theorem group64_apply (δ : FVec Ideal S1024x512 .f32) (xj : FVec Ideal S512x64 .f32)
    (h : FTy.bits .bf16 < FTy.bits .f32) (p : Fin 1024) (q : Fin 64) :
    matmul dot_S1024x512_S512x64_S1024x64_1_0_0_1_n_n none (truncf .bf16 δ h) (truncf .bf16 xj h)
        (constant S1024x64 .f32 0x00000000#32) (ix2 p q) =
      ∑ k : Fin 512, δ (ix2 p k) * xj (ix2 k q) := by
  simp only [matmul]
  rw [Ideal.matmul_constant_zero_apply,
    ← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 p q) ((contrEquiv1 dot_S1024x512_S512x64_S1024x64_1_0_0_1_n_n 512 rfl rfl).symm k) = ix2 p k :=
    funext fun a => Fin.ext (by
      match a with
      | ⟨0, _⟩ => exact lhs64_0 _ _
      | ⟨1, _⟩ => exact (lhs64_1 _ _).trans hk)
  have er : dot_S1024x512_S512x64_S1024x64_1_0_0_1_n_n.rhsIdx (ix2 p q) ((contrEquiv1 dot_S1024x512_S512x64_S1024x64_1_0_0_1_n_n 512 rfl rfl).symm k) = ix2 k q :=
    funext fun a => Fin.ext (by
      match a with
      | ⟨0, _⟩ => exact (rhs64_0 _ _).trans hk
      | ⟨1, _⟩ => exact rhs64_1 _ _)
  rw [el, er]
  rfl

theorem lhs32_0 (i : S1024x32.Idx) (c : dot_S1024x512_S512x32_S1024x32_1_0_0_1_n_n.contr.Idx) : (dot_S1024x512_S512x32_S1024x32_1_0_0_1_n_n.lhsIdx i c 0).val = (i 0).val := by
  unfold DotDims.lhsIdx
  rw [dif_neg (show ¬(0 : Fin S1024x512.rank) ∈ dot_S1024x512_S512x32_S1024x32_1_0_0_1_n_n.lhsBatch by decide),
    dif_pos (show (0 : Fin S1024x512.rank) ∈ dot_S1024x512_S512x32_S1024x32_1_0_0_1_n_n.lhsNonContracting by decide)]
  rfl
theorem lhs32_1 (i : S1024x32.Idx) (c : dot_S1024x512_S512x32_S1024x32_1_0_0_1_n_n.contr.Idx) : (dot_S1024x512_S512x32_S1024x32_1_0_0_1_n_n.lhsIdx i c 1).val = (c ⟨0, by decide⟩).val :=
  dot_S1024x512_S512x32_S1024x32_1_0_0_1_n_n.lhsIdx_val_of_single rfl i c
theorem rhs32_0 (i : S1024x32.Idx) (c : dot_S1024x512_S512x32_S1024x32_1_0_0_1_n_n.contr.Idx) : (dot_S1024x512_S512x32_S1024x32_1_0_0_1_n_n.rhsIdx i c 0).val = (c ⟨0, by decide⟩).val :=
  dot_S1024x512_S512x32_S1024x32_1_0_0_1_n_n.rhsIdx_val_of_single rfl i c
theorem rhs32_1 (i : S1024x32.Idx) (c : dot_S1024x512_S512x32_S1024x32_1_0_0_1_n_n.contr.Idx) : (dot_S1024x512_S512x32_S1024x32_1_0_0_1_n_n.rhsIdx i c 1).val = (i 1).val := by
  unfold DotDims.rhsIdx
  rw [dif_neg (show ¬(1 : Fin S512x32.rank) ∈ dot_S1024x512_S512x32_S1024x32_1_0_0_1_n_n.rhsBatch by decide),
    dif_pos (show (1 : Fin S512x32.rank) ∈ dot_S1024x512_S512x32_S1024x32_1_0_0_1_n_n.rhsNonContracting by decide)]
  rfl

/-- The group's contribution at width 32: entry (p, q) of the block product of the weights minus one
    [1024, 512] with the group's features [512, 32] into a zero accumulator is the sum over the group. -/
theorem group32_apply (δ : FVec Ideal S1024x512 .f32) (xj : FVec Ideal S512x32 .f32)
    (h : FTy.bits .bf16 < FTy.bits .f32) (p : Fin 1024) (q : Fin 32) :
    matmul dot_S1024x512_S512x32_S1024x32_1_0_0_1_n_n none (truncf .bf16 δ h) (truncf .bf16 xj h)
        (constant S1024x32 .f32 0x00000000#32) (ix2 p q) =
      ∑ k : Fin 512, δ (ix2 p k) * xj (ix2 k q) := by
  simp only [matmul]
  rw [Ideal.matmul_constant_zero_apply,
    ← Equiv.sum_comp (contrEquiv1 dot_S1024x512_S512x32_S1024x32_1_0_0_1_n_n 512 rfl rfl).symm]
  refine Finset.sum_congr rfl fun k _ => ?_
  have hk := contrEquiv1_symm_val dot_S1024x512_S512x32_S1024x32_1_0_0_1_n_n 512 rfl rfl k
  have el : dot_S1024x512_S512x32_S1024x32_1_0_0_1_n_n.lhsIdx (ix2 p q) ((contrEquiv1 dot_S1024x512_S512x32_S1024x32_1_0_0_1_n_n 512 rfl rfl).symm k) = ix2 p k :=
    funext fun a => Fin.ext (by
      match a with
      | ⟨0, _⟩ => exact lhs32_0 _ _
      | ⟨1, _⟩ => exact (lhs32_1 _ _).trans hk)
  have er : dot_S1024x512_S512x32_S1024x32_1_0_0_1_n_n.rhsIdx (ix2 p q) ((contrEquiv1 dot_S1024x512_S512x32_S1024x32_1_0_0_1_n_n 512 rfl rfl).symm k) = ix2 k q :=
    funext fun a => Fin.ext (by
      match a with
      | ⟨0, _⟩ => exact (rhs32_0 _ _).trans hk
      | ⟨1, _⟩ => exact rhs32_1 _ _)
  rw [el, er]
  rfl

/-! ## Sixteen contributions added one after the other -/

/-- Adding sixteen terms one after the other to 0 gives their sum. -/
theorem nest16 (f : Fin 16 → EReal) :
    ((((((((((((((((0 + f 0) + f 1) + f 2) + f 3) + f 4) + f 5) + f 6) + f 7) + f 8) + f 9) + f 10) + f 11) + f 12) + f 13)
      + f 14) + f 15) = ∑ j : Fin 16, f j := by
  simp only [Fin.sum_univ_castSucc, Fin.sum_univ_zero]
  rfl

/-! ## Constants and whole-block loads -/

/-- The zero offsets of a rank-2 block. -/
theorem hz2 : (![0, 0] : Fin 2 → Nat) = fun _ => 0 := funext fun a => by fin_cases a <;> rfl

/-- The f32 word 0 is the extended real 0. -/
theorem scalar_zero : (Scalar.ofBits .f32 0x00000000#32 : Ideal .f32) = (0 : EReal) := Ideal.ofBits_zero_f32

/-! ## The groups' rows of the transposed coordinates -/

theorem pxR_inb (j : Fin 16) : ∀ a, (![0, 512 * j.val] : Fin 2 → Nat) a + S1x512.size a ≤ S2x8192.size a := by
  intro a
  have := j.isLt
  match a with
  | ⟨0, _⟩ => show 0 + 1 ≤ 2; omega
  | ⟨1, _⟩ => show 512 * j.val + 512 ≤ 8192; omega
theorem pyR_inb (j : Fin 16) : ∀ a, (![1, 512 * j.val] : Fin 2 → Nat) a + S1x512.size a ≤ S2x8192.size a := by
  intro a
  have := j.isLt
  match a with
  | ⟨0, _⟩ => show 1 + 1 ≤ 2; omega
  | ⟨1, _⟩ => show 512 * j.val + 512 ≤ 8192; omega
/-- Group j's part of the row of x-coordinates: columns 512 j … 512 j + 511 of row 0. -/
abbrev pxR (j : Fin 16) : Rect S2x8192 := Rect.unit (s := S2x8192) ![0, 512 * j.val] S1x512.size (pxR_inb j)
/-- Group j's part of the row of y-coordinates: the same columns of row 1. -/
abbrev pyR (j : Fin 16) : Rect S2x8192 := Rect.unit (s := S2x8192) ![1, 512 * j.val] S1x512.size (pyR_inb j)

/-- Entry k of the group's x-coordinates is the x-coordinate of node 512 j + k. -/
theorem ld_pxR (x1 : Vec Ideal S2x8192 .f32) (j : Fin 16) (k : Fin 512) :
    View.ld x1 (pxR j) (ix2 0 k) = x1 (ix2 0 (Cert.Spatial.node j k)) := by
  show x1 ((pxR j).idx (ix2 0 k)) = _
  refine congrArg x1 (funext fun a => Fin.ext ?_)
  match a with
  | ⟨0, _⟩ => rfl
  | ⟨1, _⟩ => show 512 * j.val + 1 * k.val = 512 * j.val + k.val; omega
/-- Entry k of the group's y-coordinates is the y-coordinate of node 512 j + k. -/
theorem ld_pyR (x1 : Vec Ideal S2x8192 .f32) (j : Fin 16) (k : Fin 512) :
    View.ld x1 (pyR j) (ix2 0 k) = x1 (ix2 1 (Cert.Spatial.node j k)) := by
  show x1 ((pyR j).idx (ix2 0 k)) = _
  refine congrArg x1 (funext fun a => Fin.ext ?_)
  match a with
  | ⟨0, _⟩ => rfl
  | ⟨1, _⟩ => show 512 * j.val + 1 * k.val = 512 * j.val + k.val; omega

/-! ## Width 64: one group's contribution, and the body's stored value -/

/-- Group j's rows 512 j … 512 j + 511 of the [8192, 64] features. -/
theorem xjR64_inb (j : Fin 16) : ∀ a, (![512 * j.val, 0] : Fin 2 → Nat) a + S512x64.size a ≤ S8192x64.size a := by
  intro a
  have := j.isLt
  match a with
  | ⟨0, _⟩ => show 512 * j.val + 512 ≤ 8192; omega
  | ⟨1, _⟩ => show 0 + 64 ≤ 64; omega
abbrev xjR64 (j : Fin 16) : Rect S8192x64 := Rect.unit (s := S8192x64) ![512 * j.val, 0] S512x64.size (xjR64_inb j)

/-- Entry (k, q) of the group's block of features is the feature q of node 512 j + k. -/
theorem ld_xjR64 (x2 : Vec Ideal S8192x64 .f32) (j : Fin 16) (k : Fin 512) (q : Fin 64) :
    View.ld x2 (xjR64 j) (ix2 k q) = x2 (ix2 (Cert.Spatial.node j k) q) := by
  show x2 ((xjR64 j).idx (ix2 k q)) = _
  refine congrArg x2 (funext fun a => Fin.ext ?_)
  match a with
  | ⟨0, _⟩ => show 512 * j.val + 1 * k.val = 512 * j.val + k.val; omega
  | ⟨1, _⟩ => show 0 + 1 * q.val = q.val; omega

/-- One group's contribution to the accumulator: the block product of the group's weights minus one with the
    group's features, into a zero accumulator. -/
def grp64 (xi yi : FVec Ideal S1024x1 .f32) (px py : Vec Ideal S1x512 .f32) (xj : Vec Ideal S512x64 .f32)
    (hc : S1024x1.Broadcasts S1024x512) (hr : S1x512.Broadcasts S1024x512) (hs : S1x512.ShapeCasts S1x512)
    (hb : FTy.bits .bf16 < FTy.bits .f32) : FVec Ideal S1024x64 .f32 :=
  matmul dot_S1024x512_S512x64_S1024x64_1_0_0_1_n_n none
    (truncf .bf16 (deltaV xi yi (shapeCast S1x512 px hs) (shapeCast S1x512 py hs) hc hr) hb)
    (truncf .bf16 xj hb) (constant S1024x64 .f32 0x00000000#32)

/-- Entry (p, q) of one group's contribution: Σₖ (K(p, k) − 1) · a(k, q) over the group's 512 nodes. -/
theorem grp64_apply (xi yi : FVec Ideal S1024x1 .f32) (px py : Vec Ideal S1x512 .f32) (xj : Vec Ideal S512x64 .f32)
    (hc : S1024x1.Broadcasts S1024x512) (hr : S1x512.Broadcasts S1024x512) (hs : S1x512.ShapeCasts S1x512)
    (hb : FTy.bits .bf16 < FTy.bits .f32) (p : Fin 1024) (q : Fin 64) :
    grp64 xi yi px py xj hc hr hs hb (ix2 p q) =
      ∑ k : Fin 512, (Cert.Spatial.ker (xi (ix2 p 0)) (yi (ix2 p 0)) (px (ix2 0 k)) (py (ix2 0 k)) - Cert.Spatial.cOne)
        * xj (ix2 k q) := by
  unfold grp64
  rw [group64_apply]
  refine Finset.sum_congr rfl fun k _ => ?_
  rw [deltaV_apply, shapeCast_self, shapeCast_self]

/-- The same from the two columns of coordinates. -/
def body64Of (xi yi : FVec Ideal S1024x1 .f32) (px py : Fin 16 → Vec Ideal S1x512 .f32) (xj : Fin 16 → Vec Ideal S512x64 .f32)
    (b : Vec Ideal S1x64 .f32)
    (hc : S1024x1.Broadcasts S1024x512) (hr : S1x512.Broadcasts S1024x512) (hs : S1x512.ShapeCasts S1x512)
    (hb : FTy.bits .bf16 < FTy.bits .f32) (hs' : S1x64.ShapeCasts S1x64) (hb' : S1x64.Broadcasts S1024x64) :
    FVec Ideal S1024x64 .f32 :=
  addf (addf (addf (addf (addf (addf (addf (addf (addf (addf (addf (addf (addf (addf (addf (addf (addf (broadcast S1024x64 (Scalar.ofBits .f32 0x00000000#32))
      (grp64 xi yi (px 0) (py 0) (xj 0) hc hr hs hb))
      (grp64 xi yi (px 1) (py 1) (xj 1) hc hr hs hb))
      (grp64 xi yi (px 2) (py 2) (xj 2) hc hr hs hb))
      (grp64 xi yi (px 3) (py 3) (xj 3) hc hr hs hb))
      (grp64 xi yi (px 4) (py 4) (xj 4) hc hr hs hb))
      (grp64 xi yi (px 5) (py 5) (xj 5) hc hr hs hb))
      (grp64 xi yi (px 6) (py 6) (xj 6) hc hr hs hb))
      (grp64 xi yi (px 7) (py 7) (xj 7) hc hr hs hb))
      (grp64 xi yi (px 8) (py 8) (xj 8) hc hr hs hb))
      (grp64 xi yi (px 9) (py 9) (xj 9) hc hr hs hb))
      (grp64 xi yi (px 10) (py 10) (xj 10) hc hr hs hb))
      (grp64 xi yi (px 11) (py 11) (xj 11) hc hr hs hb))
      (grp64 xi yi (px 12) (py 12) (xj 12) hc hr hs hb))
      (grp64 xi yi (px 13) (py 13) (xj 13) hc hr hs hb))
      (grp64 xi yi (px 14) (py 14) (xj 14) hc hr hs hb))
      (grp64 xi yi (px 15) (py 15) (xj 15) hc hr hs hb))
    (broadcastTo S1024x64 (shapeCast S1x64 b hs') hb')

/-- Entry (p, q) of the stored value: the sum over the sixteen groups of the groups' sums, plus b(q). -/
theorem body64Of_apply (xi yi : FVec Ideal S1024x1 .f32) (px py : Fin 16 → Vec Ideal S1x512 .f32)
    (xj : Fin 16 → Vec Ideal S512x64 .f32) (b : Vec Ideal S1x64 .f32)
    (hc : S1024x1.Broadcasts S1024x512) (hr : S1x512.Broadcasts S1024x512) (hs : S1x512.ShapeCasts S1x512)
    (hb : FTy.bits .bf16 < FTy.bits .f32) (hs' : S1x64.ShapeCasts S1x64) (hb' : S1x64.Broadcasts S1024x64)
    (p : Fin 1024) (q : Fin 64) :
    body64Of xi yi px py xj b hc hr hs hb hs' hb' (ix2 p q) =
      (∑ j : Fin 16, ∑ k : Fin 512,
        (Cert.Spatial.ker (xi (ix2 p 0)) (yi (ix2 p 0)) (px j (ix2 0 k)) (py j (ix2 0 k)) - Cert.Spatial.cOne) * xj j (ix2 k q))
      + b (ix2 0 q) := by
  unfold body64Of
  simp only [addf_apply, grp64_apply, broadcast_apply, broadcastTo_1b_ab_apply, shapeCast_self, scalar_zero]
  exact congrArg (· + b (ix2 0 q)) (nest16 fun j => ∑ k : Fin 512,
    (Cert.Spatial.ker (xi (ix2 p 0)) (yi (ix2 p 0)) (px j (ix2 0 k)) (py j (ix2 0 k)) - Cert.Spatial.cOne) * xj j (ix2 k q))

/-- The value the body stores: a zero accumulator, the sixteen groups' contributions added one after the other, then
    the row `b` added to every row. The columns of coordinates are cut out of the block `pos` of the nodes' coordinates. -/
def body64 (pos : Vec Ideal S1024x2 .f32) (px py : Fin 16 → Vec Ideal S1x512 .f32) (xj : Fin 16 → Vec Ideal S512x64 .f32)
    (b : Vec Ideal S1x64 .f32) (h0 : S1024x2.Slices ![0, 0] S1024x1) (h1 : S1024x2.Slices ![0, 1] S1024x1)
    (hc : S1024x1.Broadcasts S1024x512) (hr : S1x512.Broadcasts S1024x512) (hs : S1x512.ShapeCasts S1x512)
    (hb : FTy.bits .bf16 < FTy.bits .f32) (hs' : S1x64.ShapeCasts S1x64) (hb' : S1x64.Broadcasts S1024x64) :
    FVec Ideal S1024x64 .f32 :=
  body64Of (extractStridedSlice S1024x1 ![0, 0] pos h0) (extractStridedSlice S1024x1 ![0, 1] pos h1) px py xj b hc hr hs hb hs' hb'

/-- Entry (p, q) of the stored value, from the block of coordinates. -/
theorem body64_apply (pos : Vec Ideal S1024x2 .f32) (px py : Fin 16 → Vec Ideal S1x512 .f32)
    (xj : Fin 16 → Vec Ideal S512x64 .f32) (b : Vec Ideal S1x64 .f32)
    (h0 : S1024x2.Slices ![0, 0] S1024x1) (h1 : S1024x2.Slices ![0, 1] S1024x1)
    (hc : S1024x1.Broadcasts S1024x512) (hr : S1x512.Broadcasts S1024x512) (hs : S1x512.ShapeCasts S1x512)
    (hb : FTy.bits .bf16 < FTy.bits .f32) (hs' : S1x64.ShapeCasts S1x64) (hb' : S1x64.Broadcasts S1024x64)
    (p : Fin 1024) (q : Fin 64) :
    body64 pos px py xj b h0 h1 hc hr hs hb hs' hb' (ix2 p q) =
      (∑ j : Fin 16, ∑ k : Fin 512,
        (Cert.Spatial.ker (pos (ix2 p 0)) (pos (ix2 p 1)) (px j (ix2 0 k)) (py j (ix2 0 k)) - Cert.Spatial.cOne) * xj j (ix2 k q))
      + b (ix2 0 q) := by
  unfold body64
  rw [body64Of_apply,
    slice2_axis1_apply 0 pos h0 p (0 : Fin 1) (0 : Fin 2) rfl,
    slice2_axis1_apply 1 pos h1 p (0 : Fin 1) (1 : Fin 2) rfl]

/-! ## Width 32: one group's contribution, and the body's stored value -/

/-- Group j's rows 512 j … 512 j + 511 of the [8192, 32] features. -/
theorem xjR32_inb (j : Fin 16) : ∀ a, (![512 * j.val, 0] : Fin 2 → Nat) a + S512x32.size a ≤ S8192x32.size a := by
  intro a
  have := j.isLt
  match a with
  | ⟨0, _⟩ => show 512 * j.val + 512 ≤ 8192; omega
  | ⟨1, _⟩ => show 0 + 32 ≤ 32; omega
abbrev xjR32 (j : Fin 16) : Rect S8192x32 := Rect.unit (s := S8192x32) ![512 * j.val, 0] S512x32.size (xjR32_inb j)

/-- Entry (k, q) of the group's block of features is the feature q of node 512 j + k. -/
theorem ld_xjR32 (x2 : Vec Ideal S8192x32 .f32) (j : Fin 16) (k : Fin 512) (q : Fin 32) :
    View.ld x2 (xjR32 j) (ix2 k q) = x2 (ix2 (Cert.Spatial.node j k) q) := by
  show x2 ((xjR32 j).idx (ix2 k q)) = _
  refine congrArg x2 (funext fun a => Fin.ext ?_)
  match a with
  | ⟨0, _⟩ => show 512 * j.val + 1 * k.val = 512 * j.val + k.val; omega
  | ⟨1, _⟩ => show 0 + 1 * q.val = q.val; omega

/-- One group's contribution to the accumulator: the block product of the group's weights minus one with the
    group's features (reshaped to their own shape first, which changes nothing), into a zero accumulator. -/
def grp32 (xi yi : FVec Ideal S1024x1 .f32) (px py : Vec Ideal S1x512 .f32) (xj : Vec Ideal S512x32 .f32)
    (hc : S1024x1.Broadcasts S1024x512) (hr : S1x512.Broadcasts S1024x512) (hs : S1x512.ShapeCasts S1x512)
    (hb : FTy.bits .bf16 < FTy.bits .f32) (hx : S512x32.ShapeCasts S512x32) : FVec Ideal S1024x32 .f32 :=
  matmul dot_S1024x512_S512x32_S1024x32_1_0_0_1_n_n none
    (truncf .bf16 (deltaV xi yi (shapeCast S1x512 px hs) (shapeCast S1x512 py hs) hc hr) hb)
    (truncf .bf16 (shapeCast S512x32 xj hx) hb) (constant S1024x32 .f32 0x00000000#32)

/-- Entry (p, q) of one group's contribution: Σₖ (K(p, k) − 1) · a(k, q) over the group's 512 nodes. -/
theorem grp32_apply (xi yi : FVec Ideal S1024x1 .f32) (px py : Vec Ideal S1x512 .f32) (xj : Vec Ideal S512x32 .f32)
    (hc : S1024x1.Broadcasts S1024x512) (hr : S1x512.Broadcasts S1024x512) (hs : S1x512.ShapeCasts S1x512)
    (hb : FTy.bits .bf16 < FTy.bits .f32) (hx : S512x32.ShapeCasts S512x32) (p : Fin 1024) (q : Fin 32) :
    grp32 xi yi px py xj hc hr hs hb hx (ix2 p q) =
      ∑ k : Fin 512, (Cert.Spatial.ker (xi (ix2 p 0)) (yi (ix2 p 0)) (px (ix2 0 k)) (py (ix2 0 k)) - Cert.Spatial.cOne)
        * xj (ix2 k q) := by
  unfold grp32
  rw [group32_apply]
  refine Finset.sum_congr rfl fun k _ => ?_
  rw [deltaV_apply, shapeCast_self, shapeCast_self, shapeCast_self]

/-- The same from the two columns of coordinates. -/
def body32Of (xi yi : FVec Ideal S1024x1 .f32) (px py : Fin 16 → Vec Ideal S1x512 .f32) (xj : Fin 16 → Vec Ideal S512x32 .f32)
    (b : Vec Ideal S1x32 .f32)
    (hc : S1024x1.Broadcasts S1024x512) (hr : S1x512.Broadcasts S1024x512) (hs : S1x512.ShapeCasts S1x512)
    (hb : FTy.bits .bf16 < FTy.bits .f32) (hs' : S1x32.ShapeCasts S1x32) (hb' : S1x32.Broadcasts S1024x32)
    (hx : S512x32.ShapeCasts S512x32) :
    FVec Ideal S1024x32 .f32 :=
  addf (addf (addf (addf (addf (addf (addf (addf (addf (addf (addf (addf (addf (addf (addf (addf (addf (broadcast S1024x32 (Scalar.ofBits .f32 0x00000000#32))
      (grp32 xi yi (px 0) (py 0) (xj 0) hc hr hs hb hx))
      (grp32 xi yi (px 1) (py 1) (xj 1) hc hr hs hb hx))
      (grp32 xi yi (px 2) (py 2) (xj 2) hc hr hs hb hx))
      (grp32 xi yi (px 3) (py 3) (xj 3) hc hr hs hb hx))
      (grp32 xi yi (px 4) (py 4) (xj 4) hc hr hs hb hx))
      (grp32 xi yi (px 5) (py 5) (xj 5) hc hr hs hb hx))
      (grp32 xi yi (px 6) (py 6) (xj 6) hc hr hs hb hx))
      (grp32 xi yi (px 7) (py 7) (xj 7) hc hr hs hb hx))
      (grp32 xi yi (px 8) (py 8) (xj 8) hc hr hs hb hx))
      (grp32 xi yi (px 9) (py 9) (xj 9) hc hr hs hb hx))
      (grp32 xi yi (px 10) (py 10) (xj 10) hc hr hs hb hx))
      (grp32 xi yi (px 11) (py 11) (xj 11) hc hr hs hb hx))
      (grp32 xi yi (px 12) (py 12) (xj 12) hc hr hs hb hx))
      (grp32 xi yi (px 13) (py 13) (xj 13) hc hr hs hb hx))
      (grp32 xi yi (px 14) (py 14) (xj 14) hc hr hs hb hx))
      (grp32 xi yi (px 15) (py 15) (xj 15) hc hr hs hb hx))
    (broadcastTo S1024x32 (shapeCast S1x32 b hs') hb')

/-- Entry (p, q) of the stored value: the sum over the sixteen groups of the groups' sums, plus b(q). -/
theorem body32Of_apply (xi yi : FVec Ideal S1024x1 .f32) (px py : Fin 16 → Vec Ideal S1x512 .f32)
    (xj : Fin 16 → Vec Ideal S512x32 .f32) (b : Vec Ideal S1x32 .f32)
    (hc : S1024x1.Broadcasts S1024x512) (hr : S1x512.Broadcasts S1024x512) (hs : S1x512.ShapeCasts S1x512)
    (hb : FTy.bits .bf16 < FTy.bits .f32) (hs' : S1x32.ShapeCasts S1x32) (hb' : S1x32.Broadcasts S1024x32)
    (hx : S512x32.ShapeCasts S512x32)
    (p : Fin 1024) (q : Fin 32) :
    body32Of xi yi px py xj b hc hr hs hb hs' hb' hx (ix2 p q) =
      (∑ j : Fin 16, ∑ k : Fin 512,
        (Cert.Spatial.ker (xi (ix2 p 0)) (yi (ix2 p 0)) (px j (ix2 0 k)) (py j (ix2 0 k)) - Cert.Spatial.cOne) * xj j (ix2 k q))
      + b (ix2 0 q) := by
  unfold body32Of
  simp only [addf_apply, grp32_apply, broadcast_apply, broadcastTo_1b_ab_apply, shapeCast_self, scalar_zero]
  exact congrArg (· + b (ix2 0 q)) (nest16 fun j => ∑ k : Fin 512,
    (Cert.Spatial.ker (xi (ix2 p 0)) (yi (ix2 p 0)) (px j (ix2 0 k)) (py j (ix2 0 k)) - Cert.Spatial.cOne) * xj j (ix2 k q))

/-- The value the body stores: a zero accumulator, the sixteen groups' contributions added one after the other, then
    the row `b` added to every row. The columns of coordinates are cut out of the block `pos` of the nodes' coordinates. -/
def body32 (pos : Vec Ideal S1024x2 .f32) (px py : Fin 16 → Vec Ideal S1x512 .f32) (xj : Fin 16 → Vec Ideal S512x32 .f32)
    (b : Vec Ideal S1x32 .f32) (h0 : S1024x2.Slices ![0, 0] S1024x1) (h1 : S1024x2.Slices ![0, 1] S1024x1)
    (hc : S1024x1.Broadcasts S1024x512) (hr : S1x512.Broadcasts S1024x512) (hs : S1x512.ShapeCasts S1x512)
    (hb : FTy.bits .bf16 < FTy.bits .f32) (hs' : S1x32.ShapeCasts S1x32) (hb' : S1x32.Broadcasts S1024x32)
    (hx : S512x32.ShapeCasts S512x32) :
    FVec Ideal S1024x32 .f32 :=
  body32Of (extractStridedSlice S1024x1 ![0, 0] pos h0) (extractStridedSlice S1024x1 ![0, 1] pos h1) px py xj b hc hr hs hb hs' hb' hx

/-- Entry (p, q) of the stored value, from the block of coordinates. -/
theorem body32_apply (pos : Vec Ideal S1024x2 .f32) (px py : Fin 16 → Vec Ideal S1x512 .f32)
    (xj : Fin 16 → Vec Ideal S512x32 .f32) (b : Vec Ideal S1x32 .f32)
    (h0 : S1024x2.Slices ![0, 0] S1024x1) (h1 : S1024x2.Slices ![0, 1] S1024x1)
    (hc : S1024x1.Broadcasts S1024x512) (hr : S1x512.Broadcasts S1024x512) (hs : S1x512.ShapeCasts S1x512)
    (hb : FTy.bits .bf16 < FTy.bits .f32) (hs' : S1x32.ShapeCasts S1x32) (hb' : S1x32.Broadcasts S1024x32)
    (hx : S512x32.ShapeCasts S512x32)
    (p : Fin 1024) (q : Fin 32) :
    body32 pos px py xj b h0 h1 hc hr hs hb hs' hb' hx (ix2 p q) =
      (∑ j : Fin 16, ∑ k : Fin 512,
        (Cert.Spatial.ker (pos (ix2 p 0)) (pos (ix2 p 1)) (px j (ix2 0 k)) (py j (ix2 0 k)) - Cert.Spatial.cOne) * xj j (ix2 k q))
      + b (ix2 0 q) := by
  unfold body32
  rw [body32Of_apply,
    slice2_axis1_apply 0 pos h0 p (0 : Fin 1) (0 : Fin 2) rfl,
    slice2_axis1_apply 1 pos h1 p (0 : Fin 1) (1 : Fin 2) rfl]

end Cert.KernelIdeal.BodyValue

end
-- ==== Proof.BodyValue0.lean ====
import proofs.«105190_j88227218195280_1_alg».proof.Proof.BodyLemmas
import proofs.«105190_j88227218195280_1_alg».proof.Proof.Gen.KernelIdeal.Frame

/-!
Region 0 (feature width 64): the value the kernel body leaves in its output block, entry by entry.
The body's one store covers the whole block, so the block holds the stored value; unfolding the program's
intermediate values shows it to be the zero accumulator plus the sixteen groups' contributions plus the row of
column sums, whose entry (p, q) is Σⱼ Σₖ (K(p, 512 j + k) − 1) · a(512 j + k, q) + s(q).
-/

set_option maxRecDepth 16384

noncomputable section

namespace Cert.KernelIdeal.BodyValue

open Idealize.ShloMosaic Idealize.ShloMosaic.ValueIdx Cert.KernelIdeal Cert.KernelIdeal.Gen

/-- The output block after the body is the stored value, in terms of the loaded blocks: the block of the nodes'
    coordinates, the sixteen groups' rows of the transposed coordinates and blocks of features, and the row of sums. -/
theorem out0_4_eq_body (x0 : Vec Ideal S1024x2 .f32) (x1 : Vec Ideal S2x8192 .f32) (x2 : Vec Ideal S8192x64 .f32)
    (x3 : Vec Ideal S1x64 .f32) :
    out0_4 (F := Ideal) x0 x1 x2 x3 =
      body64 (View.ld x0 r0_0) (fun j => View.ld x1 (pxR j)) (fun j => View.ld x1 (pyR j))
        (fun j => View.ld x2 (xjR64 j)) (View.ld x3 r0_49)
        slices_S1024x2_o0_0_S1024x1 slices_S1024x2_o0_1_S1024x1 broadcasts_S1024x1_S1024x512
        broadcasts_S1x512_S1024x512 shapeCasts_S1x512_S1x512 bitsLt_bf16_f32 shapeCasts_S1x64_S1x64
        broadcasts_S1x64_S1024x64 := by
  unfold out0_4
  refine (View.canon_unit_zero hz2 _ _).trans ?_
  rfl

/-- Entry (p, q) of the output block after the body. -/
theorem out0_4_apply (x0 : Vec Ideal S1024x2 .f32) (x1 : Vec Ideal S2x8192 .f32) (x2 : Vec Ideal S8192x64 .f32)
    (x3 : Vec Ideal S1x64 .f32) (p : Fin 1024) (q : Fin 64) :
    out0_4 (F := Ideal) x0 x1 x2 x3 (ix2 p q) =
      Cert.Spatial.aggGroups (x0 (ix2 p 0)) (x0 (ix2 p 1)) (fun r => x1 (ix2 0 r)) (fun r => x1 (ix2 1 r))
        (fun r => x2 (ix2 r q)) (x3 (ix2 0 q)) := by
  have h0 : View.ld x0 r0_0 = x0 := View.ld_unit_zero hz2 _ x0
  have h3 : View.ld x3 r0_49 = x3 := View.ld_unit_zero hz2 _ x3
  rw [out0_4_eq_body, body64_apply, h0, h3]
  unfold Cert.Spatial.aggGroups
  refine congrArg (· + x3 (ix2 0 q)) (Finset.sum_congr rfl fun j _ => Finset.sum_congr rfl fun k _ => ?_)
  rw [ld_pxR, ld_pyR, ld_xjR64]

end Cert.KernelIdeal.BodyValue

end
-- ==== Proof.BodyValue1.lean ====
import proofs.«105190_j88227218195280_1_alg».proof.Proof.BodyLemmas
import proofs.«105190_j88227218195280_1_alg».proof.Proof.Gen.KernelIdeal.Frame

/-!
Region 1 (feature width 32): the value the kernel body leaves in its output block, entry by entry.
The body's one store covers the whole block, so the block holds the stored value; unfolding the program's
intermediate values shows it to be the zero accumulator plus the sixteen groups' contributions plus the row of
column sums, whose entry (p, q) is Σⱼ Σₖ (K(p, 512 j + k) − 1) · a(512 j + k, q) + s(q).
-/

set_option maxRecDepth 16384

noncomputable section

namespace Cert.KernelIdeal.BodyValue

open Idealize.ShloMosaic Idealize.ShloMosaic.ValueIdx Cert.KernelIdeal Cert.KernelIdeal.Gen

/-- The output block after the body is the stored value, in terms of the loaded blocks: the block of the nodes'
    coordinates, the sixteen groups' rows of the transposed coordinates and blocks of features, and the row of sums. -/
theorem out1_4_eq_body (x0 : Vec Ideal S1024x2 .f32) (x1 : Vec Ideal S2x8192 .f32) (x2 : Vec Ideal S8192x32 .f32)
    (x3 : Vec Ideal S1x32 .f32) :
    out1_4 (F := Ideal) x0 x1 x2 x3 =
      body32 (View.ld x0 r1_0) (fun j => View.ld x1 (pxR j)) (fun j => View.ld x1 (pyR j))
        (fun j => View.ld x2 (xjR32 j)) (View.ld x3 r1_49)
        slices_S1024x2_o0_0_S1024x1 slices_S1024x2_o0_1_S1024x1 broadcasts_S1024x1_S1024x512
        broadcasts_S1x512_S1024x512 shapeCasts_S1x512_S1x512 bitsLt_bf16_f32 shapeCasts_S1x32_S1x32
        broadcasts_S1x32_S1024x32 shapeCasts_S512x32_S512x32 := by
  unfold out1_4
  refine (View.canon_unit_zero hz2 _ _).trans ?_
  rfl

/-- Entry (p, q) of the output block after the body. -/
theorem out1_4_apply (x0 : Vec Ideal S1024x2 .f32) (x1 : Vec Ideal S2x8192 .f32) (x2 : Vec Ideal S8192x32 .f32)
    (x3 : Vec Ideal S1x32 .f32) (p : Fin 1024) (q : Fin 32) :
    out1_4 (F := Ideal) x0 x1 x2 x3 (ix2 p q) =
      Cert.Spatial.aggGroups (x0 (ix2 p 0)) (x0 (ix2 p 1)) (fun r => x1 (ix2 0 r)) (fun r => x1 (ix2 1 r))
        (fun r => x2 (ix2 r q)) (x3 (ix2 0 q)) := by
  have h0 : View.ld x0 r1_0 = x0 := View.ld_unit_zero hz2 _ x0
  have h3 : View.ld x3 r1_49 = x3 := View.ld_unit_zero hz2 _ x3
  rw [out1_4_eq_body, body32_apply, h0, h3]
  unfold Cert.Spatial.aggGroups
  refine congrArg (· + x3 (ix2 0 q)) (Finset.sum_congr rfl fun j _ => Finset.sum_congr rfl fun k _ => ?_)
  rw [ld_pxR, ld_pyR, ld_xjR32]

end Cert.KernelIdeal.BodyValue

end
-- ==== Proof.BodyValue2.lean ====
import proofs.«105190_j88227218195280_1_alg».proof.Proof.BodyLemmas
import proofs.«105190_j88227218195280_1_alg».proof.Proof.Gen.KernelIdeal.Frame

/-!
Region 2 (feature width 32): the value the kernel body leaves in its output block, entry by entry.
The body's one store covers the whole block, so the block holds the stored value; unfolding the program's
intermediate values shows it to be the zero accumulator plus the sixteen groups' contributions plus the row of
column sums, whose entry (p, q) is Σⱼ Σₖ (K(p, 512 j + k) − 1) · a(512 j + k, q) + s(q).
-/

set_option maxRecDepth 16384

noncomputable section

namespace Cert.KernelIdeal.BodyValue

open Idealize.ShloMosaic Idealize.ShloMosaic.ValueIdx Cert.KernelIdeal Cert.KernelIdeal.Gen

/-- The output block after the body is the stored value, in terms of the loaded blocks: the block of the nodes'
    coordinates, the sixteen groups' rows of the transposed coordinates and blocks of features, and the row of sums. -/
theorem out2_4_eq_body (x0 : Vec Ideal S1024x2 .f32) (x1 : Vec Ideal S2x8192 .f32) (x2 : Vec Ideal S8192x32 .f32)
    (x3 : Vec Ideal S1x32 .f32) :
    out2_4 (F := Ideal) x0 x1 x2 x3 =
      body32 (View.ld x0 r2_0) (fun j => View.ld x1 (pxR j)) (fun j => View.ld x1 (pyR j))
        (fun j => View.ld x2 (xjR32 j)) (View.ld x3 r2_49)
        slices_S1024x2_o0_0_S1024x1 slices_S1024x2_o0_1_S1024x1 broadcasts_S1024x1_S1024x512
        broadcasts_S1x512_S1024x512 shapeCasts_S1x512_S1x512 bitsLt_bf16_f32 shapeCasts_S1x32_S1x32
        broadcasts_S1x32_S1024x32 shapeCasts_S512x32_S512x32 := by
  unfold out2_4
  refine (View.canon_unit_zero hz2 _ _).trans ?_
  rfl

/-- Entry (p, q) of the output block after the body. -/
theorem out2_4_apply (x0 : Vec Ideal S1024x2 .f32) (x1 : Vec Ideal S2x8192 .f32) (x2 : Vec Ideal S8192x32 .f32)
    (x3 : Vec Ideal S1x32 .f32) (p : Fin 1024) (q : Fin 32) :
    out2_4 (F := Ideal) x0 x1 x2 x3 (ix2 p q) =
      Cert.Spatial.aggGroups (x0 (ix2 p 0)) (x0 (ix2 p 1)) (fun r => x1 (ix2 0 r)) (fun r => x1 (ix2 1 r))
        (fun r => x2 (ix2 r q)) (x3 (ix2 0 q)) := by
  have h0 : View.ld x0 r2_0 = x0 := View.ld_unit_zero hz2 _ x0
  have h3 : View.ld x3 r2_49 = x3 := View.ld_unit_zero hz2 _ x3
  rw [out2_4_eq_body, body32_apply, h0, h3]
  unfold Cert.Spatial.aggGroups
  refine congrArg (· + x3 (ix2 0 q)) (Finset.sum_congr rfl fun j _ => Finset.sum_congr rfl fun k _ => ?_)
  rw [ld_pxR, ld_pyR, ld_xjR32]

end Cert.KernelIdeal.BodyValue

end
-- ==== Proof.RefValue.lean ====
import proofs.«105190_j88227218195280_1_alg».proof.Proof.RefStages
import proofs.«105190_j88227218195280_1_alg».proof.Proof.Glue

/-!
The reference program read as mathematics: its three layers are the shared host-side graph convolution
(Cert.Glue) applied to the aggregation of the previous layer's features by the weight matrix, the last one
followed by the log-softmax over the 16 classes.
-/

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! ### The three layers are the shared ones -/

/-- Layer 1 of the reference is the shared layer applied to its first aggregation: the same operations on the same
    edge lists, degrees and weights, literal for literal. -/
theorem stage1 (x0 : (⟨S8192x64, .f32⟩ : BufTy).Contents (Elt Ideal)) (x1 : (⟨S8192x2, .f32⟩ : BufTy).Contents (Elt Ideal)) (x2 : (⟨S2x262144, .i32⟩ : BufTy).Contents (Elt Ideal)) (x3 : (⟨S64x32, .f32⟩ : BufTy).Contents (Elt Ideal)) (x4 : (⟨S32, .f32⟩ : BufTy).Contents (Elt Ideal)) :
    val_main_v68 (F := Ideal) x0 x1 x2 x3 x4 = Cert.Glue.layer1 (F := Ideal) (val_main_v50 (F := Ideal) x0 x1) x2 x3 x4 := rfl

/-- Layer 2 likewise, applied to the second aggregation. -/
theorem stage2 (x0 : (⟨S8192x64, .f32⟩ : BufTy).Contents (Elt Ideal)) (x1 : (⟨S8192x2, .f32⟩ : BufTy).Contents (Elt Ideal)) (x2 : (⟨S2x262144, .i32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) :
    val_main_v87 (F := Ideal) x0 x1 x2 x3 x4 x5 x6 = Cert.Glue.layer2 (F := Ideal) (val_main_v69 (F := Ideal) x0 x1 x2 x3 x4) x2 x5 x6 := rfl

/-- The result is the log-softmax of layer 3 applied to the third aggregation. -/
theorem stage3 (x0 : (⟨S8192x64, .f32⟩ : BufTy).Contents (Elt Ideal)) (x1 : (⟨S8192x2, .f32⟩ : BufTy).Contents (Elt Ideal)) (x2 : (⟨S2x262144, .i32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x16, .f32⟩ : BufTy).Contents (Elt Ideal)) (x8 : (⟨S16, .f32⟩ : BufTy).Contents (Elt Ideal)) :
    val_main_v106 (F := Ideal) x0 x1 x2 x3 x4 x5 x6 x7 x8
      = Cert.Glue.logsm (F := Ideal) (Cert.Glue.layer3 (F := Ideal) (val_main_v88 (F := Ideal) x0 x1 x2 x3 x4 x5 x6) x2 x7 x8) := rfl

end Cert.ReferenceIdeal.RefValue

end
-- ==== Proof.RefAgg.lean ====
import proofs.«105190_j88227218195280_1_alg».proof.Proof.RefStages
import proofs.«105190_j88227218195280_1_alg».proof.Proof.Spec
import Idealize.ShloMosaic.Lib.ValueIdx

/-!
The reference program's dense aggregation, entry by entry. Entry (i, j) of its weight matrix is
K(i, j) = exp(−max(rᵢ + rⱼ − 2 (xᵢxⱼ + yᵢyⱼ), 0) · c) with rₚ = xₚ² + yₚ², and entry (i, q) of each of its three
aggregations is Σ_r K(i, r) · a(r, q), a the features entering that layer.
-/

noncomputable section

namespace Cert.ReferenceIdeal.RefAgg

open Cert.ReferenceIdeal Cert.ReferenceIdeal.ReadP Idealize.ShloMosaic Idealize.ShloMosaic.ValueIdx

/-! ### The weight matrix, entry by entry -/

/-- The squared norm of node p: r_p = x_p² + y_p² (the sum starts from 0). -/
theorem sqn_apply (x1 : (⟨S8192x2, .f32⟩ : BufTy).Contents (Elt Ideal)) (p : Fin 8192) :
    val_main_v1 (F := Ideal) x1 (ix1 p) = x1 (ix2 p 0) * x1 (ix2 p 0) + x1 (ix2 p 1) * x1 (ix2 p 1) := by
  have h0 : idx_main_v1 (ix1 p) 0 = ix2 p 0 := funext fun a => Fin.ext (by match a with | ⟨0, _⟩ => rfl | ⟨1, _⟩ => rfl)
  have h1 : idx_main_v1 (ix1 p) 1 = ix2 p 1 := funext fun a => Fin.ext (by match a with | ⟨0, _⟩ => rfl | ⟨1, _⟩ => rfl)
  rw [val_main_v1_apply, Fin.sum_univ_two, val_main_v0_apply, val_main_v0_apply, val_main_cst_apply, h0, h1,
    Ideal.ofBits_def, Ideal.ofBits_zero_f32, zero_add]
  rfl

/-- Entry (i, j) of the weight matrix is K(i, j) = exp(−max(rᵢ + rⱼ − 2 (xᵢxⱼ + yᵢyⱼ), 0) · c): the row and column
    broadcasts of r read r at i and at j, the product with the transpose reads x_j and y_j, and the clip is against 0. -/
theorem kmat_apply (x1 : (⟨S8192x2, .f32⟩ : BufTy).Contents (Elt Ideal)) (i j : Fin 8192) :
    val_main_v17 (F := Ideal) x1 (ix2 i j)
      = Cert.Spatial.ker (x1 (ix2 i 0)) (x1 (ix2 i 1)) (x1 (ix2 j 0)) (x1 (ix2 j 1)) := by
  have a0 : idx_main_v2 (idx_main_v4 (ix2 i j)) = ix1 i := funext fun a => Fin.ext (by match a with | ⟨0, _⟩ => rfl)
  have a1 : idx_main_v3 (idx_main_v5 (ix2 i j)) = ix1 j := funext fun a => Fin.ext (by match a with | ⟨0, _⟩ => rfl)
  have l0 : lidx_main_v8 (ix2 i j) 0 = ix2 i 0 := funext fun a => Fin.ext (by match a with | ⟨0, _⟩ => rfl | ⟨1, _⟩ => rfl)
  have l1 : lidx_main_v8 (ix2 i j) 1 = ix2 i 1 := funext fun a => Fin.ext (by match a with | ⟨0, _⟩ => rfl | ⟨1, _⟩ => rfl)
  have r0 : idx_main_v7 (ridx_main_v8 (ix2 i j) 0) = ix2 j 0 := funext fun a => Fin.ext (by match a with | ⟨0, _⟩ => rfl | ⟨1, _⟩ => rfl)
  have r1 : idx_main_v7 (ridx_main_v8 (ix2 i j) 1) = ix2 j 1 := funext fun a => Fin.ext (by match a with | ⟨0, _⟩ => rfl | ⟨1, _⟩ => rfl)
  rw [val_main_v17_apply, val_main_v16_apply, val_main_v15_apply, val_main_cst_2_apply, val_main_v14_apply, val_main_v13_apply,
    val_main_v12_apply, val_main_cst_1_apply, val_main_v11_apply, val_main_v10_apply, val_main_v9_apply, val_main_cst_0_apply,
    val_main_v8_apply, val_main_v6_apply, val_main_v5_apply, val_main_v4_apply, val_main_v3_apply, val_main_v2_apply,
    Fin.sum_univ_two, val_main_v7_apply, val_main_v7_apply, a0, a1, l0, l1, r0, r1, sqn_apply, sqn_apply]
  simp only [Ideal.hostUnary_exp_def, Ideal.mulf_def, Ideal.hostNegf_def, Ideal.negf_def, Ideal.maximumf_def, Ideal.subf_def,
    Ideal.addf_def, Ideal.ofBits_def, Ideal.ofBits_zero_f32]
  rfl

/-! ### The three aggregations, entry by entry -/

/-- Entry (i, q) of the first aggregation: Σ_r K(i, r) · x(r, q). -/
theorem agg1_apply (x0 : (⟨S8192x64, .f32⟩ : BufTy).Contents (Elt Ideal)) (x1 : (⟨S8192x2, .f32⟩ : BufTy).Contents (Elt Ideal)) (i : Fin 8192) (q : Fin 64) :
    val_main_v50 (F := Ideal) x0 x1 (ix2 i q)
      = Cert.Spatial.aggDense (x1 (ix2 i 0)) (x1 (ix2 i 1)) (fun r => x1 (ix2 r 0)) (fun r => x1 (ix2 r 1)) (fun r => x0 (ix2 r q)) := by
  rw [val_main_v50_apply]
  unfold Cert.Spatial.aggDense
  refine Finset.sum_congr rfl fun k _ => ?_
  have hl : lidx_main_v50 (ix2 i q) k = ix2 i k := funext fun a => Fin.ext (by match a with | ⟨0, _⟩ => rfl | ⟨1, _⟩ => rfl)
  have hr : ridx_main_v50 (ix2 i q) k = ix2 k q := funext fun a => Fin.ext (by match a with | ⟨0, _⟩ => rfl | ⟨1, _⟩ => rfl)
  rw [hl, hr, kmat_apply]

/-- Entry (i, q) of the second aggregation: Σ_r K(i, r) · h₁(r, q), h₁ the first layer's result. -/
theorem agg2_apply (x0 : (⟨S8192x64, .f32⟩ : BufTy).Contents (Elt Ideal)) (x1 : (⟨S8192x2, .f32⟩ : BufTy).Contents (Elt Ideal)) (x2 : (⟨S2x262144, .i32⟩ : BufTy).Contents (Elt Ideal)) (x3 : (⟨S64x32, .f32⟩ : BufTy).Contents (Elt Ideal)) (x4 : (⟨S32, .f32⟩ : BufTy).Contents (Elt Ideal)) (i : Fin 8192) (q : Fin 32) :
    val_main_v69 (F := Ideal) x0 x1 x2 x3 x4 (ix2 i q)
      = Cert.Spatial.aggDense (x1 (ix2 i 0)) (x1 (ix2 i 1)) (fun r => x1 (ix2 r 0)) (fun r => x1 (ix2 r 1))
          (fun r => val_main_v68 (F := Ideal) x0 x1 x2 x3 x4 (ix2 r q)) := by
  rw [val_main_v69_apply]
  unfold Cert.Spatial.aggDense
  refine Finset.sum_congr rfl fun k _ => ?_
  have hl : lidx_main_v69 (ix2 i q) k = ix2 i k := funext fun a => Fin.ext (by match a with | ⟨0, _⟩ => rfl | ⟨1, _⟩ => rfl)
  have hr : ridx_main_v69 (ix2 i q) k = ix2 k q := funext fun a => Fin.ext (by match a with | ⟨0, _⟩ => rfl | ⟨1, _⟩ => rfl)
  rw [hl, hr, kmat_apply]

/-- Entry (i, q) of the third aggregation: Σ_r K(i, r) · h₂(r, q), h₂ the second layer's result. -/
theorem agg3_apply (x0 : (⟨S8192x64, .f32⟩ : BufTy).Contents (Elt Ideal)) (x1 : (⟨S8192x2, .f32⟩ : BufTy).Contents (Elt Ideal)) (x2 : (⟨S2x262144, .i32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (i : Fin 8192) (q : Fin 32) :
    val_main_v88 (F := Ideal) x0 x1 x2 x3 x4 x5 x6 (ix2 i q)
      = Cert.Spatial.aggDense (x1 (ix2 i 0)) (x1 (ix2 i 1)) (fun r => x1 (ix2 r 0)) (fun r => x1 (ix2 r 1))
          (fun r => val_main_v87 (F := Ideal) x0 x1 x2 x3 x4 x5 x6 (ix2 r q)) := by
  rw [val_main_v88_apply]
  unfold Cert.Spatial.aggDense
  refine Finset.sum_congr rfl fun k _ => ?_
  have hl : lidx_main_v88 (ix2 i q) k = ix2 i k := funext fun a => Fin.ext (by match a with | ⟨0, _⟩ => rfl | ⟨1, _⟩ => rfl)
  have hr : ridx_main_v88 (ix2 i q) k = ix2 k q := funext fun a => Fin.ext (by match a with | ⟨0, _⟩ => rfl | ⟨1, _⟩ => rfl)
  rw [hl, hr, kmat_apply]

end Cert.ReferenceIdeal.RefAgg

end
-- ==== Proof.RefCompose.lean ====
import proofs.«105190_j88227218195280_1_alg».proof.Proof.RefValue
import proofs.«105190_j88227218195280_1_alg».proof.Proof.RefAgg
import proofs.«105190_j88227218195280_1_alg».proof.Proof.Net

/-!
The reference program's result, stage by stage, is the network's function of the nine argument arrays: each
of its three products with the dense weight matrix exp(−d² · c) is the dense aggregation, entry by entry, and
the operations between them are the network's layers.
-/

noncomputable section

namespace Cert.ReferenceIdeal.RefCompose

open Idealize.ShloMosaic Idealize.ShloMosaic.ValueIdx Cert.ReferenceIdeal Cert.ReferenceIdeal.ReadP Cert.Spatial

/-- The first product with the weight matrix is the dense aggregation of the input features. -/
theorem agg1_eq (x0 : (⟨S8192x64, .f32⟩ : BufTy).Contents (Elt Ideal)) (x1 : (⟨S8192x2, .f32⟩ : BufTy).Contents (Elt Ideal)) : val_main_v50 (F := Ideal) x0 x1 = aggD x1 x0 := by
  funext j
  exact (congrArg _ (eq_ix2 j)).trans (Cert.ReferenceIdeal.RefAgg.agg1_apply x0 x1 (j 0) (j 1))

/-- The second product is the dense aggregation of layer 1's features. -/
theorem agg2_eq (x0 : (⟨S8192x64, .f32⟩ : BufTy).Contents (Elt Ideal)) (x1 : (⟨S8192x2, .f32⟩ : BufTy).Contents (Elt Ideal)) (x2 : (⟨S2x262144, .i32⟩ : BufTy).Contents (Elt Ideal)) (x3 : (⟨S64x32, .f32⟩ : BufTy).Contents (Elt Ideal)) (x4 : (⟨S32, .f32⟩ : BufTy).Contents (Elt Ideal)) :
    val_main_v69 (F := Ideal) x0 x1 x2 x3 x4 = aggD x1 (val_main_v68 (F := Ideal) x0 x1 x2 x3 x4) := by
  funext j
  exact (congrArg _ (eq_ix2 j)).trans (Cert.ReferenceIdeal.RefAgg.agg2_apply x0 x1 x2 x3 x4 (j 0) (j 1))

/-- The third product is the dense aggregation of layer 2's features. -/
theorem agg3_eq (x0 : (⟨S8192x64, .f32⟩ : BufTy).Contents (Elt Ideal)) (x1 : (⟨S8192x2, .f32⟩ : BufTy).Contents (Elt Ideal)) (x2 : (⟨S2x262144, .i32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) :
    val_main_v88 (F := Ideal) x0 x1 x2 x3 x4 x5 x6 = aggD x1 (val_main_v87 (F := Ideal) x0 x1 x2 x3 x4 x5 x6) := by
  funext j
  exact (congrArg _ (eq_ix2 j)).trans (Cert.ReferenceIdeal.RefAgg.agg3_apply x0 x1 x2 x3 x4 x5 x6 (j 0) (j 1))

/-- The reference's result is the network's function of the arguments. -/
theorem ref_eq (x0 : (⟨S8192x64, .f32⟩ : BufTy).Contents (Elt Ideal)) (x1 : (⟨S8192x2, .f32⟩ : BufTy).Contents (Elt Ideal)) (x2 : (⟨S2x262144, .i32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x16, .f32⟩ : BufTy).Contents (Elt Ideal)) (x8 : (⟨S16, .f32⟩ : BufTy).Contents (Elt Ideal)) :
    val_main_v106 (F := Ideal) x0 x1 x2 x3 x4 x5 x6 x7 x8 = Cert.Net.out x0 x1 x2 x3 x4 x5 x6 x7 x8 := by
  rw [Cert.ReferenceIdeal.RefValue.stage3, agg3_eq, Cert.ReferenceIdeal.RefValue.stage2, agg2_eq,
    Cert.ReferenceIdeal.RefValue.stage1, agg1_eq]
  rfl

end Cert.ReferenceIdeal.RefCompose

end
-- ==== Proof.RefRunHand.lean ====
import proofs.«105190_j88227218195280_1_alg».proof.Proof.RefOps
import proofs.«105190_j88227218195280_1_alg».proof.Proof.RefStages
import Idealize.ShloMosaic.Lib.StableHlo.Run

/-!
The run of the reference program, read back stage by stage. The program is a straight line of 149 host
operations; its run leaves every buffer at the fold of the operations' results over the launch contents.
The line is cut into eight consecutive pieces: the kernel matrix; the edge list with self loops; the
in-degrees and d^{-1/2}; the weight of every edge; the three graph-convolution layers; the log-softmax.
After each piece, every buffer a later piece reads holds its stage value `val_…` of the arguments, and
the arguments hold what they held at launch. So the result buffer ends at `val_main_v106` of the arguments.
-/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The eight pieces -/

/-- Operations 1 … 22 of the 149. -/
abbrev chunk1 : List (HloOp τ sig (Elt F)) :=
  [ binary main_arg1 main_arg1 main_v0 (mulf : (⟨S8192x2, .f32⟩ : BufTy).Contents (Elt F) → (⟨S8192x2, .f32⟩ : BufTy).Contents (Elt F) → (⟨S8192x2, .f32⟩ : BufTy).Contents (Elt F)),
    nullary main_cst (constant S_ .f32 0x00000000#32),
    binary main_v0 main_cst main_v1 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v1 main_v3 (broadcastInDim S1x8192 ![1] bcast_S8192_S1x8192_1 : (⟨S8192, .f32⟩ : BufTy).Contents (Elt F) → (⟨S1x8192, .f32⟩ : BufTy).Contents (Elt F)),
    unary main_v2 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    unary main_arg1 main_v7 ((transpose S2x8192 [1, 0] · transposes_S8192x2_S2x8192_1_0) : (⟨S8192x2, .f32⟩ : BufTy).Contents (Elt F) → (⟨S2x8192, .f32⟩ : BufTy).Contents (Elt F)),
    binary main_arg1 main_v7 main_v8 ((fun l r => Host.dotGeneral dot_S8192x2_S2x8192_S8192x8192_1_0_0_1_n_n none l r) : (⟨S8192x2, .f32⟩ : BufTy).Contents (Elt F) → (⟨S2x8192, .f32⟩ : BufTy).Contents (Elt F) → (⟨S8192x8192, .f32⟩ : BufTy).Contents (Elt F)),
    nullary main_cst_0 (constant S_ .f32 0x40000000#32),
    unary main_cst_0 main_v9 (broadcastInDim S8192x8192 ![] bcast_S_S8192x8192 : (⟨S_, .f32⟩ : BufTy).Contents (Elt F) → (⟨S8192x8192, .f32⟩ : BufTy).Contents (Elt F)),
    binary main_v9 main_v8 main_v10 (mulf : (⟨S8192x8192, .f32⟩ : BufTy).Contents (Elt F) → (⟨S8192x8192, .f32⟩ : BufTy).Contents (Elt F) → (⟨S8192x8192, .f32⟩ : BufTy).Contents (Elt F)),
    binary main_v6 main_v10 main_v11 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x00000000#32),
    unary main_cst_1 main_v12 (broadcastInDim S8192x8192 ![] bcast_S_S8192x8192 : (⟨S_, .f32⟩ : BufTy).Contents (Elt F) → (⟨S8192x8192, .f32⟩ : BufTy).Contents (Elt F)),
    binary main_v11 main_v12 main_v13 (maximumf : (⟨S8192x8192, .f32⟩ : BufTy).Contents (Elt F) → (⟨S8192x8192, .f32⟩ : BufTy).Contents (Elt F) → (⟨S8192x8192, .f32⟩ : BufTy).Contents (Elt F)),
    unary main_v13 main_v14 (Host.negf : (⟨S8192x8192, .f32⟩ : BufTy).Contents (Elt F) → (⟨S8192x8192, .f32⟩ : BufTy).Contents (Elt F)),
    nullary main_cst_2 (constant S_ .f32 0x350637BD#32),
    unary main_cst_2 main_v15 (broadcastInDim S8192x8192 ![] bcast_S_S8192x8192 : (⟨S_, .f32⟩ : BufTy).Contents (Elt F) → (⟨S8192x8192, .f32⟩ : BufTy).Contents (Elt F)),
    binary main_v14 main_v15 main_v16 (mulf : (⟨S8192x8192, .f32⟩ : BufTy).Contents (Elt F) → (⟨S8192x8192, .f32⟩ : BufTy).Contents (Elt F) → (⟨S8192x8192, .f32⟩ : BufTy).Contents (Elt F)),
    unary main_v16 main_v17 (Host.exp : (⟨S8192x8192, .f32⟩ : BufTy).Contents (Elt F) → (⟨S8192x8192, .f32⟩ : BufTy).Contents (Elt F)) ]

/-- Operations 23 … 29 of the 149. -/
abbrev chunk2 : List (HloOp τ sig (Elt F)) :=
  [ nullary main_v18 (iotaInDim S8192 32 0),
    unary main_arg2 main_v19 ((extractStridedSlice S1x262144 ![0, 0] · slices_S2x262144_S1x262144_0_0) : (⟨S2x262144, .i32⟩ : BufTy).Contents (Elt F) → (⟨S1x262144, .i32⟩ : BufTy).Contents (Elt F)),
    reshape main_v19 main_v20 rfl shapeCasts_S1x262144_S262144,
    binary main_v20 main_v18 main_v21 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    unary main_arg2 main_v22 ((extractStridedSlice S1x262144 ![1, 0] · slices_S2x262144_S1x262144_1_0) : (⟨S2x262144, .i32⟩ : BufTy).Contents (Elt F) → (⟨S1x262144, .i32⟩ : BufTy).Contents (Elt F)),
    reshape main_v22 main_v23 rfl shapeCasts_S1x262144_S262144,
    binary main_v23 main_v18 main_v24 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)) ]

/-- Operations 30 … 46 of the 149. -/
abbrev chunk3 : List (HloOp τ sig (Elt F)) :=
  [ nullary main_cst_3 (constant S_ .f32 0x3F800000#32),
    unary main_cst_3 main_v25 (broadcastInDim S270336 ![] bcast_S_S270336 : (⟨S_, .f32⟩ : BufTy).Contents (Elt F) → (⟨S270336, .f32⟩ : BufTy).Contents (Elt F)),
    nullary main_cst_4 (constant S_ .f32 0x00000000#32),
    unary main_cst_4 main_v26 (broadcastInDim S8192 ![] bcast_S_S8192 : (⟨S_, .f32⟩ : BufTy).Contents (Elt F) → (⟨S8192, .f32⟩ : BufTy).Contents (Elt F)),
    unary main_v24 main_v27 (broadcastInDim S270336x1 ![0] bcast_S270336_S270336x1_0 : (⟨S270336, .i32⟩ : BufTy).Contents (Elt F) → (⟨S270336x1, .i32⟩ : BufTy).Contents (Elt F)),
    ternary main_v26 main_v27 main_v25 main_v28 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_5 (constant S_ .f32 0x00000000#32),
    unary main_cst_5 main_v29 (broadcastInDim S8192 ![] bcast_S_S8192 : (⟨S_, .f32⟩ : BufTy).Contents (Elt F) → (⟨S8192, .f32⟩ : BufTy).Contents (Elt F)),
    binary main_v28 main_v29 main_v30 (cmpf .ogt : (⟨S8192, .f32⟩ : BufTy).Contents (Elt F) → (⟨S8192, .f32⟩ : BufTy).Contents (Elt F) → (⟨S8192, .i1⟩ : BufTy).Contents (Elt F)),
    nullary main_cst_6 (constant S_ .f32 0x2B8CBCCC#32),
    unary main_cst_6 main_v31 (broadcastInDim S8192 ![] bcast_S_S8192 : (⟨S_, .f32⟩ : BufTy).Contents (Elt F) → (⟨S8192, .f32⟩ : BufTy).Contents (Elt F)),
    binary main_v28 main_v31 main_v32 (maximumf : (⟨S8192, .f32⟩ : BufTy).Contents (Elt F) → (⟨S8192, .f32⟩ : BufTy).Contents (Elt F) → (⟨S8192, .f32⟩ : BufTy).Contents (Elt F)),
    unary main_v32 main_v33 (Host.rsqrt : (⟨S8192, .f32⟩ : BufTy).Contents (Elt F) → (⟨S8192, .f32⟩ : BufTy).Contents (Elt F)),
    nullary main_cst_7 (constant S_ .f32 0x00000000#32),
    TRef.unary (TRef.of (T := ⟨S_, .f32⟩) main_cst_7) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v30) (TRef.of (T := ⟨S8192, .f32⟩) main_v33) (TRef.of (T := ⟨S8192, .f32⟩) main_call0_v1) (TRef.of (T := ⟨S8192, .f32⟩) main_v34) select ]

/-- Operations 47 … 65 of the 149. -/
abbrev chunk4 : List (HloOp τ sig (Elt F)) :=
  [ nullary main_c (constantI S_ 32 0#32),
    unary main_c main_v35 (broadcastInDim S270336 ![] bcast_S_S270336 : (⟨S_, .i32⟩ : BufTy).Contents (Elt F) → (⟨S270336, .i32⟩ : BufTy).Contents (Elt F)),
    binary main_v21 main_v35 main_v36 (cmpi .slt : (⟨S270336, .i32⟩ : BufTy).Contents (Elt F) → (⟨S270336, .i32⟩ : BufTy).Contents (Elt F) → (⟨S270336, .i1⟩ : BufTy).Contents (Elt F)),
    nullary main_c_8 (constantI S_ 32 8192#32),
    unary main_c_8 main_v37 (broadcastInDim S270336 ![] bcast_S_S270336 : (⟨S_, .i32⟩ : BufTy).Contents (Elt F) → (⟨S270336, .i32⟩ : BufTy).Contents (Elt F)),
    binary main_v21 main_v37 main_v38 (addi : (⟨S270336, .i32⟩ : BufTy).Contents (Elt F) → (⟨S270336, .i32⟩ : BufTy).Contents (Elt F) → (⟨S270336, .i32⟩ : BufTy).Contents (Elt F)),
    ternary main_v36 main_v38 main_v21 main_v39 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v39 main_v40 (broadcastInDim S270336x1 ![0] bcast_S270336_S270336x1_0 : (⟨S270336, .i32⟩ : BufTy).Contents (Elt F) → (⟨S270336x1, .i32⟩ : BufTy).Contents (Elt F)),
    binary main_v34 main_v40 main_v41 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_9 (constantI S_ 32 0#32),
    unary main_c_9 main_v42 (broadcastInDim S270336 ![] bcast_S_S270336 : (⟨S_, .i32⟩ : BufTy).Contents (Elt F) → (⟨S270336, .i32⟩ : BufTy).Contents (Elt F)),
    binary main_v24 main_v42 main_v43 (cmpi .slt : (⟨S270336, .i32⟩ : BufTy).Contents (Elt F) → (⟨S270336, .i32⟩ : BufTy).Contents (Elt F) → (⟨S270336, .i1⟩ : BufTy).Contents (Elt F)),
    nullary main_c_10 (constantI S_ 32 8192#32),
    unary main_c_10 main_v44 (broadcastInDim S270336 ![] bcast_S_S270336 : (⟨S_, .i32⟩ : BufTy).Contents (Elt F) → (⟨S270336, .i32⟩ : BufTy).Contents (Elt F)),
    binary main_v24 main_v44 main_v45 (addi : (⟨S270336, .i32⟩ : BufTy).Contents (Elt F) → (⟨S270336, .i32⟩ : BufTy).Contents (Elt F) → (⟨S270336, .i32⟩ : BufTy).Contents (Elt F)),
    ternary main_v43 main_v45 main_v24 main_v46 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v46 main_v47 (broadcastInDim S270336x1 ![0] bcast_S270336_S270336x1_0 : (⟨S270336, .i32⟩ : BufTy).Contents (Elt F) → (⟨S270336x1, .i32⟩ : BufTy).Contents (Elt F)),
    binary main_v34 main_v47 main_v48 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v41 main_v48 main_v49 (mulf : (⟨S270336, .f32⟩ : BufTy).Contents (Elt F) → (⟨S270336, .f32⟩ : BufTy).Contents (Elt F) → (⟨S270336, .f32⟩ : BufTy).Contents (Elt F)) ]

/-- Operations 66 … 89 of the 149. -/
abbrev chunk5 : List (HloOp τ sig (Elt F)) :=
  [ binary main_v17 main_arg0 main_v50 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    binary main_v50 main_arg3 main_v51 ((fun l r => Host.dotGeneral dot_S8192x64_S64x32_S8192x32_1_0_0_1_n_n none l r) : (⟨S8192x64, .f32⟩ : BufTy).Contents (Elt F) → (⟨S64x32, .f32⟩ : BufTy).Contents (Elt F) → (⟨S8192x32, .f32⟩ : BufTy).Contents (Elt F)),
    nullary main_c_11 (constantI S_ 32 0#32),
    unary main_c_11 main_v52 (broadcastInDim S270336 ![] bcast_S_S270336 : (⟨S_, .i32⟩ : BufTy).Contents (Elt F) → (⟨S270336, .i32⟩ : BufTy).Contents (Elt F)),
    binary main_v21 main_v52 main_v53 (cmpi .slt : (⟨S270336, .i32⟩ : BufTy).Contents (Elt F) → (⟨S270336, .i32⟩ : BufTy).Contents (Elt F) → (⟨S270336, .i1⟩ : BufTy).Contents (Elt F)),
    nullary main_c_12 (constantI S_ 32 8192#32),
    unary main_c_12 main_v54 (broadcastInDim S270336 ![] bcast_S_S270336 : (⟨S_, .i32⟩ : BufTy).Contents (Elt F) → (⟨S270336, .i32⟩ : BufTy).Contents (Elt F)),
    binary main_v21 main_v54 main_v55 (addi : (⟨S270336, .i32⟩ : BufTy).Contents (Elt F) → (⟨S270336, .i32⟩ : BufTy).Contents (Elt F) → (⟨S270336, .i32⟩ : BufTy).Contents (Elt F)),
    ternary main_v53 main_v55 main_v21 main_v56 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v56 main_v57 (broadcastInDim S270336x1 ![0] bcast_S270336_S270336x1_0 : (⟨S270336, .i32⟩ : BufTy).Contents (Elt F) → (⟨S270336x1, .i32⟩ : BufTy).Contents (Elt F)),
    binary main_v51 main_v57 main_v58 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v49 main_v59 (broadcastInDim S270336x1 ![0] bcast_S270336_S270336x1_0 : (⟨S270336, .f32⟩ : BufTy).Contents (Elt F) → (⟨S270336x1, .f32⟩ : BufTy).Contents (Elt F)),
    unary main_v59 main_v60 (broadcastInDim S270336x32 ![0, 1] bcast_S270336x1_S270336x32_0_1 : (⟨S270336x1, .f32⟩ : BufTy).Contents (Elt F) → (⟨S270336x32, .f32⟩ : BufTy).Contents (Elt F)),
    binary main_v58 main_v60 main_v61 (mulf : (⟨S270336x32, .f32⟩ : BufTy).Contents (Elt F) → (⟨S270336x32, .f32⟩ : BufTy).Contents (Elt F) → (⟨S270336x32, .f32⟩ : BufTy).Contents (Elt F)),
    nullary main_cst_13 (constant S_ .f32 0x00000000#32),
    unary main_cst_13 main_v62 (broadcastInDim S8192x32 ![] bcast_S_S8192x32 : (⟨S_, .f32⟩ : BufTy).Contents (Elt F) → (⟨S8192x32, .f32⟩ : BufTy).Contents (Elt F)),
    unary main_v24 main_v63 (broadcastInDim S270336x1 ![0] bcast_S270336_S270336x1_0 : (⟨S270336, .i32⟩ : BufTy).Contents (Elt F) → (⟨S270336x1, .i32⟩ : BufTy).Contents (Elt F)),
    ternary main_v62 main_v63 main_v61 main_v64 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg4 main_v65 (broadcastInDim S1x32 ![1] bcast_S32_S1x32_1 : (⟨S32, .f32⟩ : BufTy).Contents (Elt F) → (⟨S1x32, .f32⟩ : BufTy).Contents (Elt F)),
    unary main_v65 main_v66 (broadcastInDim S8192x32 ![0, 1] bcast_S1x32_S8192x32_0_1 : (⟨S1x32, .f32⟩ : BufTy).Contents (Elt F) → (⟨S8192x32, .f32⟩ : BufTy).Contents (Elt F)),
    binary main_v64 main_v66 main_v67 (addf : (⟨S8192x32, .f32⟩ : BufTy).Contents (Elt F) → (⟨S8192x32, .f32⟩ : BufTy).Contents (Elt F) → (⟨S8192x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x32, .f32⟩) main_call1_v0) (broadcastInDim S8192x32 ![] bcast_S_S8192x32),
    TRef.binary (TRef.of (T := ⟨S8192x32, .f32⟩) main_v67) (TRef.of (T := ⟨S8192x32, .f32⟩) main_call1_v0) (TRef.of (T := ⟨S8192x32, .f32⟩) main_v68) maximumf ]

/-- Operations 90 … 113 of the 149. -/
abbrev chunk6 : List (HloOp τ sig (Elt F)) :=
  [ binary main_v17 main_v68 main_v69 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    binary main_v69 main_arg5 main_v70 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    nullary main_c_14 (constantI S_ 32 0#32),
    unary main_c_14 main_v71 (broadcastInDim S270336 ![] bcast_S_S270336 : (⟨S_, .i32⟩ : BufTy).Contents (Elt F) → (⟨S270336, .i32⟩ : BufTy).Contents (Elt F)),
    binary main_v21 main_v71 main_v72 (cmpi .slt : (⟨S270336, .i32⟩ : BufTy).Contents (Elt F) → (⟨S270336, .i32⟩ : BufTy).Contents (Elt F) → (⟨S270336, .i1⟩ : BufTy).Contents (Elt F)),
    nullary main_c_15 (constantI S_ 32 8192#32),
    unary main_c_15 main_v73 (broadcastInDim S270336 ![] bcast_S_S270336 : (⟨S_, .i32⟩ : BufTy).Contents (Elt F) → (⟨S270336, .i32⟩ : BufTy).Contents (Elt F)),
    binary main_v21 main_v73 main_v74 (addi : (⟨S270336, .i32⟩ : BufTy).Contents (Elt F) → (⟨S270336, .i32⟩ : BufTy).Contents (Elt F) → (⟨S270336, .i32⟩ : BufTy).Contents (Elt F)),
    ternary main_v72 main_v74 main_v21 main_v75 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v75 main_v76 (broadcastInDim S270336x1 ![0] bcast_S270336_S270336x1_0 : (⟨S270336, .i32⟩ : BufTy).Contents (Elt F) → (⟨S270336x1, .i32⟩ : BufTy).Contents (Elt F)),
    binary main_v70 main_v76 main_v77 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v49 main_v78 (broadcastInDim S270336x1 ![0] bcast_S270336_S270336x1_0 : (⟨S270336, .f32⟩ : BufTy).Contents (Elt F) → (⟨S270336x1, .f32⟩ : BufTy).Contents (Elt F)),
    unary main_v78 main_v79 (broadcastInDim S270336x32 ![0, 1] bcast_S270336x1_S270336x32_0_1 : (⟨S270336x1, .f32⟩ : BufTy).Contents (Elt F) → (⟨S270336x32, .f32⟩ : BufTy).Contents (Elt F)),
    binary main_v77 main_v79 main_v80 (mulf : (⟨S270336x32, .f32⟩ : BufTy).Contents (Elt F) → (⟨S270336x32, .f32⟩ : BufTy).Contents (Elt F) → (⟨S270336x32, .f32⟩ : BufTy).Contents (Elt F)),
    nullary main_cst_16 (constant S_ .f32 0x00000000#32),
    unary main_cst_16 main_v81 (broadcastInDim S8192x32 ![] bcast_S_S8192x32 : (⟨S_, .f32⟩ : BufTy).Contents (Elt F) → (⟨S8192x32, .f32⟩ : BufTy).Contents (Elt F)),
    unary main_v24 main_v82 (broadcastInDim S270336x1 ![0] bcast_S270336_S270336x1_0 : (⟨S270336, .i32⟩ : BufTy).Contents (Elt F) → (⟨S270336x1, .i32⟩ : BufTy).Contents (Elt F)),
    ternary main_v81 main_v82 main_v80 main_v83 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg6 main_v84 (broadcastInDim S1x32 ![1] bcast_S32_S1x32_1 : (⟨S32, .f32⟩ : BufTy).Contents (Elt F) → (⟨S1x32, .f32⟩ : BufTy).Contents (Elt F)),
    unary main_v84 main_v85 (broadcastInDim S8192x32 ![0, 1] bcast_S1x32_S8192x32_0_1 : (⟨S1x32, .f32⟩ : BufTy).Contents (Elt F) → (⟨S8192x32, .f32⟩ : BufTy).Contents (Elt F)),
    binary main_v83 main_v85 main_v86 (addf : (⟨S8192x32, .f32⟩ : BufTy).Contents (Elt F) → (⟨S8192x32, .f32⟩ : BufTy).Contents (Elt F) → (⟨S8192x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x32, .f32⟩) main_call2_v0) (broadcastInDim S8192x32 ![] bcast_S_S8192x32),
    TRef.binary (TRef.of (T := ⟨S8192x32, .f32⟩) main_v86) (TRef.of (T := ⟨S8192x32, .f32⟩) main_call2_v0) (TRef.of (T := ⟨S8192x32, .f32⟩) main_v87) maximumf ]

/-- Operations 114 … 134 of the 149. -/
abbrev chunk7 : List (HloOp τ sig (Elt F)) :=
  [ binary main_v17 main_v87 main_v88 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    binary main_v88 main_arg7 main_v89 ((fun l r => Host.dotGeneral dot_S8192x32_S32x16_S8192x16_1_0_0_1_n_n none l r) : (⟨S8192x32, .f32⟩ : BufTy).Contents (Elt F) → (⟨S32x16, .f32⟩ : BufTy).Contents (Elt F) → (⟨S8192x16, .f32⟩ : BufTy).Contents (Elt F)),
    nullary main_c_17 (constantI S_ 32 0#32),
    unary main_c_17 main_v90 (broadcastInDim S270336 ![] bcast_S_S270336 : (⟨S_, .i32⟩ : BufTy).Contents (Elt F) → (⟨S270336, .i32⟩ : BufTy).Contents (Elt F)),
    binary main_v21 main_v90 main_v91 (cmpi .slt : (⟨S270336, .i32⟩ : BufTy).Contents (Elt F) → (⟨S270336, .i32⟩ : BufTy).Contents (Elt F) → (⟨S270336, .i1⟩ : BufTy).Contents (Elt F)),
    nullary main_c_18 (constantI S_ 32 8192#32),
    unary main_c_18 main_v92 (broadcastInDim S270336 ![] bcast_S_S270336 : (⟨S_, .i32⟩ : BufTy).Contents (Elt F) → (⟨S270336, .i32⟩ : BufTy).Contents (Elt F)),
    binary main_v21 main_v92 main_v93 (addi : (⟨S270336, .i32⟩ : BufTy).Contents (Elt F) → (⟨S270336, .i32⟩ : BufTy).Contents (Elt F) → (⟨S270336, .i32⟩ : BufTy).Contents (Elt F)),
    ternary main_v91 main_v93 main_v21 main_v94 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v94 main_v95 (broadcastInDim S270336x1 ![0] bcast_S270336_S270336x1_0 : (⟨S270336, .i32⟩ : BufTy).Contents (Elt F) → (⟨S270336x1, .i32⟩ : BufTy).Contents (Elt F)),
    binary main_v89 main_v95 main_v96 ((fun x i => Host.gather gather_S8192x16_S270336x1_S270336x16_1_0_n_n_0_1_116 x i) : (⟨S8192x16, .f32⟩ : BufTy).Contents (Elt F) → (⟨S270336x1, .i32⟩ : BufTy).Contents (Elt F) → (⟨S270336x16, .f32⟩ : BufTy).Contents (Elt F)),
    unary main_v49 main_v97 (broadcastInDim S270336x1 ![0] bcast_S270336_S270336x1_0 : (⟨S270336, .f32⟩ : BufTy).Contents (Elt F) → (⟨S270336x1, .f32⟩ : BufTy).Contents (Elt F)),
    unary main_v97 main_v98 (broadcastInDim S270336x16 ![0, 1] bcast_S270336x1_S270336x16_0_1 : (⟨S270336x1, .f32⟩ : BufTy).Contents (Elt F) → (⟨S270336x16, .f32⟩ : BufTy).Contents (Elt F)),
    binary main_v96 main_v98 main_v99 (mulf : (⟨S270336x16, .f32⟩ : BufTy).Contents (Elt F) → (⟨S270336x16, .f32⟩ : BufTy).Contents (Elt F) → (⟨S270336x16, .f32⟩ : BufTy).Contents (Elt F)),
    nullary main_cst_19 (constant S_ .f32 0x00000000#32),
    unary main_cst_19 main_v100 (broadcastInDim S8192x16 ![] bcast_S_S8192x16 : (⟨S_, .f32⟩ : BufTy).Contents (Elt F) → (⟨S8192x16, .f32⟩ : BufTy).Contents (Elt F)),
    unary main_v24 main_v101 (broadcastInDim S270336x1 ![0] bcast_S270336_S270336x1_0 : (⟨S270336, .i32⟩ : BufTy).Contents (Elt F) → (⟨S270336x1, .i32⟩ : BufTy).Contents (Elt F)),
    ternary main_v100 main_v101 main_v99 main_v102 ((fun x i u => Host.scatterAdd scatter_S8192x16_S270336x1_S270336x16_1_0_0_1 x i u) : (⟨S8192x16, .f32⟩ : BufTy).Contents (Elt F) → (⟨S270336x1, .i32⟩ : BufTy).Contents (Elt F) → (⟨S270336x16, .f32⟩ : BufTy).Contents (Elt F) → (⟨S8192x16, .f32⟩ : BufTy).Contents (Elt F)),
    unary main_arg8 main_v103 (broadcastInDim S1x16 ![1] bcast_S16_S1x16_1 : (⟨S16, .f32⟩ : BufTy).Contents (Elt F) → (⟨S1x16, .f32⟩ : BufTy).Contents (Elt F)),
    unary main_v103 main_v104 (broadcastInDim S8192x16 ![0, 1] bcast_S1x16_S8192x16_0_1 : (⟨S1x16, .f32⟩ : BufTy).Contents (Elt F) → (⟨S8192x16, .f32⟩ : BufTy).Contents (Elt F)),
    binary main_v102 main_v104 main_v105 (addf : (⟨S8192x16, .f32⟩ : BufTy).Contents (Elt F) → (⟨S8192x16, .f32⟩ : BufTy).Contents (Elt F) → (⟨S8192x16, .f32⟩ : BufTy).Contents (Elt F)) ]

/-- Operations 135 … 149 of the 149. -/
abbrev chunk8 : List (HloOp τ sig (Elt F)) :=
  [ TRef.nullary (TRef.of (T := ⟨S_, .f32⟩) main_call3_cst) (constant S_ .f32 0xFF800000#32),
    TRef.binary (TRef.of (T := ⟨S8192x16, .f32⟩) main_v105) (TRef.of (T := ⟨S_, .f32⟩) main_call3_cst) (TRef.of (T := ⟨S8192, .f32⟩) main_call3_v0) (fun x v => Host.reduce FloatOps.maximumf x v reducesTo_S8192x16_S8192_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S8192, .f32⟩) main_call3_v1) (broadcastInDim S8192 ![] bcast_S_S8192),
    TRef.binary (TRef.of (T := ⟨S8192, .f32⟩) main_call3_v1) (TRef.of (T := ⟨S8192, .f32⟩) main_call3_v0) (TRef.of (T := ⟨S8192, .f32⟩) main_call3_v2) maximumf,
    TRef.unary (TRef.of (T := ⟨S8192, .f32⟩) main_call3_v2) (TRef.of (T := ⟨S8192x1, .f32⟩) main_call3_v3) (broadcastInDim S8192x1 ![0] bcast_S8192_S8192x1_0),
    TRef.unary (TRef.of (T := ⟨S8192x1, .f32⟩) main_call3_v3) (TRef.of (T := ⟨S8192x16, .f32⟩) main_call3_v4) (broadcastInDim S8192x16 ![0, 1] bcast_S8192x1_S8192x16_0_1),
    TRef.binary (TRef.of (T := ⟨S8192x16, .f32⟩) main_v105) (TRef.of (T := ⟨S8192x16, .f32⟩) main_call3_v4) (TRef.of (T := ⟨S8192x16, .f32⟩) main_call3_v5) subf,
    TRef.unary (TRef.of (T := ⟨S8192x16, .f32⟩) main_call3_v5) (TRef.of (T := ⟨S8192x16, .f32⟩) main_call3_v6) Host.exp,
    TRef.nullary (TRef.of (T := ⟨S_, .f32⟩) main_call3_cst_1) (constant S_ .f32 0x00000000#32),
    TRef.binary (TRef.of (T := ⟨S8192x16, .f32⟩) main_call3_v6) (TRef.of (T := ⟨S_, .f32⟩) main_call3_cst_1) (TRef.of (T := ⟨S8192, .f32⟩) main_call3_v7) (fun x v => Host.reduceAdd x v reducesTo_S8192x16_S8192_d1 h_S_),
    TRef.unary (TRef.of (T := ⟨S8192, .f32⟩) main_call3_v7) (TRef.of (T := ⟨S8192x1, .f32⟩) main_call3_v8) (broadcastInDim S8192x1 ![0] bcast_S8192_S8192x1_0),
    TRef.unary (TRef.of (T := ⟨S8192x1, .f32⟩) main_call3_v8) (TRef.of (T := ⟨S8192x1, .f32⟩) main_call3_v9) Host.log,
    TRef.unary (TRef.of (T := ⟨S8192x1, .f32⟩) main_call3_v9) (TRef.of (T := ⟨S8192x16, .f32⟩) main_call3_v10) (broadcastInDim S8192x16 ![0, 1] bcast_S8192x1_S8192x16_0_1),
    TRef.binary (TRef.of (T := ⟨S8192x16, .f32⟩) main_call3_v5) (TRef.of (T := ⟨S8192x16, .f32⟩) main_call3_v10) (TRef.of (T := ⟨S8192x16, .f32⟩) main_v106) subf ]

set_option maxRecDepth 8192 in
set_option maxHeartbeats 4000000 in
/-- The line is its pieces in order. -/
theorem ops_eq : (ops : List (HloOp τ sig (Elt F))) = chunk1 ++ (chunk2 ++ (chunk3 ++ (chunk4 ++ (chunk5 ++ (chunk6 ++ (chunk7 ++ (chunk8))))))) := rfl

/-- The fold over the line is the pieces' folds in turn. -/
theorem after_ops (V : Valuation τ sig (Elt F)) :
    after ops V = after chunk8 (after chunk7 (after chunk6 (after chunk5 (after chunk4 (after chunk3 (after chunk2 (after chunk1 (V)))))))) := by
  rw [ops_eq]; simp only [after_append]

/-! ## What each piece leaves alone -/

abbrev chunk1_W : List (Ref sig .tc) := [main_v0, main_cst, main_v1, main_v2, main_v3, main_v4, main_v5, main_v6, main_v7, main_v8, main_cst_0, main_v9, main_v10, main_v11, main_cst_1, main_v12, main_v13, main_v14, main_cst_2, main_v15, main_v16, main_v17]
theorem chunk1_writes : (chunk1 : List (HloOp τ sig (Elt F))).Forall fun op => op.writes ⊆ (chunk1_W.map (Proc.devRef (τ := τ) .tc)).toFinset := by
  simp only [chunk1, List.Forall]
  repeat' apply And.intro
  all_goals (simp only [nullary_writes, unary_writes, binary_writes, ternary_writes, quaternary_writes, reshape_writes, Finset.singleton_subset_iff, List.mem_toFinset]; exact List.mem_map_of_mem (by decide))
/-- A buffer the piece does not write holds after it what it held before. -/
theorem chunk1_keep (V : Valuation τ sig (Elt F)) (r : Ref sig .tc) (h : r ∉ chunk1_W) :
    after chunk1 V (Proc.devRef .tc r) = V (Proc.devRef .tc r) :=
  after_of_writes_sub chunk1 V chunk1_writes h

abbrev chunk2_W : List (Ref sig .tc) := [main_v18, main_v19, main_v20, main_v21, main_v22, main_v23, main_v24]
theorem chunk2_writes : (chunk2 : List (HloOp τ sig (Elt F))).Forall fun op => op.writes ⊆ (chunk2_W.map (Proc.devRef (τ := τ) .tc)).toFinset := by
  simp only [chunk2, List.Forall]
  repeat' apply And.intro
  all_goals (simp only [nullary_writes, unary_writes, binary_writes, ternary_writes, quaternary_writes, reshape_writes, Finset.singleton_subset_iff, List.mem_toFinset]; exact List.mem_map_of_mem (by decide))
/-- A buffer the piece does not write holds after it what it held before. -/
theorem chunk2_keep (V : Valuation τ sig (Elt F)) (r : Ref sig .tc) (h : r ∉ chunk2_W) :
    after chunk2 V (Proc.devRef .tc r) = V (Proc.devRef .tc r) :=
  after_of_writes_sub chunk2 V chunk2_writes h

abbrev chunk3_W : List (Ref sig .tc) := [main_cst_3, main_v25, main_cst_4, main_v26, main_v27, main_v28, main_cst_5, main_v29, main_v30, main_cst_6, main_v31, main_v32, main_v33, main_cst_7, main_call0_v0, main_call0_v1, main_v34]
theorem chunk3_writes : (chunk3 : List (HloOp τ sig (Elt F))).Forall fun op => op.writes ⊆ (chunk3_W.map (Proc.devRef (τ := τ) .tc)).toFinset := by
  simp only [chunk3, List.Forall]
  repeat' apply And.intro
  all_goals (simp only [nullary_writes, unary_writes, binary_writes, ternary_writes, quaternary_writes, reshape_writes, Finset.singleton_subset_iff, List.mem_toFinset]; exact List.mem_map_of_mem (by decide))
/-- A buffer the piece does not write holds after it what it held before. -/
theorem chunk3_keep (V : Valuation τ sig (Elt F)) (r : Ref sig .tc) (h : r ∉ chunk3_W) :
    after chunk3 V (Proc.devRef .tc r) = V (Proc.devRef .tc r) :=
  after_of_writes_sub chunk3 V chunk3_writes h

abbrev chunk4_W : List (Ref sig .tc) := [main_c, main_v35, main_v36, main_c_8, main_v37, main_v38, main_v39, main_v40, main_v41, main_c_9, main_v42, main_v43, main_c_10, main_v44, main_v45, main_v46, main_v47, main_v48, main_v49]
theorem chunk4_writes : (chunk4 : List (HloOp τ sig (Elt F))).Forall fun op => op.writes ⊆ (chunk4_W.map (Proc.devRef (τ := τ) .tc)).toFinset := by
  simp only [chunk4, List.Forall]
  repeat' apply And.intro
  all_goals (simp only [nullary_writes, unary_writes, binary_writes, ternary_writes, quaternary_writes, reshape_writes, Finset.singleton_subset_iff, List.mem_toFinset]; exact List.mem_map_of_mem (by decide))
/-- A buffer the piece does not write holds after it what it held before. -/
theorem chunk4_keep (V : Valuation τ sig (Elt F)) (r : Ref sig .tc) (h : r ∉ chunk4_W) :
    after chunk4 V (Proc.devRef .tc r) = V (Proc.devRef .tc r) :=
  after_of_writes_sub chunk4 V chunk4_writes h

abbrev chunk5_W : List (Ref sig .tc) := [main_v50, main_v51, main_c_11, main_v52, main_v53, main_c_12, main_v54, main_v55, main_v56, main_v57, main_v58, main_v59, main_v60, main_v61, main_cst_13, main_v62, main_v63, main_v64, main_v65, main_v66, main_v67, main_call1_cst, main_call1_v0, main_v68]
theorem chunk5_writes : (chunk5 : List (HloOp τ sig (Elt F))).Forall fun op => op.writes ⊆ (chunk5_W.map (Proc.devRef (τ := τ) .tc)).toFinset := by
  simp only [chunk5, List.Forall]
  repeat' apply And.intro
  all_goals (simp only [nullary_writes, unary_writes, binary_writes, ternary_writes, quaternary_writes, reshape_writes, Finset.singleton_subset_iff, List.mem_toFinset]; exact List.mem_map_of_mem (by decide))
/-- A buffer the piece does not write holds after it what it held before. -/
theorem chunk5_keep (V : Valuation τ sig (Elt F)) (r : Ref sig .tc) (h : r ∉ chunk5_W) :
    after chunk5 V (Proc.devRef .tc r) = V (Proc.devRef .tc r) :=
  after_of_writes_sub chunk5 V chunk5_writes h

abbrev chunk6_W : List (Ref sig .tc) := [main_v69, main_v70, main_c_14, main_v71, main_v72, main_c_15, main_v73, main_v74, main_v75, main_v76, main_v77, main_v78, main_v79, main_v80, main_cst_16, main_v81, main_v82, main_v83, main_v84, main_v85, main_v86, main_call2_cst, main_call2_v0, main_v87]
theorem chunk6_writes : (chunk6 : List (HloOp τ sig (Elt F))).Forall fun op => op.writes ⊆ (chunk6_W.map (Proc.devRef (τ := τ) .tc)).toFinset := by
  simp only [chunk6, List.Forall]
  repeat' apply And.intro
  all_goals (simp only [nullary_writes, unary_writes, binary_writes, ternary_writes, quaternary_writes, reshape_writes, Finset.singleton_subset_iff, List.mem_toFinset]; exact List.mem_map_of_mem (by decide))
/-- A buffer the piece does not write holds after it what it held before. -/
theorem chunk6_keep (V : Valuation τ sig (Elt F)) (r : Ref sig .tc) (h : r ∉ chunk6_W) :
    after chunk6 V (Proc.devRef .tc r) = V (Proc.devRef .tc r) :=
  after_of_writes_sub chunk6 V chunk6_writes h

abbrev chunk7_W : List (Ref sig .tc) := [main_v88, main_v89, main_c_17, main_v90, main_v91, main_c_18, main_v92, main_v93, main_v94, main_v95, main_v96, main_v97, main_v98, main_v99, main_cst_19, main_v100, main_v101, main_v102, main_v103, main_v104, main_v105]
theorem chunk7_writes : (chunk7 : List (HloOp τ sig (Elt F))).Forall fun op => op.writes ⊆ (chunk7_W.map (Proc.devRef (τ := τ) .tc)).toFinset := by
  simp only [chunk7, List.Forall]
  repeat' apply And.intro
  all_goals (simp only [nullary_writes, unary_writes, binary_writes, ternary_writes, quaternary_writes, reshape_writes, Finset.singleton_subset_iff, List.mem_toFinset]; exact List.mem_map_of_mem (by decide))
/-- A buffer the piece does not write holds after it what it held before. -/
theorem chunk7_keep (V : Valuation τ sig (Elt F)) (r : Ref sig .tc) (h : r ∉ chunk7_W) :
    after chunk7 V (Proc.devRef .tc r) = V (Proc.devRef .tc r) :=
  after_of_writes_sub chunk7 V chunk7_writes h

abbrev chunk8_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v106]
theorem chunk8_writes : (chunk8 : List (HloOp τ sig (Elt F))).Forall fun op => op.writes ⊆ (chunk8_W.map (Proc.devRef (τ := τ) .tc)).toFinset := by
  simp only [chunk8, List.Forall]
  repeat' apply And.intro
  all_goals (simp only [nullary_writes, unary_writes, binary_writes, ternary_writes, quaternary_writes, reshape_writes, Finset.singleton_subset_iff, List.mem_toFinset]; exact List.mem_map_of_mem (by decide))
/-- A buffer the piece does not write holds after it what it held before. -/
theorem chunk8_keep (V : Valuation τ sig (Elt F)) (r : Ref sig .tc) (h : r ∉ chunk8_W) :
    after chunk8 V (Proc.devRef .tc r) = V (Proc.devRef .tc r) :=
  after_of_writes_sub chunk8 V chunk8_writes h

/-! ## What each piece computes, from any contents V that hold the stage values it reads -/

set_option maxRecDepth 65536 in
set_option maxHeartbeats 8000000 in
theorem c1_main_v17 (V : Valuation τ sig (Elt F)) (x1 : (⟨S8192x2, .f32⟩ : BufTy).Contents (Elt F))
    (h_main_arg1 : V (Proc.devRef .tc main_arg1) = x1) :
    after chunk1 V (Proc.devRef .tc main_v17) = val_main_v17 (F := F) x1 := by
  after_results_simp
  simp only [TRef.ofBuf, TRef.toBuf, cast_eq, h_main_arg1]
  rfl

set_option maxRecDepth 65536 in
set_option maxHeartbeats 8000000 in
theorem c2_main_v21 (V : Valuation τ sig (Elt F)) (x2 : (⟨S2x262144, .i32⟩ : BufTy).Contents (Elt F))
    (h_main_arg2 : V (Proc.devRef .tc main_arg2) = x2) :
    after chunk2 V (Proc.devRef .tc main_v21) = val_main_v21 (F := F) x2 := by
  subst h_main_arg2
  after_results_simp
  rfl

set_option maxRecDepth 65536 in
set_option maxHeartbeats 8000000 in
theorem c2_main_v24 (V : Valuation τ sig (Elt F)) (x2 : (⟨S2x262144, .i32⟩ : BufTy).Contents (Elt F))
    (h_main_arg2 : V (Proc.devRef .tc main_arg2) = x2) :
    after chunk2 V (Proc.devRef .tc main_v24) = val_main_v24 (F := F) x2 := by
  subst h_main_arg2
  after_results_simp
  rfl

set_option maxRecDepth 65536 in
set_option maxHeartbeats 8000000 in
theorem c3_main_v34 (V : Valuation τ sig (Elt F)) (x2 : (⟨S2x262144, .i32⟩ : BufTy).Contents (Elt F))
    (h_main_v24 : V (Proc.devRef .tc main_v24) = val_main_v24 (F := F) x2) :
    after chunk3 V (Proc.devRef .tc main_v34) = val_main_v34 (F := F) x2 := by
  after_results_simp
  simp only [TRef.ofBuf, TRef.toBuf, cast_eq, h_main_v24]
  rfl

set_option maxRecDepth 65536 in
set_option maxHeartbeats 8000000 in
theorem c4_main_v49 (V : Valuation τ sig (Elt F)) (x2 : (⟨S2x262144, .i32⟩ : BufTy).Contents (Elt F))
    (h_main_v21 : V (Proc.devRef .tc main_v21) = val_main_v21 (F := F) x2)
    (h_main_v34 : V (Proc.devRef .tc main_v34) = val_main_v34 (F := F) x2)
    (h_main_v24 : V (Proc.devRef .tc main_v24) = val_main_v24 (F := F) x2) :
    after chunk4 V (Proc.devRef .tc main_v49) = val_main_v49 (F := F) x2 := by
  after_results_simp
  simp only [TRef.ofBuf, TRef.toBuf, cast_eq, h_main_v21, h_main_v34, h_main_v24]
  rfl

set_option maxRecDepth 65536 in
set_option maxHeartbeats 8000000 in
theorem c5_main_v68 (V : Valuation τ sig (Elt F)) (x0 : (⟨S8192x64, .f32⟩ : BufTy).Contents (Elt F)) (x1 : (⟨S8192x2, .f32⟩ : BufTy).Contents (Elt F)) (x2 : (⟨S2x262144, .i32⟩ : BufTy).Contents (Elt F)) (x3 : (⟨S64x32, .f32⟩ : BufTy).Contents (Elt F)) (x4 : (⟨S32, .f32⟩ : BufTy).Contents (Elt F))
    (h_main_v17 : V (Proc.devRef .tc main_v17) = val_main_v17 (F := F) x1)
    (h_main_arg0 : V (Proc.devRef .tc main_arg0) = x0)
    (h_main_arg3 : V (Proc.devRef .tc main_arg3) = x3)
    (h_main_v21 : V (Proc.devRef .tc main_v21) = val_main_v21 (F := F) x2)
    (h_main_v49 : V (Proc.devRef .tc main_v49) = val_main_v49 (F := F) x2)
    (h_main_v24 : V (Proc.devRef .tc main_v24) = val_main_v24 (F := F) x2)
    (h_main_arg4 : V (Proc.devRef .tc main_arg4) = x4) :
    after chunk5 V (Proc.devRef .tc main_v68) = val_main_v68 (F := F) x0 x1 x2 x3 x4 := by
  after_results_simp
  simp only [TRef.ofBuf, TRef.toBuf, cast_eq, h_main_v17, h_main_arg0, h_main_arg3, h_main_v21, h_main_v49, h_main_v24, h_main_arg4]
  rfl

set_option maxRecDepth 65536 in
set_option maxHeartbeats 8000000 in
theorem c6_main_v87 (V : Valuation τ sig (Elt F)) (x0 : (⟨S8192x64, .f32⟩ : BufTy).Contents (Elt F)) (x1 : (⟨S8192x2, .f32⟩ : BufTy).Contents (Elt F)) (x2 : (⟨S2x262144, .i32⟩ : BufTy).Contents (Elt F)) (x3 : (⟨S64x32, .f32⟩ : BufTy).Contents (Elt F)) (x4 : (⟨S32, .f32⟩ : BufTy).Contents (Elt F)) (x5 : (⟨S32x32, .f32⟩ : BufTy).Contents (Elt F)) (x6 : (⟨S32, .f32⟩ : BufTy).Contents (Elt F))
    (h_main_v17 : V (Proc.devRef .tc main_v17) = val_main_v17 (F := F) x1)
    (h_main_v68 : V (Proc.devRef .tc main_v68) = val_main_v68 (F := F) x0 x1 x2 x3 x4)
    (h_main_arg5 : V (Proc.devRef .tc main_arg5) = x5)
    (h_main_v21 : V (Proc.devRef .tc main_v21) = val_main_v21 (F := F) x2)
    (h_main_v49 : V (Proc.devRef .tc main_v49) = val_main_v49 (F := F) x2)
    (h_main_v24 : V (Proc.devRef .tc main_v24) = val_main_v24 (F := F) x2)
    (h_main_arg6 : V (Proc.devRef .tc main_arg6) = x6) :
    after chunk6 V (Proc.devRef .tc main_v87) = val_main_v87 (F := F) x0 x1 x2 x3 x4 x5 x6 := by
  after_results_simp
  simp only [TRef.ofBuf, TRef.toBuf, cast_eq, h_main_v17, h_main_v68, h_main_arg5, h_main_v21, h_main_v49, h_main_v24, h_main_arg6]
  rfl

set_option maxRecDepth 65536 in
set_option maxHeartbeats 8000000 in
theorem c7_main_v105 (V : Valuation τ sig (Elt F)) (x0 : (⟨S8192x64, .f32⟩ : BufTy).Contents (Elt F)) (x1 : (⟨S8192x2, .f32⟩ : BufTy).Contents (Elt F)) (x2 : (⟨S2x262144, .i32⟩ : BufTy).Contents (Elt F)) (x3 : (⟨S64x32, .f32⟩ : BufTy).Contents (Elt F)) (x4 : (⟨S32, .f32⟩ : BufTy).Contents (Elt F)) (x5 : (⟨S32x32, .f32⟩ : BufTy).Contents (Elt F)) (x6 : (⟨S32, .f32⟩ : BufTy).Contents (Elt F)) (x7 : (⟨S32x16, .f32⟩ : BufTy).Contents (Elt F)) (x8 : (⟨S16, .f32⟩ : BufTy).Contents (Elt F))
    (h_main_v17 : V (Proc.devRef .tc main_v17) = val_main_v17 (F := F) x1)
    (h_main_v87 : V (Proc.devRef .tc main_v87) = val_main_v87 (F := F) x0 x1 x2 x3 x4 x5 x6)
    (h_main_arg7 : V (Proc.devRef .tc main_arg7) = x7)
    (h_main_v21 : V (Proc.devRef .tc main_v21) = val_main_v21 (F := F) x2)
    (h_main_v49 : V (Proc.devRef .tc main_v49) = val_main_v49 (F := F) x2)
    (h_main_v24 : V (Proc.devRef .tc main_v24) = val_main_v24 (F := F) x2)
    (h_main_arg8 : V (Proc.devRef .tc main_arg8) = x8) :
    after chunk7 V (Proc.devRef .tc main_v105) = val_main_v105 (F := F) x0 x1 x2 x3 x4 x5 x6 x7 x8 := by
  after_results_simp
  simp only [TRef.ofBuf, TRef.toBuf, cast_eq, h_main_v17, h_main_v87, h_main_arg7, h_main_v21, h_main_v49, h_main_v24, h_main_arg8]
  rfl

set_option maxRecDepth 65536 in
set_option maxHeartbeats 8000000 in
theorem c8_main_v106 (V : Valuation τ sig (Elt F)) (x0 : (⟨S8192x64, .f32⟩ : BufTy).Contents (Elt F)) (x1 : (⟨S8192x2, .f32⟩ : BufTy).Contents (Elt F)) (x2 : (⟨S2x262144, .i32⟩ : BufTy).Contents (Elt F)) (x3 : (⟨S64x32, .f32⟩ : BufTy).Contents (Elt F)) (x4 : (⟨S32, .f32⟩ : BufTy).Contents (Elt F)) (x5 : (⟨S32x32, .f32⟩ : BufTy).Contents (Elt F)) (x6 : (⟨S32, .f32⟩ : BufTy).Contents (Elt F)) (x7 : (⟨S32x16, .f32⟩ : BufTy).Contents (Elt F)) (x8 : (⟨S16, .f32⟩ : BufTy).Contents (Elt F))
    (h_main_v105 : V (Proc.devRef .tc main_v105) = val_main_v105 (F := F) x0 x1 x2 x3 x4 x5 x6 x7 x8) :
    after chunk8 V (Proc.devRef .tc main_v106) = val_main_v106 (F := F) x0 x1 x2 x3 x4 x5 x6 x7 x8 := by
  after_results_simp
  simp only [TRef.ofBuf, TRef.toBuf, cast_eq, h_main_v105]
  rfl

/-! ## The contents at launch and after each piece -/

variable (m : (ℓ : Loc nD τ sig) → Buf (Elt F) ℓ) (c : Dev nD)

/-- Device c's buffer contents at launch. -/
def X0 : Valuation τ sig (Elt F) := launchContents m c
/-- After piece 1. -/
def X1 : Valuation τ sig (Elt F) := after chunk1 (X0 m c)
/-- After piece 2. -/
def X2 : Valuation τ sig (Elt F) := after chunk2 (X1 m c)
/-- After piece 3. -/
def X3 : Valuation τ sig (Elt F) := after chunk3 (X2 m c)
/-- After piece 4. -/
def X4 : Valuation τ sig (Elt F) := after chunk4 (X3 m c)
/-- After piece 5. -/
def X5 : Valuation τ sig (Elt F) := after chunk5 (X4 m c)
/-- After piece 6. -/
def X6 : Valuation τ sig (Elt F) := after chunk6 (X5 m c)
/-- After piece 7. -/
def X7 : Valuation τ sig (Elt F) := after chunk7 (X6 m c)
/-- After piece 8. -/
def X8 : Valuation τ sig (Elt F) := after chunk8 (X7 m c)

/-- The fold over the whole line from the launch contents is the contents after the last piece. -/
theorem after_ops_launch (b : DevRef τ sig) : after ops (launchContents m c) b = X8 m c b := by
  rw [after_ops]; rfl

/-! ### The arguments are never written -/
theorem X0_main_arg0 : X0 m c (Proc.devRef .tc main_arg0) = m ((c.tc : Thread nD τ).loc main_arg0) := rfl
theorem X1_main_arg0 : X1 m c (Proc.devRef .tc main_arg0) = m ((c.tc : Thread nD τ).loc main_arg0) :=
  (chunk1_keep (X0 m c) main_arg0 (by decide)).trans (X0_main_arg0 m c)
theorem X2_main_arg0 : X2 m c (Proc.devRef .tc main_arg0) = m ((c.tc : Thread nD τ).loc main_arg0) :=
  (chunk2_keep (X1 m c) main_arg0 (by decide)).trans (X1_main_arg0 m c)
theorem X3_main_arg0 : X3 m c (Proc.devRef .tc main_arg0) = m ((c.tc : Thread nD τ).loc main_arg0) :=
  (chunk3_keep (X2 m c) main_arg0 (by decide)).trans (X2_main_arg0 m c)
theorem X4_main_arg0 : X4 m c (Proc.devRef .tc main_arg0) = m ((c.tc : Thread nD τ).loc main_arg0) :=
  (chunk4_keep (X3 m c) main_arg0 (by decide)).trans (X3_main_arg0 m c)
theorem X5_main_arg0 : X5 m c (Proc.devRef .tc main_arg0) = m ((c.tc : Thread nD τ).loc main_arg0) :=
  (chunk5_keep (X4 m c) main_arg0 (by decide)).trans (X4_main_arg0 m c)
theorem X6_main_arg0 : X6 m c (Proc.devRef .tc main_arg0) = m ((c.tc : Thread nD τ).loc main_arg0) :=
  (chunk6_keep (X5 m c) main_arg0 (by decide)).trans (X5_main_arg0 m c)
theorem X7_main_arg0 : X7 m c (Proc.devRef .tc main_arg0) = m ((c.tc : Thread nD τ).loc main_arg0) :=
  (chunk7_keep (X6 m c) main_arg0 (by decide)).trans (X6_main_arg0 m c)
theorem X8_main_arg0 : X8 m c (Proc.devRef .tc main_arg0) = m ((c.tc : Thread nD τ).loc main_arg0) :=
  (chunk8_keep (X7 m c) main_arg0 (by decide)).trans (X7_main_arg0 m c)
theorem X0_main_arg1 : X0 m c (Proc.devRef .tc main_arg1) = m ((c.tc : Thread nD τ).loc main_arg1) := rfl
theorem X1_main_arg1 : X1 m c (Proc.devRef .tc main_arg1) = m ((c.tc : Thread nD τ).loc main_arg1) :=
  (chunk1_keep (X0 m c) main_arg1 (by decide)).trans (X0_main_arg1 m c)
theorem X2_main_arg1 : X2 m c (Proc.devRef .tc main_arg1) = m ((c.tc : Thread nD τ).loc main_arg1) :=
  (chunk2_keep (X1 m c) main_arg1 (by decide)).trans (X1_main_arg1 m c)
theorem X3_main_arg1 : X3 m c (Proc.devRef .tc main_arg1) = m ((c.tc : Thread nD τ).loc main_arg1) :=
  (chunk3_keep (X2 m c) main_arg1 (by decide)).trans (X2_main_arg1 m c)
theorem X4_main_arg1 : X4 m c (Proc.devRef .tc main_arg1) = m ((c.tc : Thread nD τ).loc main_arg1) :=
  (chunk4_keep (X3 m c) main_arg1 (by decide)).trans (X3_main_arg1 m c)
theorem X5_main_arg1 : X5 m c (Proc.devRef .tc main_arg1) = m ((c.tc : Thread nD τ).loc main_arg1) :=
  (chunk5_keep (X4 m c) main_arg1 (by decide)).trans (X4_main_arg1 m c)
theorem X6_main_arg1 : X6 m c (Proc.devRef .tc main_arg1) = m ((c.tc : Thread nD τ).loc main_arg1) :=
  (chunk6_keep (X5 m c) main_arg1 (by decide)).trans (X5_main_arg1 m c)
theorem X7_main_arg1 : X7 m c (Proc.devRef .tc main_arg1) = m ((c.tc : Thread nD τ).loc main_arg1) :=
  (chunk7_keep (X6 m c) main_arg1 (by decide)).trans (X6_main_arg1 m c)
theorem X8_main_arg1 : X8 m c (Proc.devRef .tc main_arg1) = m ((c.tc : Thread nD τ).loc main_arg1) :=
  (chunk8_keep (X7 m c) main_arg1 (by decide)).trans (X7_main_arg1 m c)
theorem X0_main_arg2 : X0 m c (Proc.devRef .tc main_arg2) = m ((c.tc : Thread nD τ).loc main_arg2) := rfl
theorem X1_main_arg2 : X1 m c (Proc.devRef .tc main_arg2) = m ((c.tc : Thread nD τ).loc main_arg2) :=
  (chunk1_keep (X0 m c) main_arg2 (by decide)).trans (X0_main_arg2 m c)
theorem X2_main_arg2 : X2 m c (Proc.devRef .tc main_arg2) = m ((c.tc : Thread nD τ).loc main_arg2) :=
  (chunk2_keep (X1 m c) main_arg2 (by decide)).trans (X1_main_arg2 m c)
theorem X3_main_arg2 : X3 m c (Proc.devRef .tc main_arg2) = m ((c.tc : Thread nD τ).loc main_arg2) :=
  (chunk3_keep (X2 m c) main_arg2 (by decide)).trans (X2_main_arg2 m c)
theorem X4_main_arg2 : X4 m c (Proc.devRef .tc main_arg2) = m ((c.tc : Thread nD τ).loc main_arg2) :=
  (chunk4_keep (X3 m c) main_arg2 (by decide)).trans (X3_main_arg2 m c)
theorem X5_main_arg2 : X5 m c (Proc.devRef .tc main_arg2) = m ((c.tc : Thread nD τ).loc main_arg2) :=
  (chunk5_keep (X4 m c) main_arg2 (by decide)).trans (X4_main_arg2 m c)
theorem X6_main_arg2 : X6 m c (Proc.devRef .tc main_arg2) = m ((c.tc : Thread nD τ).loc main_arg2) :=
  (chunk6_keep (X5 m c) main_arg2 (by decide)).trans (X5_main_arg2 m c)
theorem X7_main_arg2 : X7 m c (Proc.devRef .tc main_arg2) = m ((c.tc : Thread nD τ).loc main_arg2) :=
  (chunk7_keep (X6 m c) main_arg2 (by decide)).trans (X6_main_arg2 m c)
theorem X8_main_arg2 : X8 m c (Proc.devRef .tc main_arg2) = m ((c.tc : Thread nD τ).loc main_arg2) :=
  (chunk8_keep (X7 m c) main_arg2 (by decide)).trans (X7_main_arg2 m c)
theorem X0_main_arg3 : X0 m c (Proc.devRef .tc main_arg3) = m ((c.tc : Thread nD τ).loc main_arg3) := rfl
theorem X1_main_arg3 : X1 m c (Proc.devRef .tc main_arg3) = m ((c.tc : Thread nD τ).loc main_arg3) :=
  (chunk1_keep (X0 m c) main_arg3 (by decide)).trans (X0_main_arg3 m c)
theorem X2_main_arg3 : X2 m c (Proc.devRef .tc main_arg3) = m ((c.tc : Thread nD τ).loc main_arg3) :=
  (chunk2_keep (X1 m c) main_arg3 (by decide)).trans (X1_main_arg3 m c)
theorem X3_main_arg3 : X3 m c (Proc.devRef .tc main_arg3) = m ((c.tc : Thread nD τ).loc main_arg3) :=
  (chunk3_keep (X2 m c) main_arg3 (by decide)).trans (X2_main_arg3 m c)
theorem X4_main_arg3 : X4 m c (Proc.devRef .tc main_arg3) = m ((c.tc : Thread nD τ).loc main_arg3) :=
  (chunk4_keep (X3 m c) main_arg3 (by decide)).trans (X3_main_arg3 m c)
theorem X5_main_arg3 : X5 m c (Proc.devRef .tc main_arg3) = m ((c.tc : Thread nD τ).loc main_arg3) :=
  (chunk5_keep (X4 m c) main_arg3 (by decide)).trans (X4_main_arg3 m c)
theorem X6_main_arg3 : X6 m c (Proc.devRef .tc main_arg3) = m ((c.tc : Thread nD τ).loc main_arg3) :=
  (chunk6_keep (X5 m c) main_arg3 (by decide)).trans (X5_main_arg3 m c)
theorem X7_main_arg3 : X7 m c (Proc.devRef .tc main_arg3) = m ((c.tc : Thread nD τ).loc main_arg3) :=
  (chunk7_keep (X6 m c) main_arg3 (by decide)).trans (X6_main_arg3 m c)
theorem X8_main_arg3 : X8 m c (Proc.devRef .tc main_arg3) = m ((c.tc : Thread nD τ).loc main_arg3) :=
  (chunk8_keep (X7 m c) main_arg3 (by decide)).trans (X7_main_arg3 m c)
theorem X0_main_arg4 : X0 m c (Proc.devRef .tc main_arg4) = m ((c.tc : Thread nD τ).loc main_arg4) := rfl
theorem X1_main_arg4 : X1 m c (Proc.devRef .tc main_arg4) = m ((c.tc : Thread nD τ).loc main_arg4) :=
  (chunk1_keep (X0 m c) main_arg4 (by decide)).trans (X0_main_arg4 m c)
theorem X2_main_arg4 : X2 m c (Proc.devRef .tc main_arg4) = m ((c.tc : Thread nD τ).loc main_arg4) :=
  (chunk2_keep (X1 m c) main_arg4 (by decide)).trans (X1_main_arg4 m c)
theorem X3_main_arg4 : X3 m c (Proc.devRef .tc main_arg4) = m ((c.tc : Thread nD τ).loc main_arg4) :=
  (chunk3_keep (X2 m c) main_arg4 (by decide)).trans (X2_main_arg4 m c)
theorem X4_main_arg4 : X4 m c (Proc.devRef .tc main_arg4) = m ((c.tc : Thread nD τ).loc main_arg4) :=
  (chunk4_keep (X3 m c) main_arg4 (by decide)).trans (X3_main_arg4 m c)
theorem X5_main_arg4 : X5 m c (Proc.devRef .tc main_arg4) = m ((c.tc : Thread nD τ).loc main_arg4) :=
  (chunk5_keep (X4 m c) main_arg4 (by decide)).trans (X4_main_arg4 m c)
theorem X6_main_arg4 : X6 m c (Proc.devRef .tc main_arg4) = m ((c.tc : Thread nD τ).loc main_arg4) :=
  (chunk6_keep (X5 m c) main_arg4 (by decide)).trans (X5_main_arg4 m c)
theorem X7_main_arg4 : X7 m c (Proc.devRef .tc main_arg4) = m ((c.tc : Thread nD τ).loc main_arg4) :=
  (chunk7_keep (X6 m c) main_arg4 (by decide)).trans (X6_main_arg4 m c)
theorem X8_main_arg4 : X8 m c (Proc.devRef .tc main_arg4) = m ((c.tc : Thread nD τ).loc main_arg4) :=
  (chunk8_keep (X7 m c) main_arg4 (by decide)).trans (X7_main_arg4 m c)
theorem X0_main_arg5 : X0 m c (Proc.devRef .tc main_arg5) = m ((c.tc : Thread nD τ).loc main_arg5) := rfl
theorem X1_main_arg5 : X1 m c (Proc.devRef .tc main_arg5) = m ((c.tc : Thread nD τ).loc main_arg5) :=
  (chunk1_keep (X0 m c) main_arg5 (by decide)).trans (X0_main_arg5 m c)
theorem X2_main_arg5 : X2 m c (Proc.devRef .tc main_arg5) = m ((c.tc : Thread nD τ).loc main_arg5) :=
  (chunk2_keep (X1 m c) main_arg5 (by decide)).trans (X1_main_arg5 m c)
theorem X3_main_arg5 : X3 m c (Proc.devRef .tc main_arg5) = m ((c.tc : Thread nD τ).loc main_arg5) :=
  (chunk3_keep (X2 m c) main_arg5 (by decide)).trans (X2_main_arg5 m c)
theorem X4_main_arg5 : X4 m c (Proc.devRef .tc main_arg5) = m ((c.tc : Thread nD τ).loc main_arg5) :=
  (chunk4_keep (X3 m c) main_arg5 (by decide)).trans (X3_main_arg5 m c)
theorem X5_main_arg5 : X5 m c (Proc.devRef .tc main_arg5) = m ((c.tc : Thread nD τ).loc main_arg5) :=
  (chunk5_keep (X4 m c) main_arg5 (by decide)).trans (X4_main_arg5 m c)
theorem X6_main_arg5 : X6 m c (Proc.devRef .tc main_arg5) = m ((c.tc : Thread nD τ).loc main_arg5) :=
  (chunk6_keep (X5 m c) main_arg5 (by decide)).trans (X5_main_arg5 m c)
theorem X7_main_arg5 : X7 m c (Proc.devRef .tc main_arg5) = m ((c.tc : Thread nD τ).loc main_arg5) :=
  (chunk7_keep (X6 m c) main_arg5 (by decide)).trans (X6_main_arg5 m c)
theorem X8_main_arg5 : X8 m c (Proc.devRef .tc main_arg5) = m ((c.tc : Thread nD τ).loc main_arg5) :=
  (chunk8_keep (X7 m c) main_arg5 (by decide)).trans (X7_main_arg5 m c)
theorem X0_main_arg6 : X0 m c (Proc.devRef .tc main_arg6) = m ((c.tc : Thread nD τ).loc main_arg6) := rfl
theorem X1_main_arg6 : X1 m c (Proc.devRef .tc main_arg6) = m ((c.tc : Thread nD τ).loc main_arg6) :=
  (chunk1_keep (X0 m c) main_arg6 (by decide)).trans (X0_main_arg6 m c)
theorem X2_main_arg6 : X2 m c (Proc.devRef .tc main_arg6) = m ((c.tc : Thread nD τ).loc main_arg6) :=
  (chunk2_keep (X1 m c) main_arg6 (by decide)).trans (X1_main_arg6 m c)
theorem X3_main_arg6 : X3 m c (Proc.devRef .tc main_arg6) = m ((c.tc : Thread nD τ).loc main_arg6) :=
  (chunk3_keep (X2 m c) main_arg6 (by decide)).trans (X2_main_arg6 m c)
theorem X4_main_arg6 : X4 m c (Proc.devRef .tc main_arg6) = m ((c.tc : Thread nD τ).loc main_arg6) :=
  (chunk4_keep (X3 m c) main_arg6 (by decide)).trans (X3_main_arg6 m c)
theorem X5_main_arg6 : X5 m c (Proc.devRef .tc main_arg6) = m ((c.tc : Thread nD τ).loc main_arg6) :=
  (chunk5_keep (X4 m c) main_arg6 (by decide)).trans (X4_main_arg6 m c)
theorem X6_main_arg6 : X6 m c (Proc.devRef .tc main_arg6) = m ((c.tc : Thread nD τ).loc main_arg6) :=
  (chunk6_keep (X5 m c) main_arg6 (by decide)).trans (X5_main_arg6 m c)
theorem X7_main_arg6 : X7 m c (Proc.devRef .tc main_arg6) = m ((c.tc : Thread nD τ).loc main_arg6) :=
  (chunk7_keep (X6 m c) main_arg6 (by decide)).trans (X6_main_arg6 m c)
theorem X8_main_arg6 : X8 m c (Proc.devRef .tc main_arg6) = m ((c.tc : Thread nD τ).loc main_arg6) :=
  (chunk8_keep (X7 m c) main_arg6 (by decide)).trans (X7_main_arg6 m c)
theorem X0_main_arg7 : X0 m c (Proc.devRef .tc main_arg7) = m ((c.tc : Thread nD τ).loc main_arg7) := rfl
theorem X1_main_arg7 : X1 m c (Proc.devRef .tc main_arg7) = m ((c.tc : Thread nD τ).loc main_arg7) :=
  (chunk1_keep (X0 m c) main_arg7 (by decide)).trans (X0_main_arg7 m c)
theorem X2_main_arg7 : X2 m c (Proc.devRef .tc main_arg7) = m ((c.tc : Thread nD τ).loc main_arg7) :=
  (chunk2_keep (X1 m c) main_arg7 (by decide)).trans (X1_main_arg7 m c)
theorem X3_main_arg7 : X3 m c (Proc.devRef .tc main_arg7) = m ((c.tc : Thread nD τ).loc main_arg7) :=
  (chunk3_keep (X2 m c) main_arg7 (by decide)).trans (X2_main_arg7 m c)
theorem X4_main_arg7 : X4 m c (Proc.devRef .tc main_arg7) = m ((c.tc : Thread nD τ).loc main_arg7) :=
  (chunk4_keep (X3 m c) main_arg7 (by decide)).trans (X3_main_arg7 m c)
theorem X5_main_arg7 : X5 m c (Proc.devRef .tc main_arg7) = m ((c.tc : Thread nD τ).loc main_arg7) :=
  (chunk5_keep (X4 m c) main_arg7 (by decide)).trans (X4_main_arg7 m c)
theorem X6_main_arg7 : X6 m c (Proc.devRef .tc main_arg7) = m ((c.tc : Thread nD τ).loc main_arg7) :=
  (chunk6_keep (X5 m c) main_arg7 (by decide)).trans (X5_main_arg7 m c)
theorem X7_main_arg7 : X7 m c (Proc.devRef .tc main_arg7) = m ((c.tc : Thread nD τ).loc main_arg7) :=
  (chunk7_keep (X6 m c) main_arg7 (by decide)).trans (X6_main_arg7 m c)
theorem X8_main_arg7 : X8 m c (Proc.devRef .tc main_arg7) = m ((c.tc : Thread nD τ).loc main_arg7) :=
  (chunk8_keep (X7 m c) main_arg7 (by decide)).trans (X7_main_arg7 m c)
theorem X0_main_arg8 : X0 m c (Proc.devRef .tc main_arg8) = m ((c.tc : Thread nD τ).loc main_arg8) := rfl
theorem X1_main_arg8 : X1 m c (Proc.devRef .tc main_arg8) = m ((c.tc : Thread nD τ).loc main_arg8) :=
  (chunk1_keep (X0 m c) main_arg8 (by decide)).trans (X0_main_arg8 m c)
theorem X2_main_arg8 : X2 m c (Proc.devRef .tc main_arg8) = m ((c.tc : Thread nD τ).loc main_arg8) :=
  (chunk2_keep (X1 m c) main_arg8 (by decide)).trans (X1_main_arg8 m c)
theorem X3_main_arg8 : X3 m c (Proc.devRef .tc main_arg8) = m ((c.tc : Thread nD τ).loc main_arg8) :=
  (chunk3_keep (X2 m c) main_arg8 (by decide)).trans (X2_main_arg8 m c)
theorem X4_main_arg8 : X4 m c (Proc.devRef .tc main_arg8) = m ((c.tc : Thread nD τ).loc main_arg8) :=
  (chunk4_keep (X3 m c) main_arg8 (by decide)).trans (X3_main_arg8 m c)
theorem X5_main_arg8 : X5 m c (Proc.devRef .tc main_arg8) = m ((c.tc : Thread nD τ).loc main_arg8) :=
  (chunk5_keep (X4 m c) main_arg8 (by decide)).trans (X4_main_arg8 m c)
theorem X6_main_arg8 : X6 m c (Proc.devRef .tc main_arg8) = m ((c.tc : Thread nD τ).loc main_arg8) :=
  (chunk6_keep (X5 m c) main_arg8 (by decide)).trans (X5_main_arg8 m c)
theorem X7_main_arg8 : X7 m c (Proc.devRef .tc main_arg8) = m ((c.tc : Thread nD τ).loc main_arg8) :=
  (chunk7_keep (X6 m c) main_arg8 (by decide)).trans (X6_main_arg8 m c)
theorem X8_main_arg8 : X8 m c (Proc.devRef .tc main_arg8) = m ((c.tc : Thread nD τ).loc main_arg8) :=
  (chunk8_keep (X7 m c) main_arg8 (by decide)).trans (X7_main_arg8 m c)

/-! ### After each piece, the buffers later pieces read hold their stage values -/
theorem X1_main_v17 : X1 m c (Proc.devRef .tc main_v17) = val_main_v17 (F := F) (m ((c.tc : Thread nD τ).loc main_arg1)) :=
  c1_main_v17 (X0 m c) (m ((c.tc : Thread nD τ).loc main_arg1)) (X0_main_arg1 m c)
theorem X2_main_v21 : X2 m c (Proc.devRef .tc main_v21) = val_main_v21 (F := F) (m ((c.tc : Thread nD τ).loc main_arg2)) :=
  c2_main_v21 (X1 m c) (m ((c.tc : Thread nD τ).loc main_arg2)) (X1_main_arg2 m c)
theorem X2_main_v24 : X2 m c (Proc.devRef .tc main_v24) = val_main_v24 (F := F) (m ((c.tc : Thread nD τ).loc main_arg2)) :=
  c2_main_v24 (X1 m c) (m ((c.tc : Thread nD τ).loc main_arg2)) (X1_main_arg2 m c)
theorem X2_main_v17 : X2 m c (Proc.devRef .tc main_v17) = val_main_v17 (F := F) (m ((c.tc : Thread nD τ).loc main_arg1)) :=
  (chunk2_keep (X1 m c) main_v17 (by decide)).trans (X1_main_v17 m c)
theorem X3_main_v34 : X3 m c (Proc.devRef .tc main_v34) = val_main_v34 (F := F) (m ((c.tc : Thread nD τ).loc main_arg2)) :=
  c3_main_v34 (X2 m c) (m ((c.tc : Thread nD τ).loc main_arg2)) (X2_main_v24 m c)
theorem X3_main_v17 : X3 m c (Proc.devRef .tc main_v17) = val_main_v17 (F := F) (m ((c.tc : Thread nD τ).loc main_arg1)) :=
  (chunk3_keep (X2 m c) main_v17 (by decide)).trans (X2_main_v17 m c)
theorem X3_main_v21 : X3 m c (Proc.devRef .tc main_v21) = val_main_v21 (F := F) (m ((c.tc : Thread nD τ).loc main_arg2)) :=
  (chunk3_keep (X2 m c) main_v21 (by decide)).trans (X2_main_v21 m c)
theorem X3_main_v24 : X3 m c (Proc.devRef .tc main_v24) = val_main_v24 (F := F) (m ((c.tc : Thread nD τ).loc main_arg2)) :=
  (chunk3_keep (X2 m c) main_v24 (by decide)).trans (X2_main_v24 m c)
theorem X4_main_v49 : X4 m c (Proc.devRef .tc main_v49) = val_main_v49 (F := F) (m ((c.tc : Thread nD τ).loc main_arg2)) :=
  c4_main_v49 (X3 m c) (m ((c.tc : Thread nD τ).loc main_arg2)) (X3_main_v21 m c) (X3_main_v34 m c) (X3_main_v24 m c)
theorem X4_main_v17 : X4 m c (Proc.devRef .tc main_v17) = val_main_v17 (F := F) (m ((c.tc : Thread nD τ).loc main_arg1)) :=
  (chunk4_keep (X3 m c) main_v17 (by decide)).trans (X3_main_v17 m c)
theorem X4_main_v21 : X4 m c (Proc.devRef .tc main_v21) = val_main_v21 (F := F) (m ((c.tc : Thread nD τ).loc main_arg2)) :=
  (chunk4_keep (X3 m c) main_v21 (by decide)).trans (X3_main_v21 m c)
theorem X4_main_v24 : X4 m c (Proc.devRef .tc main_v24) = val_main_v24 (F := F) (m ((c.tc : Thread nD τ).loc main_arg2)) :=
  (chunk4_keep (X3 m c) main_v24 (by decide)).trans (X3_main_v24 m c)
theorem X5_main_v68 : X5 m c (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  c5_main_v68 (X4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (X4_main_v17 m c) (X4_main_arg0 m c) (X4_main_arg3 m c) (X4_main_v21 m c) (X4_main_v49 m c) (X4_main_v24 m c) (X4_main_arg4 m c)
theorem X5_main_v17 : X5 m c (Proc.devRef .tc main_v17) = val_main_v17 (F := F) (m ((c.tc : Thread nD τ).loc main_arg1)) :=
  (chunk5_keep (X4 m c) main_v17 (by decide)).trans (X4_main_v17 m c)
theorem X5_main_v21 : X5 m c (Proc.devRef .tc main_v21) = val_main_v21 (F := F) (m ((c.tc : Thread nD τ).loc main_arg2)) :=
  (chunk5_keep (X4 m c) main_v21 (by decide)).trans (X4_main_v21 m c)
theorem X5_main_v24 : X5 m c (Proc.devRef .tc main_v24) = val_main_v24 (F := F) (m ((c.tc : Thread nD τ).loc main_arg2)) :=
  (chunk5_keep (X4 m c) main_v24 (by decide)).trans (X4_main_v24 m c)
theorem X5_main_v49 : X5 m c (Proc.devRef .tc main_v49) = val_main_v49 (F := F) (m ((c.tc : Thread nD τ).loc main_arg2)) :=
  (chunk5_keep (X4 m c) main_v49 (by decide)).trans (X4_main_v49 m c)
theorem X6_main_v87 : X6 m c (Proc.devRef .tc main_v87) = val_main_v87 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  c6_main_v87 (X5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (X5_main_v17 m c) (X5_main_v68 m c) (X5_main_arg5 m c) (X5_main_v21 m c) (X5_main_v49 m c) (X5_main_v24 m c) (X5_main_arg6 m c)
theorem X6_main_v17 : X6 m c (Proc.devRef .tc main_v17) = val_main_v17 (F := F) (m ((c.tc : Thread nD τ).loc main_arg1)) :=
  (chunk6_keep (X5 m c) main_v17 (by decide)).trans (X5_main_v17 m c)
theorem X6_main_v21 : X6 m c (Proc.devRef .tc main_v21) = val_main_v21 (F := F) (m ((c.tc : Thread nD τ).loc main_arg2)) :=
  (chunk6_keep (X5 m c) main_v21 (by decide)).trans (X5_main_v21 m c)
theorem X6_main_v24 : X6 m c (Proc.devRef .tc main_v24) = val_main_v24 (F := F) (m ((c.tc : Thread nD τ).loc main_arg2)) :=
  (chunk6_keep (X5 m c) main_v24 (by decide)).trans (X5_main_v24 m c)
theorem X6_main_v49 : X6 m c (Proc.devRef .tc main_v49) = val_main_v49 (F := F) (m ((c.tc : Thread nD τ).loc main_arg2)) :=
  (chunk6_keep (X5 m c) main_v49 (by decide)).trans (X5_main_v49 m c)
theorem X7_main_v105 : X7 m c (Proc.devRef .tc main_v105) = val_main_v105 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  c7_main_v105 (X6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (X6_main_v17 m c) (X6_main_v87 m c) (X6_main_arg7 m c) (X6_main_v21 m c) (X6_main_v49 m c) (X6_main_v24 m c) (X6_main_arg8 m c)
theorem X8_main_v106 : X8 m c (Proc.devRef .tc main_v106) = val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  c8_main_v106 (X7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (X7_main_v105 m c)

/-! ## The run -/

/-- On every device, for any float values, from any memory with zero counters: every weakly fair execution of
    the reference program terminates with the result buffer at the last stage's value of the arguments as
    launched, and the arguments unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106) = val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v106).trans ((after_ops_launch m c _).trans (X8_main_v106 m c)),
      (h c main_arg0).trans ((after_ops_launch m c _).trans (X8_main_arg0 m c)),
      (h c main_arg1).trans ((after_ops_launch m c _).trans (X8_main_arg1 m c)),
      (h c main_arg2).trans ((after_ops_launch m c _).trans (X8_main_arg2 m c)),
      (h c main_arg3).trans ((after_ops_launch m c _).trans (X8_main_arg3 m c)),
      (h c main_arg4).trans ((after_ops_launch m c _).trans (X8_main_arg4 m c)),
      (h c main_arg5).trans ((after_ops_launch m c _).trans (X8_main_arg5 m c)),
      (h c main_arg6).trans ((after_ops_launch m c _).trans (X8_main_arg6 m c)),
      (h c main_arg7).trans ((after_ops_launch m c _).trans (X8_main_arg7 m c)),
      (h c main_arg8).trans ((after_ops_launch m c _).trans (X8_main_arg8 m c))⟩)
    (run_seq scopedRefs_eq scopedSems_eq defs main (fun _ => ops) main_eq (fun _ => ops_sub) m ρ)

end Cert.ReferenceIdeal.RefRun

end
-- ==== Proof.PreReal.lean ====
import proofs.«105190_j88227218195280_1_alg».proof.Defs
import proofs.«105190_j88227218195280_1_alg».proof.Proof.Gen.Pre_finite_inputs
import proofs.«105190_j88227218195280_1_alg».proof.Proof.Gen.KernelIdeal
import proofs.«105190_j88227218195280_1_alg».proof.Proof.Law
import Idealize.ShloMosaic.Lib.ReduceAll
import Idealize.ShloMosaic.Lib.ValueIdx

/-!
Real inputs from the precondition. The precondition evaluates, for each float argument x, the conjunction over all
entries of |x| < +∞, and asks that the eight conjunctions and-ed together be 1. On the extended reals |x| = max x (−x),
and max x (−x) < ⊤ excludes x = ⊤ and x = ⊥, so every entry is a real number.
-/

noncomputable section

namespace Cert.PreReal

open Idealize.ShloMosaic Idealize.SL.Sem Cert.Spatial

/-- The one index of the rank-0 shape. -/
instance : Subsingleton (⟨0, ![]⟩ : Shape).Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max x (−x) is below +∞ is a real number. -/
theorem isReal_of_abs_lt_top {x : EReal} (h : max x (-x) < ⊤) : IsReal x := by
  induction x using EReal.rec with
  | bot => exact absurd h (by simp)
  | top => exact absurd h (by simp)
  | coe r => exact ⟨r, rfl⟩

/-- A one-bit word made from a truth value is 1 exactly when the value is true. -/
theorem ofBool_eq_one {b : Bool} : BitVec.ofBool b = 1#1 ↔ b = true := by cases b <;> decide

/-- An entry at which the test |x| < +∞ came out 1 is a real number. -/
theorem entry_real {S : Shape} (hb : (⟨0, ![]⟩ : Shape).BroadcastsInDim S (![] : Fin 0 → Fin S.rank))
    (x : FVec Ideal S .f32) (i : S.Idx)
    (h : cmpf .olt (Host.absf x) (broadcastInDim S ![] hb (constant (F := Ideal) (⟨0, ![]⟩ : Shape) .f32 0x7F800000#32)) i = 1#1) :
    IsReal (x i) := by
  refine isReal_of_abs_lt_top ?_
  have h' : BitVec.ofBool (decide (max (x i) (-(x i)) < Ideal.ofBits .f32 0x7F800000#32)) = 1#1 := h
  rw [inf_word] at h'
  exact of_decide_eq_true (ofBool_eq_one.1 h')

/-- If the conjunction of |x| < +∞ over all entries of x came out 1, every entry of x is a real number. -/
theorem all_real {S : Shape} {axes : List (Fin S.rank)}
    (hb : (⟨0, ![]⟩ : Shape).BroadcastsInDim S (![] : Fin 0 → Fin S.rank))
    (hr : S.ReducesTo axes (⟨0, ![]⟩ : Shape)) (hu : 0 < (⟨0, ![]⟩ : Shape).numel) (x : FVec Ideal S .f32)
    (h : Host.reduce IntOp.andi
        (cmpf .olt (Host.absf x) (broadcastInDim S ![] hb (constant (F := Ideal) (⟨0, ![]⟩ : Shape) .f32 0x7F800000#32)))
        (constantI (⟨0, ![]⟩ : Shape) 1 1#1) hr hu ValueIdx.ix0 = 1#1) :
    AllReal (x : S.Idx → EReal) :=
  fun i => entry_real hb x i (Host.reduce_andi_all _ _ hr hu ValueIdx.ix0 h i)

/-- If the precondition's function is all ones, every entry of each of its eight float arguments is real. -/
theorem fn_real [hF : Cert.Pre_finite_inputs.Facts]
    (a0 : FVec Ideal Cert.Pre_finite_inputs.S8192x64 .f32) (a1 : FVec Ideal Cert.Pre_finite_inputs.S8192x2 .f32)
    (a2 : IVec Cert.Pre_finite_inputs.S2x262144 32) (a3 : FVec Ideal Cert.Pre_finite_inputs.S64x32 .f32)
    (a4 : FVec Ideal Cert.Pre_finite_inputs.S32 .f32) (a5 : FVec Ideal Cert.Pre_finite_inputs.S32x32 .f32)
    (a6 : FVec Ideal Cert.Pre_finite_inputs.S32 .f32) (a7 : FVec Ideal Cert.Pre_finite_inputs.S32x16 .f32)
    (a8 : FVec Ideal Cert.Pre_finite_inputs.S16 .f32)
    (h : Cert.Pre_finite_inputs.fn (F := Ideal) a0 a1 a2 a3 a4 a5 a6 a7 a8 = fun _ => 1#1) :
    AllReal (a0 : _ → EReal) ∧ AllReal (a1 : _ → EReal) ∧ AllReal (a3 : _ → EReal) ∧ AllReal (a4 : _ → EReal)
      ∧ AllReal (a5 : _ → EReal) ∧ AllReal (a6 : _ → EReal) ∧ AllReal (a7 : _ → EReal) ∧ AllReal (a8 : _ → EReal) := by
  have h0 := congrFun h ValueIdx.ix0
  dsimp only [Cert.Pre_finite_inputs.fn, Cert.Pre_finite_inputs.fn_part1, Cert.Pre_finite_inputs.fn_part2, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e1⟩ := IntOp.andi_eq_one.1 h0
  exact ⟨all_real _ _ _ a0 e0, all_real _ _ _ a1 e1, all_real _ _ _ a3 e3, all_real _ _ _ a4 e4,
    all_real _ _ _ a5 e5, all_real _ _ _ a6 e6, all_real _ _ _ a7 e7, all_real _ _ _ a8 e8⟩

/-- Under the certificate's precondition every entry of every float argument of the kernel is a real number. -/
theorem pre_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    AllReal (m ((c.tc : Thread Cert.KernelIdeal.nD Cert.KernelIdeal.τ).loc Cert.KernelIdeal.main_arg0) : Cert.KernelIdeal.S8192x64.Idx → EReal)
    ∧ AllReal (m ((c.tc : Thread Cert.KernelIdeal.nD Cert.KernelIdeal.τ).loc Cert.KernelIdeal.main_arg1) : Cert.KernelIdeal.S8192x2.Idx → EReal)
    ∧ AllReal (m ((c.tc : Thread Cert.KernelIdeal.nD Cert.KernelIdeal.τ).loc Cert.KernelIdeal.main_arg3) : Cert.KernelIdeal.S64x32.Idx → EReal)
    ∧ AllReal (m ((c.tc : Thread Cert.KernelIdeal.nD Cert.KernelIdeal.τ).loc Cert.KernelIdeal.main_arg4) : Cert.KernelIdeal.S32.Idx → EReal)
    ∧ AllReal (m ((c.tc : Thread Cert.KernelIdeal.nD Cert.KernelIdeal.τ).loc Cert.KernelIdeal.main_arg5) : Cert.KernelIdeal.S32x32.Idx → EReal)
    ∧ AllReal (m ((c.tc : Thread Cert.KernelIdeal.nD Cert.KernelIdeal.τ).loc Cert.KernelIdeal.main_arg6) : Cert.KernelIdeal.S32.Idx → EReal)
    ∧ AllReal (m ((c.tc : Thread Cert.KernelIdeal.nD Cert.KernelIdeal.τ).loc Cert.KernelIdeal.main_arg7) : Cert.KernelIdeal.S32x16.Idx → EReal)
    ∧ AllReal (m ((c.tc : Thread Cert.KernelIdeal.nD Cert.KernelIdeal.τ).loc Cert.KernelIdeal.main_arg8) : Cert.KernelIdeal.S16.Idx → EReal) :=
  fn_real (hF := Cert.Pre_finite_inputs.Gen.facts) _ _ _ _ _ _ _ _ _ (h c)

end Cert.PreReal

end
-- ==== Proof.lean ====
/-
  The certificate: the kernel program and the reference compute the same network on the extended reals.

  Both programs are three graph-convolution layers, each preceded by a spatial aggregation with the weights
  K(i, j) = exp(−max(rᵢ + rⱼ − 2 pᵢ·pⱼ, 0) · c) over the 8192 nodes, followed by a log-softmax. The reference
  forms the 8192 × 8192 matrix K and multiplies; the kernel sums (K(i, j) − 1) · a(j) over 16 groups of 512
  nodes and adds the column sum Σⱼ a(j). Where the coordinates and the features a are real numbers,
  (K − 1) · a + a = K · a term by term, so the two aggregations agree; the layers between them are the same
  host operations, and they keep the features real, so the agreement carries through the three layers.
  The precondition makes every float argument real.

  The three frames: the two kernel programs' are the generated frame certificates; the reference has no kernel,
  and its frame is its run with the result dropped. No operation was rewritten between the kernel program and
  its idealization.
-/
import proofs.«105190_j88227218195280_1_alg».proof.Defs
import proofs.«105190_j88227218195280_1_alg».proof.Proof.Gen.Kernel
import proofs.«105190_j88227218195280_1_alg».proof.Proof.Gen.Kernel.Skeleton
import proofs.«105190_j88227218195280_1_alg».proof.Proof.Gen.Kernel.Launch
import proofs.«105190_j88227218195280_1_alg».proof.Proof.Gen.Kernel.Points
import proofs.«105190_j88227218195280_1_alg».proof.Proof.Gen.Kernel.Frame
import proofs.«105190_j88227218195280_1_alg».proof.Proof.Gen.KernelIdeal
import proofs.«105190_j88227218195280_1_alg».proof.Proof.Gen.KernelIdeal.Skeleton
import proofs.«105190_j88227218195280_1_alg».proof.Proof.Gen.KernelIdeal.Launch
import proofs.«105190_j88227218195280_1_alg».proof.Proof.Gen.KernelIdeal.Points
import proofs.«105190_j88227218195280_1_alg».proof.Proof.Gen.KernelIdeal.Frame
import proofs.«105190_j88227218195280_1_alg».proof.Proof.Gen.ReferenceIdeal
import proofs.«105190_j88227218195280_1_alg».proof.Proof.Gen.Pre_finite_inputs
import proofs.«105190_j88227218195280_1_alg».proof.Proof.KernelRun
import proofs.«105190_j88227218195280_1_alg».proof.Proof.KernelValue
import proofs.«105190_j88227218195280_1_alg».proof.Proof.BodyValue0
import proofs.«105190_j88227218195280_1_alg».proof.Proof.BodyValue1
import proofs.«105190_j88227218195280_1_alg».proof.Proof.BodyValue2
import proofs.«105190_j88227218195280_1_alg».proof.Proof.RefCompose
import proofs.«105190_j88227218195280_1_alg».proof.Proof.RefRunHand
import proofs.«105190_j88227218195280_1_alg».proof.Proof.PreReal
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run_ref (F := Ideal) m ρ)

/-- Both programs end with the network's function of the (agreeing, real) arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩) (Cert.KernelIdeal.RunValue.run_main (F := Ideal) m ρ)
    obtain ⟨r0, r1, r3, r4, r5, r6, -, -⟩ := Cert.PreReal.pre_real m hpre c
    exact Cert.KernelIdeal.KernelValue.result_eq m ρ c Cert.KernelIdeal.BodyValue.out0_4_apply Cert.KernelIdeal.BodyValue.out1_4_apply
      Cert.KernelIdeal.BodyValue.out2_4_apply r0 r1 r3 r4 r5 r6
  · refine (θ_run Cert.ReferenceIdeal.defs _ _).mono (fun r h c => ⟨(h c).1.trans ?_, (h c).2⟩) (Cert.ReferenceIdeal.RefRun.run_ref (F := Ideal) m' ρ')
    obtain ⟨e0, e1, e2, e3, e4, e5, e6, e7, e8⟩ := hagree c
    rw [e0, e1, e2, e3, e4, e5, e6, e7, e8]
    exact Cert.ReferenceIdeal.RefCompose.ref_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
